-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128x128 .f32) (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : IVec S1600000 32) (main_arg21 : IVec S1600000 32) (main_arg22 : IVec S1600000 32) (main_arg23 : IVec S1600000 32) (main_arg24 : IVec S1600000 32) (main_arg25 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S1600000x128 : Shape := ⟨2, ![1600000, 128]⟩
abbrev S1x128 : Shape := ⟨2, ![1, 128]⟩
abbrev S5000x128 : Shape := ⟨2, ![5000, 128]⟩
abbrev S1x100000x128 : Shape := ⟨3, ![1, 100000, 128]⟩
abbrev S2x100000x128 : Shape := ⟨3, ![2, 100000, 128]⟩

abbrev nBuf : Space → Nat
  | .hbm => 290
  | .vmem => 81
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S1600000, .i32⟩
  | 21 => ⟨S1600000, .i32⟩
  | 22 => ⟨S1600000, .i32⟩
  | 23 => ⟨S1600000, .i32⟩
  | 24 => ⟨S1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S_, .f32⟩
  | 41 => ⟨S1600000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S100000x1, .f32⟩
  | 54 => ⟨S_, .f32⟩
  | 55 => ⟨S1600000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S_, .f32⟩
  | 62 => ⟨S100000, .f32⟩
  | 63 => ⟨S100000, .f32⟩
  | 64 => ⟨S_, .f32⟩
  | 65 => ⟨S100000, .f32⟩
  | 66 => ⟨S100000, .f32⟩
  | 67 => ⟨S100000x1, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S_, .f32⟩
  | 76 => ⟨S100000, .f32⟩
  | 77 => ⟨S100000, .f32⟩
  | 78 => ⟨S_, .f32⟩
  | 79 => ⟨S100000, .f32⟩
  | 80 => ⟨S100000, .f32⟩
  | 81 => ⟨S100000x1, .f32⟩
  | 82 => ⟨S_, .f32⟩
  | 83 => ⟨S1600000, .f32⟩
  | 84 => ⟨S_, .f32⟩
  | 85 => ⟨S100000, .f32⟩
  | 86 => ⟨S1600000x1, .i32⟩
  | 87 => ⟨S100000, .f32⟩
  | 88 => ⟨S_, .f32⟩
  | 89 => ⟨S_, .f32⟩
  | 90 => ⟨S100000, .f32⟩
  | 91 => ⟨S100000, .f32⟩
  | 92 => ⟨S_, .f32⟩
  | 93 => ⟨S100000, .f32⟩
  | 94 => ⟨S100000, .f32⟩
  | 95 => ⟨S100000x1, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S_, .f32⟩
  | 104 => ⟨S100000, .f32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S_, .f32⟩
  | 14 => ⟨S100000x128, .f32⟩
  | 15 => ⟨S1600000x1, .i32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S100000x128, .f32⟩
  | 32 => ⟨S100000x128, .f32⟩
  | 33 => ⟨S100000x128, .f32⟩
  | 34 => ⟨S100000x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S100000x128, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S100000x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_2 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S_, .f32⟩
  | 17 => ⟨S100000x128, .f32⟩
  | 18 => ⟨S1600000x1, .i32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S1x100000x128, .f32⟩
  | 32 => ⟨S1x100000x128, .f32⟩
  | 33 => ⟨S2x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S10000x128, .f32⟩
  | .local _ .vmem, ⟨28, _⟩ => ⟨S10000x128, .f32⟩
  | .local _ .vmem, ⟨29, _⟩ => ⟨S128x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S128x128, .f32⟩
  | .local _ .vmem, ⟨40, _⟩ => ⟨S10000x128, .f32⟩
  | .local _ .vmem, ⟨41, _⟩ => ⟨S10000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S10000x128, .f32⟩
  | .local _ .vmem, ⟨55, _⟩ => ⟨S10000x128, .f32⟩
  | .local _ .vmem, ⟨56, _⟩ => ⟨S128x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S10000x128, .f32⟩
  | .local _ .vmem, ⟨61, _⟩ => ⟨S128x128, .f32⟩
  | .local _ .vmem, ⟨62, _⟩ => ⟨S10000x128, .f32⟩
  | .local _ .vmem, ⟨63, _⟩ => ⟨S10000x128, .f32⟩
  | .local _ .vmem, ⟨64, _⟩ => ⟨S10000x128, .f32⟩
  | .local _ .vmem, ⟨65, _⟩ => ⟨S10000x128, .f32⟩
  | .local _ .vmem, ⟨66, _⟩ => ⟨S128x128, .f32⟩
  | .local _ .vmem, ⟨67, _⟩ => ⟨S10000x128, .f32⟩
  | .local _ .vmem, ⟨68, _⟩ => ⟨S10000x128, .f32⟩
  | .local _ .vmem, ⟨69, _⟩ => ⟨S5000x128, .f32⟩
  | .local _ .vmem, ⟨70, _⟩ => ⟨S5000x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S1x128, .f32⟩
  | .local _ .vmem, ⟨79, _⟩ => ⟨S5000x128, .f32⟩
  | .local _ .vmem, ⟨80, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v4 : Ref sig .tc := ⟨.hbm, 35, rfl⟩
abbrev main_cst_2 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_v8 : Ref sig .tc := ⟨.hbm, 41, rfl⟩
abbrev main_cst_4 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_v12 : Ref sig .tc := ⟨.hbm, 49, rfl⟩
abbrev main_cst_6 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_7 : Ref sig .tc := ⟨.hbm, 54, rfl⟩
abbrev main_v16 : Ref sig .tc := ⟨.hbm, 55, rfl⟩
abbrev main_cst_8 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_9 : Ref sig .tc := ⟨.hbm, 60, rfl⟩
abbrev main_call2_v0 : Ref sig .tc := ⟨.hbm, 61, rfl⟩
abbrev main_call2_v1 : Ref sig .tc := ⟨.hbm, 62, rfl⟩
abbrev main_v20 : Ref sig .tc := ⟨.hbm, 63, rfl⟩
abbrev main_cst_10 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_11 : Ref sig .tc := ⟨.hbm, 68, rfl⟩
abbrev main_v24 : Ref sig .tc := ⟨.hbm, 69, rfl⟩
abbrev main_cst_12 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_13 : Ref sig .tc := ⟨.hbm, 74, rfl⟩
abbrev main_call3_v0 : Ref sig .tc := ⟨.hbm, 75, rfl⟩
abbrev main_call3_v1 : Ref sig .tc := ⟨.hbm, 76, rfl⟩
abbrev main_v28 : Ref sig .tc := ⟨.hbm, 77, rfl⟩
abbrev main_cst_14 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_15 : Ref sig .tc := ⟨.hbm, 82, rfl⟩
abbrev main_v32 : Ref sig .tc := ⟨.hbm, 83, rfl⟩
abbrev main_cst_16 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_17 : Ref sig .tc := ⟨.hbm, 88, rfl⟩
abbrev main_call4_v0 : Ref sig .tc := ⟨.hbm, 89, rfl⟩
abbrev main_call4_v1 : Ref sig .tc := ⟨.hbm, 90, rfl⟩
abbrev main_v36 : Ref sig .tc := ⟨.hbm, 91, rfl⟩
abbrev main_cst_18 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_19 : Ref sig .tc := ⟨.hbm, 96, rfl⟩
abbrev main_v40 : Ref sig .tc := ⟨.hbm, 97, rfl⟩
abbrev main_cst_20 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_21 : Ref sig .tc := ⟨.hbm, 102, rfl⟩
abbrev main_call5_v0 : Ref sig .tc := ⟨.hbm, 103, rfl⟩
abbrev main_call5_v1 : Ref sig .tc := ⟨.hbm, 104, rfl⟩
abbrev main_v44 : Ref sig .tc := ⟨.hbm, 105, rfl⟩
abbrev main_cst_22 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_c : Ref sig .tc := ⟨.hbm, 119, rfl⟩
abbrev main_v57 : Ref sig .tc := ⟨.hbm, 120, rfl⟩
abbrev main_v58 : Ref sig .tc := ⟨.hbm, 121, rfl⟩
abbrev main_c_23 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_24 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_c_25 : Ref sig .tc := ⟨.hbm, 132, rfl⟩
abbrev main_v67 : Ref sig .tc := ⟨.hbm, 133, rfl⟩
abbrev main_v68 : Ref sig .tc := ⟨.hbm, 134, rfl⟩
abbrev main_c_26 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_27 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_c_28 : Ref sig .tc := ⟨.hbm, 145, rfl⟩
abbrev main_v77 : Ref sig .tc := ⟨.hbm, 146, rfl⟩
abbrev main_v78 : Ref sig .tc := ⟨.hbm, 147, rfl⟩
abbrev main_c_29 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_30 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_c_31 : Ref sig .tc := ⟨.hbm, 178, rfl⟩
abbrev main_v107 : Ref sig .tc := ⟨.hbm, 179, rfl⟩
abbrev main_v108 : Ref sig .tc := ⟨.hbm, 180, rfl⟩
abbrev main_c_32 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_33 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_c_34 : Ref sig .tc := ⟨.hbm, 191, rfl⟩
abbrev main_v117 : Ref sig .tc := ⟨.hbm, 192, rfl⟩
abbrev main_v118 : Ref sig .tc := ⟨.hbm, 193, rfl⟩
abbrev main_c_35 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_36 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_c_37 : Ref sig .tc := ⟨.hbm, 204, rfl⟩
abbrev main_v127 : Ref sig .tc := ⟨.hbm, 205, rfl⟩
abbrev main_v128 : Ref sig .tc := ⟨.hbm, 206, rfl⟩
abbrev main_c_38 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_cst_39 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_c_40 : Ref sig .tc := ⟨.hbm, 237, rfl⟩
abbrev main_v157 : Ref sig .tc := ⟨.hbm, 238, rfl⟩
abbrev main_v158 : Ref sig .tc := ⟨.hbm, 239, rfl⟩
abbrev main_c_41 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_cst_42 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_c_43 : Ref sig .tc := ⟨.hbm, 250, rfl⟩
abbrev main_v167 : Ref sig .tc := ⟨.hbm, 251, rfl⟩
abbrev main_v168 : Ref sig .tc := ⟨.hbm, 252, rfl⟩
abbrev main_c_44 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_cst_45 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_c_46 : Ref sig .tc := ⟨.hbm, 263, rfl⟩
abbrev main_v177 : Ref sig .tc := ⟨.hbm, 264, rfl⟩
abbrev main_v178 : Ref sig .tc := ⟨.hbm, 265, rfl⟩
abbrev main_c_47 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_cst_48 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg1_1 : Ref sig .tc := ⟨.vmem, 50, rfl⟩
abbrev cc9_stg2_0 : Ref sig .tc := ⟨.vmem, 51, rfl⟩
abbrev cc9_stg3_0 : Ref sig .tc := ⟨.vmem, 52, rfl⟩
abbrev cc9_stg3_1 : Ref sig .tc := ⟨.vmem, 53, rfl⟩
abbrev cc10_stg0_0 : Ref sig .tc := ⟨.vmem, 54, rfl⟩
abbrev cc10_stg0_1 : Ref sig .tc := ⟨.vmem, 55, rfl⟩
abbrev cc10_stg1_0 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc12_stg0_0 : Ref sig .tc := ⟨.vmem, 64, rfl⟩
abbrev cc12_stg0_1 : Ref sig .tc := ⟨.vmem, 65, rfl⟩
abbrev cc12_stg1_0 : Ref sig .tc := ⟨.vmem, 66, rfl⟩
abbrev cc12_stg2_0 : Ref sig .tc := ⟨.vmem, 67, rfl⟩
abbrev cc12_stg2_1 : Ref sig .tc := ⟨.vmem, 68, rfl⟩
abbrev cc13_stg0_0 : Ref sig .tc := ⟨.vmem, 69, rfl⟩
abbrev cc13_stg0_1 : Ref sig .tc := ⟨.vmem, 70, rfl⟩
abbrev cc13_stg1_0 : Ref sig .tc := ⟨.vmem, 71, rfl⟩
abbrev cc13_stg2_0 : Ref sig .tc := ⟨.vmem, 72, rfl⟩
abbrev cc13_stg2_1 : Ref sig .tc := ⟨.vmem, 73, rfl⟩
abbrev cc14_stg0_0 : Ref sig .tc := ⟨.vmem, 74, rfl⟩
abbrev cc14_stg0_1 : Ref sig .tc := ⟨.vmem, 75, rfl⟩
abbrev cc14_stg1_0 : Ref sig .tc := ⟨.vmem, 76, rfl⟩
abbrev cc14_stg1_1 : Ref sig .tc := ⟨.vmem, 77, rfl⟩
abbrev cc14_stg2_0 : Ref sig .tc := ⟨.vmem, 78, rfl⟩
abbrev cc14_stg3_0 : Ref sig .tc := ⟨.vmem, 79, rfl⟩
abbrev cc14_stg3_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem1_1 : DmaSem sig := 50
abbrev cc9_sem2_0 : DmaSem sig := 51
abbrev cc9_sem3_0 : DmaSem sig := 52
abbrev cc9_sem3_1 : DmaSem sig := 53
abbrev cc10_sem0_0 : DmaSem sig := 54
abbrev cc10_sem0_1 : DmaSem sig := 55
abbrev cc10_sem1_0 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc12_sem0_0 : DmaSem sig := 64
abbrev cc12_sem0_1 : DmaSem sig := 65
abbrev cc12_sem1_0 : DmaSem sig := 66
abbrev cc12_sem2_0 : DmaSem sig := 67
abbrev cc12_sem2_1 : DmaSem sig := 68
abbrev cc13_sem0_0 : DmaSem sig := 69
abbrev cc13_sem0_1 : DmaSem sig := 70
abbrev cc13_sem1_0 : DmaSem sig := 71
abbrev cc13_sem2_0 : DmaSem sig := 72
abbrev cc13_sem2_1 : DmaSem sig := 73
abbrev cc14_sem0_0 : DmaSem sig := 74
abbrev cc14_sem0_1 : DmaSem sig := 75
abbrev cc14_sem1_0 : DmaSem sig := 76
abbrev cc14_sem1_1 : DmaSem sig := 77
abbrev cc14_sem2_0 : DmaSem sig := 78
abbrev cc14_sem3_0 : DmaSem sig := 79
abbrev cc14_sem3_1 : DmaSem sig := 80

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S10000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S100000x128.size a
  hwx7_2 : ∀ i : grid7.Coords, EltTy.bits .f32 = 32 ∨ (Rect.block (s := S100000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x128.size a ≤ S100000x128.size a
  hwx10_0 : ∀ i : grid10.Coords, EltTy.bits .f32 = 32 ∨ (Rect.block (s := S100000x128) S10000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x128.size a ≤ S100000x128.size a
  hwx10_2 : ∀ i : grid10.Coords, EltTy.bits .f32 = 32 ∨ (Rect.block (s := S100000x128) S10000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x128.size a ≤ S100000x128.size a
  hwx11_2 : ∀ i : grid11.Coords, EltTy.bits .f32 = 32 ∨ (Rect.block (s := S100000x128) S10000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x128.size a ≤ S100000x128.size a
  hwx12_2 : ∀ i : grid12.Coords, EltTy.bits .f32 = 32 ∨ (Rect.block (s := S100000x128) S10000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x128.size a ≤ S100000x128.size a
  hwx13_2 : ∀ i : grid13.Coords, EltTy.bits .f32 = 32 ∨ (Rect.block (s := S100000x128) S5000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S100000x128.size a
  hwx14_1 : ∀ i : grid14.Coords, EltTy.bits .f32 = 32 ∨ (Rect.block (s := S100000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S100000x128.size a
  hwx14_3 : ∀ i : grid14.Coords, EltTy.bits .f32 = 32 ∨ (Rect.block (s := S100000x128) S5000x128.size (cc14_transform_3 i) (hinb14_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v49) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v90) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v99) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v101) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v103) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v138) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v143) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v146) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v140) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v142) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v145) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v147) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v149) S10000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v154) S10000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v151) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg16) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v155) S10000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v153) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg18) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v156) S10000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v188) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v193) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v196) S5000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v190) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v192) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v195) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v197) S5000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x100000x128 : Shape := ⟨3, ![1, 100000, 128]⟩
abbrev S2x100000x128 : Shape := ⟨3, ![2, 100000, 128]⟩

abbrev nBuf : Space → Nat
  | .hbm => 467
  | .vmem => 0
  | .smem => 0
  | _ => 0

abbrev hbmTy0_0 (i : Nat) : BufTy := match i % 128 with
  | 0 => ⟨S100000x128, .f32⟩
  | 1 => ⟨S100000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S1600000, .i32⟩
  | 21 => ⟨S1600000, .i32⟩
  | 22 => ⟨S1600000, .i32⟩
  | 23 => ⟨S1600000, .i32⟩
  | 24 => ⟨S1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S_, .f32⟩
  | 34 => ⟨S100000, .f32⟩
  | 35 => ⟨S100000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S_, .f32⟩
  | 42 => ⟨S100000, .f32⟩
  | 43 => ⟨S100000, .f32⟩
  | 44 => ⟨S100000x1, .f32⟩
  | 45 => ⟨S_, .f32⟩
  | 46 => ⟨S100000x1, .f32⟩
  | 47 => ⟨S100000x1, .f32⟩
  | 48 => ⟨S100000x128, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S_, .f32⟩
  | 84 => ⟨S100000, .f32⟩
  | 85 => ⟨S1600000x1, .i32⟩
  | 86 => ⟨S100000, .f32⟩
  | 87 => ⟨S_, .f32⟩
  | 88 => ⟨S_, .f32⟩
  | 89 => ⟨S100000, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S1600000, .f32⟩
  | 122 => ⟨S_, .f32⟩
  | 123 => ⟨S100000, .f32⟩
  | 124 => ⟨S1600000x1, .i32⟩
  | 125 => ⟨S100000, .f32⟩
  | 126 => ⟨S_, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S_, .f32⟩
  | 3 => ⟨S100000, .f32⟩
  | 4 => ⟨S1600000x1, .i32⟩
  | 5 => ⟨S100000, .f32⟩
  | 6 => ⟨S_, .f32⟩
  | 7 => ⟨S_, .f32⟩
  | 8 => ⟨S100000, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x1, .f32⟩
  | 31 => ⟨S_, .f32⟩
  | 32 => ⟨S100000x1, .f32⟩
  | 33 => ⟨S100000x1, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S_, .f32⟩
  | 47 => ⟨S1600000, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S_, .f32⟩
  | 54 => ⟨S100000, .f32⟩
  | 55 => ⟨S100000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S_, .f32⟩
  | 62 => ⟨S100000, .f32⟩
  | 63 => ⟨S100000, .f32⟩
  | 64 => ⟨S100000x1, .f32⟩
  | 65 => ⟨S_, .f32⟩
  | 66 => ⟨S100000x1, .f32⟩
  | 67 => ⟨S100000x1, .f32⟩
  | 68 => ⟨S100000x128, .f32⟩
  | 69 => ⟨S100000x128, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S1600000, .f32⟩
  | 95 => ⟨S_, .f32⟩
  | 96 => ⟨S100000, .f32⟩
  | 97 => ⟨S1600000x1, .i32⟩
  | 98 => ⟨S100000, .f32⟩
  | 99 => ⟨S_, .f32⟩
  | 100 => ⟨S_, .f32⟩
  | 101 => ⟨S100000, .f32⟩
  | 102 => ⟨S100000, .f32⟩
  | 103 => ⟨S_, .f32⟩
  | 104 => ⟨S100000, .f32⟩
  | 105 => ⟨S1600000x1, .i32⟩
  | 106 => ⟨S100000, .f32⟩
  | 107 => ⟨S_, .f32⟩
  | 108 => ⟨S_, .f32⟩
  | 109 => ⟨S100000, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S100000x128, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x128, .f32⟩
  | 127 => ⟨S_, .f32⟩
  | _ => ⟨S100000x128, .f32⟩

abbrev hbmTy0_2 (i : Nat) : BufTy := match i % 128 with
  | 0 => ⟨S100000x128, .f32⟩
  | 1 => ⟨S1600000x1, .i32⟩
  | 2 => ⟨S100000x128, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S100000x1, .f32⟩
  | 31 => ⟨S_, .f32⟩
  | 32 => ⟨S100000x1, .f32⟩
  | 33 => ⟨S100000x1, .f32⟩
  | 34 => ⟨S100000x128, .f32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S_, .f32⟩
  | 67 => ⟨S1600000, .f32⟩
  | 68 => ⟨S_, .f32⟩
  | 69 => ⟨S100000, .f32⟩
  | 70 => ⟨S1600000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S_, .f32⟩
  | 82 => ⟨S100000, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S1600000, .f32⟩
  | 115 => ⟨S_, .f32⟩
  | 116 => ⟨S100000, .f32⟩
  | 117 => ⟨S1600000x1, .i32⟩
  | 118 => ⟨S100000, .f32⟩
  | 119 => ⟨S_, .f32⟩
  | 120 => ⟨S_, .f32⟩
  | 121 => ⟨S100000, .f32⟩
  | 122 => ⟨S100000, .f32⟩
  | 123 => ⟨S_, .f32⟩
  | 124 => ⟨S100000, .f32⟩
  | 125 => ⟨S1600000x1, .i32⟩
  | 126 => ⟨S100000, .f32⟩
  | 127 => ⟨S_, .f32⟩
  | _ => ⟨S100000x128, .f32⟩

abbrev hbmTy0_3 (i : Nat) : BufTy := match i % 128 with
  | 0 => ⟨S_, .f32⟩
  | 1 => ⟨S100000, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S_, .f32⟩
  | 48 => ⟨S100000, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S100000x1, .f32⟩
  | 71 => ⟨S_, .f32⟩
  | 72 => ⟨S100000x1, .f32⟩
  | 73 => ⟨S100000x1, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S1x100000x128, .f32⟩
  | 81 => ⟨S1x100000x128, .f32⟩
  | 82 => ⟨S2x100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v4 : Ref sig .tc := ⟨.hbm, 35, rfl⟩
abbrev main_cst_2 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v8 : Ref sig .tc := ⟨.hbm, 43, rfl⟩
abbrev main_v9 : Ref sig .tc := ⟨.hbm, 44, rfl⟩
abbrev main_cst_4 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c : Ref sig .tc := ⟨.hbm, 51, rfl⟩
abbrev main_v15 : Ref sig .tc := ⟨.hbm, 52, rfl⟩
abbrev main_v16 : Ref sig .tc := ⟨.hbm, 53, rfl⟩
abbrev main_c_5 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_7 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_8 : Ref sig .tc := ⟨.hbm, 73, rfl⟩
abbrev main_v33 : Ref sig .tc := ⟨.hbm, 74, rfl⟩
abbrev main_cst_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_10 : Ref sig .tc := ⟨.hbm, 79, rfl⟩
abbrev main_call2_v0 : Ref sig .tc := ⟨.hbm, 80, rfl⟩
abbrev main_call2_v1 : Ref sig .tc := ⟨.hbm, 81, rfl⟩
abbrev main_v37 : Ref sig .tc := ⟨.hbm, 82, rfl⟩
abbrev main_cst_11 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_12 : Ref sig .tc := ⟨.hbm, 87, rfl⟩
abbrev main_call3_v0 : Ref sig .tc := ⟨.hbm, 88, rfl⟩
abbrev main_call3_v1 : Ref sig .tc := ⟨.hbm, 89, rfl⟩
abbrev main_v41 : Ref sig .tc := ⟨.hbm, 90, rfl⟩
abbrev main_v42 : Ref sig .tc := ⟨.hbm, 91, rfl⟩
abbrev main_cst_13 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_14 : Ref sig .tc := ⟨.hbm, 98, rfl⟩
abbrev main_v48 : Ref sig .tc := ⟨.hbm, 99, rfl⟩
abbrev main_v49 : Ref sig .tc := ⟨.hbm, 100, rfl⟩
abbrev main_c_15 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_16 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_17 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_18 : Ref sig .tc := ⟨.hbm, 120, rfl⟩
abbrev main_v66 : Ref sig .tc := ⟨.hbm, 121, rfl⟩
abbrev main_cst_19 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_20 : Ref sig .tc := ⟨.hbm, 126, rfl⟩
abbrev main_call4_v0 : Ref sig .tc := ⟨.hbm, 127, rfl⟩
abbrev main_call4_v1 : Ref sig .tc := ⟨.hbm, 128, rfl⟩
abbrev main_v70 : Ref sig .tc := ⟨.hbm, 129, rfl⟩
abbrev main_cst_21 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_22 : Ref sig .tc := ⟨.hbm, 134, rfl⟩
abbrev main_call5_v0 : Ref sig .tc := ⟨.hbm, 135, rfl⟩
abbrev main_call5_v1 : Ref sig .tc := ⟨.hbm, 136, rfl⟩
abbrev main_v74 : Ref sig .tc := ⟨.hbm, 137, rfl⟩
abbrev main_v75 : Ref sig .tc := ⟨.hbm, 138, rfl⟩
abbrev main_cst_23 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_c_24 : Ref sig .tc := ⟨.hbm, 145, rfl⟩
abbrev main_v81 : Ref sig .tc := ⟨.hbm, 146, rfl⟩
abbrev main_v82 : Ref sig .tc := ⟨.hbm, 147, rfl⟩
abbrev main_c_25 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_26 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_cst_27 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_call6_cst : Ref sig .tc := ⟨.hbm, 168, rfl⟩
abbrev main_call6_v0 : Ref sig .tc := ⟨.hbm, 169, rfl⟩
abbrev main_v100 : Ref sig .tc := ⟨.hbm, 170, rfl⟩
abbrev main_call7_cst : Ref sig .tc := ⟨.hbm, 171, rfl⟩
abbrev main_call7_v0 : Ref sig .tc := ⟨.hbm, 172, rfl⟩
abbrev main_v101 : Ref sig .tc := ⟨.hbm, 173, rfl⟩
abbrev main_cst_28 : Ref sig .tc := ⟨.hbm, 174, rfl⟩
abbrev main_v102 : Ref sig .tc := ⟨.hbm, 175, rfl⟩
abbrev main_cst_29 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_30 : Ref sig .tc := ⟨.hbm, 180, rfl⟩
abbrev main_call8_v0 : Ref sig .tc := ⟨.hbm, 181, rfl⟩
abbrev main_call8_v1 : Ref sig .tc := ⟨.hbm, 182, rfl⟩
abbrev main_v106 : Ref sig .tc := ⟨.hbm, 183, rfl⟩
abbrev main_cst_31 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_32 : Ref sig .tc := ⟨.hbm, 188, rfl⟩
abbrev main_call9_v0 : Ref sig .tc := ⟨.hbm, 189, rfl⟩
abbrev main_call9_v1 : Ref sig .tc := ⟨.hbm, 190, rfl⟩
abbrev main_v110 : Ref sig .tc := ⟨.hbm, 191, rfl⟩
abbrev main_v111 : Ref sig .tc := ⟨.hbm, 192, rfl⟩
abbrev main_cst_33 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_c_34 : Ref sig .tc := ⟨.hbm, 199, rfl⟩
abbrev main_v117 : Ref sig .tc := ⟨.hbm, 200, rfl⟩
abbrev main_v118 : Ref sig .tc := ⟨.hbm, 201, rfl⟩
abbrev main_c_35 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_36 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_37 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_cst_38 : Ref sig .tc := ⟨.hbm, 221, rfl⟩
abbrev main_v135 : Ref sig .tc := ⟨.hbm, 222, rfl⟩
abbrev main_cst_39 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_40 : Ref sig .tc := ⟨.hbm, 227, rfl⟩
abbrev main_call10_v0 : Ref sig .tc := ⟨.hbm, 228, rfl⟩
abbrev main_call10_v1 : Ref sig .tc := ⟨.hbm, 229, rfl⟩
abbrev main_v139 : Ref sig .tc := ⟨.hbm, 230, rfl⟩
abbrev main_cst_41 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_cst_42 : Ref sig .tc := ⟨.hbm, 235, rfl⟩
abbrev main_call11_v0 : Ref sig .tc := ⟨.hbm, 236, rfl⟩
abbrev main_call11_v1 : Ref sig .tc := ⟨.hbm, 237, rfl⟩
abbrev main_v143 : Ref sig .tc := ⟨.hbm, 238, rfl⟩
abbrev main_v144 : Ref sig .tc := ⟨.hbm, 239, rfl⟩
abbrev main_cst_43 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_c_44 : Ref sig .tc := ⟨.hbm, 246, rfl⟩
abbrev main_v150 : Ref sig .tc := ⟨.hbm, 247, rfl⟩
abbrev main_v151 : Ref sig .tc := ⟨.hbm, 248, rfl⟩
abbrev main_c_45 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_cst_46 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_cst_47 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_cst_48 : Ref sig .tc := ⟨.hbm, 268, rfl⟩
abbrev main_v168 : Ref sig .tc := ⟨.hbm, 269, rfl⟩
abbrev main_cst_49 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_cst_50 : Ref sig .tc := ⟨.hbm, 274, rfl⟩
abbrev main_call12_v0 : Ref sig .tc := ⟨.hbm, 275, rfl⟩
abbrev main_call12_v1 : Ref sig .tc := ⟨.hbm, 276, rfl⟩
abbrev main_v172 : Ref sig .tc := ⟨.hbm, 277, rfl⟩
abbrev main_cst_51 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_52 : Ref sig .tc := ⟨.hbm, 282, rfl⟩
abbrev main_call13_v0 : Ref sig .tc := ⟨.hbm, 283, rfl⟩
abbrev main_call13_v1 : Ref sig .tc := ⟨.hbm, 284, rfl⟩
abbrev main_v176 : Ref sig .tc := ⟨.hbm, 285, rfl⟩
abbrev main_v177 : Ref sig .tc := ⟨.hbm, 286, rfl⟩
abbrev main_cst_53 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_c_54 : Ref sig .tc := ⟨.hbm, 293, rfl⟩
abbrev main_v183 : Ref sig .tc := ⟨.hbm, 294, rfl⟩
abbrev main_v184 : Ref sig .tc := ⟨.hbm, 295, rfl⟩
abbrev main_c_55 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_cst_56 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_cst_57 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_call14_cst : Ref sig .tc := ⟨.hbm, 316, rfl⟩
abbrev main_call14_v0 : Ref sig .tc := ⟨.hbm, 317, rfl⟩
abbrev main_v202 : Ref sig .tc := ⟨.hbm, 318, rfl⟩
abbrev main_call15_cst : Ref sig .tc := ⟨.hbm, 319, rfl⟩
abbrev main_call15_v0 : Ref sig .tc := ⟨.hbm, 320, rfl⟩
abbrev main_v203 : Ref sig .tc := ⟨.hbm, 321, rfl⟩
abbrev main_cst_58 : Ref sig .tc := ⟨.hbm, 322, rfl⟩
abbrev main_v204 : Ref sig .tc := ⟨.hbm, 323, rfl⟩
abbrev main_cst_59 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_cst_60 : Ref sig .tc := ⟨.hbm, 328, rfl⟩
abbrev main_call16_v0 : Ref sig .tc := ⟨.hbm, 329, rfl⟩
abbrev main_call16_v1 : Ref sig .tc := ⟨.hbm, 330, rfl⟩
abbrev main_v208 : Ref sig .tc := ⟨.hbm, 331, rfl⟩
abbrev main_cst_61 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_cst_62 : Ref sig .tc := ⟨.hbm, 336, rfl⟩
abbrev main_call17_v0 : Ref sig .tc := ⟨.hbm, 337, rfl⟩
abbrev main_call17_v1 : Ref sig .tc := ⟨.hbm, 338, rfl⟩
abbrev main_v212 : Ref sig .tc := ⟨.hbm, 339, rfl⟩
abbrev main_v213 : Ref sig .tc := ⟨.hbm, 340, rfl⟩
abbrev main_cst_63 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_c_64 : Ref sig .tc := ⟨.hbm, 347, rfl⟩
abbrev main_v219 : Ref sig .tc := ⟨.hbm, 348, rfl⟩
abbrev main_v220 : Ref sig .tc := ⟨.hbm, 349, rfl⟩
abbrev main_c_65 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_cst_66 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_cst_67 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_cst_68 : Ref sig .tc := ⟨.hbm, 369, rfl⟩
abbrev main_v237 : Ref sig .tc := ⟨.hbm, 370, rfl⟩
abbrev main_cst_69 : Ref sig .tc := ⟨.hbm, 371, rfl⟩
abbrev main_v238 : Ref sig .tc := ⟨.hbm, 372, rfl⟩
abbrev main_v239 : Ref sig .tc := ⟨.hbm, 373, rfl⟩
abbrev main_v240 : Ref sig .tc := ⟨.hbm, 374, rfl⟩
abbrev main_cst_70 : Ref sig .tc := ⟨.hbm, 375, rfl⟩
abbrev main_call18_v0 : Ref sig .tc := ⟨.hbm, 376, rfl⟩
abbrev main_call18_v1 : Ref sig .tc := ⟨.hbm, 377, rfl⟩
abbrev main_v241 : Ref sig .tc := ⟨.hbm, 378, rfl⟩
abbrev main_cst_71 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_cst_72 : Ref sig .tc := ⟨.hbm, 383, rfl⟩
abbrev main_call19_v0 : Ref sig .tc := ⟨.hbm, 384, rfl⟩
abbrev main_call19_v1 : Ref sig .tc := ⟨.hbm, 385, rfl⟩
abbrev main_v245 : Ref sig .tc := ⟨.hbm, 386, rfl⟩
abbrev main_v246 : Ref sig .tc := ⟨.hbm, 387, rfl⟩
abbrev main_cst_73 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩
abbrev main_c_74 : Ref sig .tc := ⟨.hbm, 394, rfl⟩
abbrev main_v252 : Ref sig .tc := ⟨.hbm, 395, rfl⟩
abbrev main_v253 : Ref sig .tc := ⟨.hbm, 396, rfl⟩
abbrev main_c_75 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_v257 : Ref sig .tc := ⟨.hbm, 401, rfl⟩
abbrev main_v258 : Ref sig .tc := ⟨.hbm, 402, rfl⟩
abbrev main_cst_76 : Ref sig .tc := ⟨.hbm, 403, rfl⟩
abbrev main_v259 : Ref sig .tc := ⟨.hbm, 404, rfl⟩
abbrev main_v260 : Ref sig .tc := ⟨.hbm, 405, rfl⟩
abbrev main_v261 : Ref sig .tc := ⟨.hbm, 406, rfl⟩
abbrev main_v262 : Ref sig .tc := ⟨.hbm, 407, rfl⟩
abbrev main_cst_77 : Ref sig .tc := ⟨.hbm, 408, rfl⟩
abbrev main_v263 : Ref sig .tc := ⟨.hbm, 409, rfl⟩
abbrev main_v264 : Ref sig .tc := ⟨.hbm, 410, rfl⟩
abbrev main_v265 : Ref sig .tc := ⟨.hbm, 411, rfl⟩
abbrev main_v266 : Ref sig .tc := ⟨.hbm, 412, rfl⟩
abbrev main_v267 : Ref sig .tc := ⟨.hbm, 413, rfl⟩
abbrev main_v268 : Ref sig .tc := ⟨.hbm, 414, rfl⟩
abbrev main_v269 : Ref sig .tc := ⟨.hbm, 415, rfl⟩
abbrev main_cst_78 : Ref sig .tc := ⟨.hbm, 416, rfl⟩
abbrev main_v270 : Ref sig .tc := ⟨.hbm, 417, rfl⟩
abbrev main_cst_79 : Ref sig .tc := ⟨.hbm, 418, rfl⟩
abbrev main_v271 : Ref sig .tc := ⟨.hbm, 419, rfl⟩
abbrev main_v272 : Ref sig .tc := ⟨.hbm, 420, rfl⟩
abbrev main_v273 : Ref sig .tc := ⟨.hbm, 421, rfl⟩
abbrev main_cst_80 : Ref sig .tc := ⟨.hbm, 422, rfl⟩
abbrev main_call20_v0 : Ref sig .tc := ⟨.hbm, 423, rfl⟩
abbrev main_call20_v1 : Ref sig .tc := ⟨.hbm, 424, rfl⟩
abbrev main_v274 : Ref sig .tc := ⟨.hbm, 425, rfl⟩
abbrev main_cst_81 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_cst_82 : Ref sig .tc := ⟨.hbm, 430, rfl⟩
abbrev main_call21_v0 : Ref sig .tc := ⟨.hbm, 431, rfl⟩
abbrev main_call21_v1 : Ref sig .tc := ⟨.hbm, 432, rfl⟩
abbrev main_v278 : Ref sig .tc := ⟨.hbm, 433, rfl⟩
abbrev main_v279 : Ref sig .tc := ⟨.hbm, 434, rfl⟩
abbrev main_cst_83 : Ref sig .tc := ⟨.hbm, 435, rfl⟩
abbrev main_v280 : Ref sig .tc := ⟨.hbm, 436, rfl⟩
abbrev main_v281 : Ref sig .tc := ⟨.hbm, 437, rfl⟩
abbrev main_v282 : Ref sig .tc := ⟨.hbm, 438, rfl⟩
abbrev main_v283 : Ref sig .tc := ⟨.hbm, 439, rfl⟩
abbrev main_v284 : Ref sig .tc := ⟨.hbm, 440, rfl⟩
abbrev main_c_84 : Ref sig .tc := ⟨.hbm, 441, rfl⟩
abbrev main_v285 : Ref sig .tc := ⟨.hbm, 442, rfl⟩
abbrev main_v286 : Ref sig .tc := ⟨.hbm, 443, rfl⟩
abbrev main_c_85 : Ref sig .tc := ⟨.hbm, 444, rfl⟩
abbrev main_v287 : Ref sig .tc := ⟨.hbm, 445, rfl⟩
abbrev main_v288 : Ref sig .tc := ⟨.hbm, 446, rfl⟩
abbrev main_v289 : Ref sig .tc := ⟨.hbm, 447, rfl⟩
abbrev main_v290 : Ref sig .tc := ⟨.hbm, 448, rfl⟩
abbrev main_v291 : Ref sig .tc := ⟨.hbm, 449, rfl⟩
abbrev main_cst_86 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_cst_87 : Ref sig .tc := ⟨.hbm, 455, rfl⟩
abbrev main_v296 : Ref sig .tc := ⟨.hbm, 456, rfl⟩
abbrev main_v297 : Ref sig .tc := ⟨.hbm, 457, rfl⟩
abbrev main_v298 : Ref sig .tc := ⟨.hbm, 458, rfl⟩
abbrev main_v299 : Ref sig .tc := ⟨.hbm, 459, rfl⟩
abbrev main_v300 : Ref sig .tc := ⟨.hbm, 460, rfl⟩
abbrev main_v301 : Ref sig .tc := ⟨.hbm, 461, rfl⟩
abbrev main_v302 : Ref sig .tc := ⟨.hbm, 462, rfl⟩
abbrev main_v303 : Ref sig .tc := ⟨.hbm, 463, rfl⟩
abbrev main_v304 : Ref sig .tc := ⟨.hbm, 464, rfl⟩
abbrev main_v305 : Ref sig .tc := ⟨.hbm, 465, rfl⟩
abbrev main_v306 : Ref sig .tc := ⟨.hbm, 466, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Keep.lean ====
/-
  What each stretch of host operations leaves alone. A stretch writes only the buffers of its own results, so
  any other buffer holds after the stretch what it held before it.
-/
import proofs.«156020_j6296422056695_1_alg».proof.Proof.Gen.KernelIdeal.Frame

noncomputable section

open scoped BigOperators

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- One operation's result buffer is among the listed references. -/
theorem single_sub {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The references `hostOps0` writes. -/
def wr1 : List (Ref sig .tc) := [main_cst, main_v0, main_cst_0, main_v1, main_v2, main_v3, main_cst_1]
theorem writes1 : (hostOps0 : List (HloOp τ sig (Elt F))).Forall fun op => op.writes ⊆ (wr1.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0` does not write is unchanged across it. -/
theorem keep1 (c : Dev nD) (r : Ref sig .tc) (h : r ∉ wr1) :
    W1 m ρ c (Proc.devRef .tc r) = W0 m ρ c (Proc.devRef .tc r) :=
  StableHlo.after_of_writes_sub _ _ writes1 h

/-- The references `hostOps0_1` writes. -/
def wr2 : List (Ref sig .tc) := [main_call0_v0, main_call0_v1, main_v4]
theorem writes2 : (hostOps0_1 : List (HloOp τ sig (Elt F))).Forall fun op => op.writes ⊆ (wr2.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_1` does not write is unchanged across it. -/
theorem keep2 (c : Dev nD) (r : Ref sig .tc) (h : r ∉ wr2) :
    W2 m ρ c (Proc.devRef .tc r) = W1 m ρ c (Proc.devRef .tc r) :=
  StableHlo.after_of_writes_sub _ _ writes2 h

/-- The references `hostOps0_2` writes. -/
def wr3 : List (Ref sig .tc) := [main_cst_2, main_v5, main_v6, main_v7, main_cst_3, main_v8, main_cst_4, main_v9, main_v10, main_v11, main_cst_5]
theorem writes3 : (hostOps0_2 : List (HloOp τ sig (Elt F))).Forall fun op => op.writes ⊆ (wr3.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_2` does not write is unchanged across it. -/
theorem keep3 (c : Dev nD) (r : Ref sig .tc) (h : r ∉ wr3) :
    W3 m ρ c (Proc.devRef .tc r) = W2 m ρ c (Proc.devRef .tc r) :=
  StableHlo.after_of_writes_sub _ _ writes3 h

/-- The references `hostOps0_3` writes. -/
def wr4 : List (Ref sig .tc) := [main_call1_v0, main_call1_v1, main_v12]
theorem writes4 : (hostOps0_3 : List (HloOp τ sig (Elt F))).Forall fun op => op.writes ⊆ (wr4.map (Proc.devRef (τ := τ) .tc)).toFinset := by
  simp only [hostOps0_3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_3` does not write is unchanged across it. -/
theorem keep4 (c : Dev nD) (r : Ref sig .tc) (h : r ∉ wr4) :
    W4 m ρ c (Proc.devRef .tc r) = W3 m ρ c (Proc.devRef .tc r) :=
  StableHlo.after_of_writes_sub _ _ writes4 h

/-- The references `hostOps0_4` writes. -/
def wr5 : List (Ref sig .tc) := [main_cst_6, main_v13, main_v14, main_v15, main_cst_7, main_v16, main_cst_8, main_v17, main_v18, main_v19, main_cst_9]
theorem writes5 : (hostOps0_4 : List (HloOp τ sig (Elt F))).Forall fun op => op.writes ⊆ (wr5.map (Proc.devRef (τ := τ) .tc)).toFinset := by
  simp only [hostOps0_4, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_4` does not write is unchanged across it. -/
theorem keep5 (c : Dev nD) (r : Ref sig .tc) (h : r ∉ wr5) :
    W5 m ρ c (Proc.devRef .tc r) = W4 m ρ c (Proc.devRef .tc r) :=
  StableHlo.after_of_writes_sub _ _ writes5 h

/-- The references `hostOps0_5` writes. -/
def wr6 : List (Ref sig .tc) := [main_call2_v0, main_call2_v1, main_v20]
theorem writes6 : (hostOps0_5 : List (HloOp τ sig (Elt F))).Forall fun op => op.writes ⊆ (wr6.map (Proc.devRef (τ := τ) .tc)).toFinset := by
  simp only [hostOps0_5, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_5` does not write is unchanged across it. -/
theorem keep6 (c : Dev nD) (r : Ref sig .tc) (h : r ∉ wr6) :
    W6 m ρ c (Proc.devRef .tc r) = W5 m ρ c (Proc.devRef .tc r) :=
  StableHlo.after_of_writes_sub _ _ writes6 h

/-- The references `hostOps0_6` writes. -/
def wr7 : List (Ref sig .tc) := [main_cst_10, main_v21, main_v22, main_v23, main_cst_11, main_v24, main_cst_12, main_v25, main_v26, main_v27, main_cst_13]
theorem writes7 : (hostOps0_6 : List (HloOp τ sig (Elt F))).Forall fun op => op.writes ⊆ (wr7.map (Proc.devRef (τ := τ) .tc)).toFinset := by
  simp only [hostOps0_6, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_6` does not write is unchanged across it. -/
theorem keep7 (c : Dev nD) (r : Ref sig .tc) (h : r ∉ wr7) :
    W7 m ρ c (Proc.devRef .tc r) = W6 m ρ c (Proc.devRef .tc r) :=
  StableHlo.after_of_writes_sub _ _ writes7 h

/-- The references `hostOps0_7` writes. -/
def wr8 : List (Ref sig .tc) := [main_call3_v0, main_call3_v1, main_v28]
theorem writes8 : (hostOps0_7 : List (HloOp τ sig (Elt F))).Forall fun op => op.writes ⊆ (wr8.map (Proc.devRef (τ := τ) .tc)).toFinset := by
  simp only [hostOps0_7, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_7` does not write is unchanged across it. -/
theorem keep8 (c : Dev nD) (r : Ref sig .tc) (h : r ∉ wr8) :
    W8 m ρ c (Proc.devRef .tc r) = W7 m ρ c (Proc.devRef .tc r) :=
  StableHlo.after_of_writes_sub _ _ writes8 h

/-- The references `hostOps0_8` writes. -/
def wr9 : List (Ref sig .tc) := [main_cst_14, main_v29, main_v30, main_v31, main_cst_15, main_v32, main_cst_16, main_v33, main_v34, main_v35, main_cst_17]
theorem writes9 : (hostOps0_8 : List (HloOp τ sig (Elt F))).Forall fun op => op.writes ⊆ (wr9.map (Proc.devRef (τ := τ) .tc)).toFinset := by
  simp only [hostOps0_8, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_8` does not write is unchanged across it. -/
theorem keep9 (c : Dev nD) (r : Ref sig .tc) (h : r ∉ wr9) :
    W9 m ρ c (Proc.devRef .tc r) = W8 m ρ c (Proc.devRef .tc r) :=
  StableHlo.after_of_writes_sub _ _ writes9 h

/-- The references `hostOps0_9` writes. -/
def wr10 : List (Ref sig .tc) := [main_call4_v0, main_call4_v1, main_v36]
theorem writes10 : (hostOps0_9 : List (HloOp τ sig (Elt F))).Forall fun op => op.writes ⊆ (wr10.map (Proc.devRef (τ := τ) .tc)).toFinset := by
  simp only [hostOps0_9, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_9` does not write is unchanged across it. -/
theorem keep10 (c : Dev nD) (r : Ref sig .tc) (h : r ∉ wr10) :
    W10 m ρ c (Proc.devRef .tc r) = W9 m ρ c (Proc.devRef .tc r) :=
  StableHlo.after_of_writes_sub _ _ writes10 h

/-- The references `hostOps0_10` writes. -/
def wr11 : List (Ref sig .tc) := [main_cst_18, main_v37, main_v38, main_v39, main_cst_19, main_v40, main_cst_20, main_v41, main_v42, main_v43, main_cst_21]
theorem writes11 : (hostOps0_10 : List (HloOp τ sig (Elt F))).Forall fun op => op.writes ⊆ (wr11.map (Proc.devRef (τ := τ) .tc)).toFinset := by
  simp only [hostOps0_10, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_10` does not write is unchanged across it. -/
theorem keep11 (c : Dev nD) (r : Ref sig .tc) (h : r ∉ wr11) :
    W11 m ρ c (Proc.devRef .tc r) = W10 m ρ c (Proc.devRef .tc r) :=
  StableHlo.after_of_writes_sub _ _ writes11 h

/-- The references `hostOps0_11` writes. -/
def wr12 : List (Ref sig .tc) := [main_call5_v0, main_call5_v1, main_v44]
theorem writes12 : (hostOps0_11 : List (HloOp τ sig (Elt F))).Forall fun op => op.writes ⊆ (wr12.map (Proc.devRef (τ := τ) .tc)).toFinset := by
  simp only [hostOps0_11, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_11` does not write is unchanged across it. -/
theorem keep12 (c : Dev nD) (r : Ref sig .tc) (h : r ∉ wr12) :
    W12 m ρ c (Proc.devRef .tc r) = W11 m ρ c (Proc.devRef .tc r) :=
  StableHlo.after_of_writes_sub _ _ writes12 h

/-- The references `hostOps0_12` writes. -/
def wr13 : List (Ref sig .tc) := [main_cst_22, main_v45, main_v46, main_v47, main_v48, main_v49, main_v50, main_v51, main_v52, main_v53]
theorem writes13 : (hostOps0_12 : List (HloOp τ sig (Elt F))).Forall fun op => op.writes ⊆ (wr13.map (Proc.devRef (τ := τ) .tc)).toFinset := by
  simp only [hostOps0_12, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps0_12` does not write is unchanged across it. -/
theorem keep13 (c : Dev nD) (r : Ref sig .tc) (h : r ∉ wr13) :
    W13 m ρ c (Proc.devRef .tc r) = W12 m ρ c (Proc.devRef .tc r) :=
  StableHlo.after_of_writes_sub _ _ writes13 h

/-- The references `hostOps3` writes. -/
def wr17 : List (Ref sig .tc) := [main_c, main_v57, main_v58, main_c_23, main_v59, main_v60, main_v61, main_v62, main_v63, main_cst_24, main_v64, main_v65, main_v66, main_c_25, main_v67, main_v68, main_c_26, main_v69, main_v70, main_v71, main_v72, main_v73, main_cst_27, main_v74, main_v75, main_v76, main_c_28, main_v77, main_v78, main_c_29, main_v79, main_v80, main_v81, main_v82, main_v83, main_cst_30, main_v84, main_v85, main_v86, main_v87, main_v88, main_v89, main_v90, main_v91, main_v92, main_v93, main_v94, main_v95]
theorem writes17 : (hostOps3 : List (HloOp τ sig (Elt F))).Forall fun op => op.writes ⊆ (wr17.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps3` does not write is unchanged across it. -/
theorem keep17 (c : Dev nD) (r : Ref sig .tc) (h : r ∉ wr17) :
    W17 m ρ c (Proc.devRef .tc r) = W16 m ρ c (Proc.devRef .tc r) :=
  StableHlo.after_of_writes_sub _ _ writes17 h

/-- The references `hostOps5` writes. -/
def wr20 : List (Ref sig .tc) := [main_v98, main_v99, main_v100, main_v101, main_v102, main_v103]
theorem writes20 : (hostOps5 : List (HloOp τ sig (Elt F))).Forall fun op => op.writes ⊆ (wr20.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps5` does not write is unchanged across it. -/
theorem keep20 (c : Dev nD) (r : Ref sig .tc) (h : r ∉ wr20) :
    W20 m ρ c (Proc.devRef .tc r) = W19 m ρ c (Proc.devRef .tc r) :=
  StableHlo.after_of_writes_sub _ _ writes20 h

/-- The references `hostOps8` writes. -/
def wr24 : List (Ref sig .tc) := [main_c_31, main_v107, main_v108, main_c_32, main_v109, main_v110, main_v111, main_v112, main_v113, main_cst_33, main_v114, main_v115, main_v116, main_c_34, main_v117, main_v118, main_c_35, main_v119, main_v120, main_v121, main_v122, main_v123, main_cst_36, main_v124, main_v125, main_v126, main_c_37, main_v127, main_v128, main_c_38, main_v129, main_v130, main_v131, main_v132, main_v133, main_cst_39, main_v134, main_v135, main_v136, main_v137, main_v138, main_v139, main_v140, main_v141, main_v142, main_v143, main_v144, main_v145]
theorem writes24 : (hostOps8 : List (HloOp τ sig (Elt F))).Forall fun op => op.writes ⊆ (wr24.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps8` does not write is unchanged across it. -/
theorem keep24 (c : Dev nD) (r : Ref sig .tc) (h : r ∉ wr24) :
    W24 m ρ c (Proc.devRef .tc r) = W23 m ρ c (Proc.devRef .tc r) :=
  StableHlo.after_of_writes_sub _ _ writes24 h

/-- The references `hostOps10` writes. -/
def wr27 : List (Ref sig .tc) := [main_v148, main_v149, main_v150, main_v151, main_v152, main_v153]
theorem writes27 : (hostOps10 : List (HloOp τ sig (Elt F))).Forall fun op => op.writes ⊆ (wr27.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps10` does not write is unchanged across it. -/
theorem keep27 (c : Dev nD) (r : Ref sig .tc) (h : r ∉ wr27) :
    W27 m ρ c (Proc.devRef .tc r) = W26 m ρ c (Proc.devRef .tc r) :=
  StableHlo.after_of_writes_sub _ _ writes27 h

/-- The references `hostOps13` writes. -/
def wr31 : List (Ref sig .tc) := [main_c_40, main_v157, main_v158, main_c_41, main_v159, main_v160, main_v161, main_v162, main_v163, main_cst_42, main_v164, main_v165, main_v166, main_c_43, main_v167, main_v168, main_c_44, main_v169, main_v170, main_v171, main_v172, main_v173, main_cst_45, main_v174, main_v175, main_v176, main_c_46, main_v177, main_v178, main_c_47, main_v179, main_v180, main_v181, main_v182, main_v183, main_cst_48, main_v184, main_v185, main_v186, main_v187, main_v188, main_v189, main_v190, main_v191, main_v192, main_v193, main_v194, main_v195]
theorem writes31 : (hostOps13 : List (HloOp τ sig (Elt F))).Forall fun op => op.writes ⊆ (wr31.map (Proc.devRef (τ := τ) .tc)).toFinset := by
  simp only [hostOps13, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps13` does not write is unchanged across it. -/
theorem keep31 (c : Dev nD) (r : Ref sig .tc) (h : r ∉ wr31) :
    W31 m ρ c (Proc.devRef .tc r) = W30 m ρ c (Proc.devRef .tc r) :=
  StableHlo.after_of_writes_sub _ _ writes31 h

/-- The references `hostOps15` writes. -/
def wr34 : List (Ref sig .tc) := [main_v198, main_v199, main_v200]
theorem writes34 : (hostOps15 : List (HloOp τ sig (Elt F))).Forall fun op => op.writes ⊆ (wr34.map (Proc.devRef (τ := τ) .tc)).toFinset := by
  simp only [hostOps15, List.Forall, StableHlo.nullary_writes, StableHlo.unary_writes, StableHlo.binary_writes, StableHlo.ternary_writes, StableHlo.quaternary_writes, StableHlo.reshape_writes, StableHlo.binaryIndexed_writes]
  repeat' apply And.intro
  all_goals exact single_sub (by decide)
/-- A buffer `hostOps15` does not write is unchanged across it. -/
theorem keep34 (c : Dev nD) (r : Ref sig .tc) (h : r ∉ wr34) :
    W34 m ρ c (Proc.devRef .tc r) = W33 m ρ c (Proc.devRef .tc r) :=
  StableHlo.after_of_writes_sub _ _ writes34 h

end Cert.KernelIdeal.Keep

end
-- ==== Proof.Args.lean ====
/-
  The argument arrays as launched, named once, and the fact that a buffer nothing has written still holds
  its launch contents.
-/
import proofs.«156020_j6296422056695_1_alg».proof.Proof.Keep
import Idealize.ShloMosaic.PureOps.Ideal

noncomputable section

open scoped BigOperators

namespace Cert.KernelIdeal.Track

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)
/-- Argument 0 as launched. -/
abbrev a0 : Buf (Elt Ideal) ((c : Thread nD τ).loc main_arg0) := m ((c : Thread nD τ).loc main_arg0)
/-- Argument 1 as launched. -/
abbrev a1 : Buf (Elt Ideal) ((c : Thread nD τ).loc main_arg1) := m ((c : Thread nD τ).loc main_arg1)
/-- Argument 2 as launched. -/
abbrev a2 : Buf (Elt Ideal) ((c : Thread nD τ).loc main_arg2) := m ((c : Thread nD τ).loc main_arg2)
/-- Argument 3 as launched. -/
abbrev a3 : Buf (Elt Ideal) ((c : Thread nD τ).loc main_arg3) := m ((c : Thread nD τ).loc main_arg3)
/-- Argument 4 as launched. -/
abbrev a4 : Buf (Elt Ideal) ((c : Thread nD τ).loc main_arg4) := m ((c : Thread nD τ).loc main_arg4)
/-- Argument 5 as launched. -/
abbrev a5 : Buf (Elt Ideal) ((c : Thread nD τ).loc main_arg5) := m ((c : Thread nD τ).loc main_arg5)
/-- Argument 6 as launched. -/
abbrev a6 : Buf (Elt Ideal) ((c : Thread nD τ).loc main_arg6) := m ((c : Thread nD τ).loc main_arg6)
/-- Argument 7 as launched. -/
abbrev a7 : Buf (Elt Ideal) ((c : Thread nD τ).loc main_arg7) := m ((c : Thread nD τ).loc main_arg7)
/-- Argument 8 as launched. -/
abbrev a8 : Buf (Elt Ideal) ((c : Thread nD τ).loc main_arg8) := m ((c : Thread nD τ).loc main_arg8)
/-- Argument 9 as launched. -/
abbrev a9 : Buf (Elt Ideal) ((c : Thread nD τ).loc main_arg9) := m ((c : Thread nD τ).loc main_arg9)
/-- Argument 10 as launched. -/
abbrev a10 : Buf (Elt Ideal) ((c : Thread nD τ).loc main_arg10) := m ((c : Thread nD τ).loc main_arg10)
/-- Argument 11 as launched. -/
abbrev a11 : Buf (Elt Ideal) ((c : Thread nD τ).loc main_arg11) := m ((c : Thread nD τ).loc main_arg11)
/-- Argument 12 as launched. -/
abbrev a12 : Buf (Elt Ideal) ((c : Thread nD τ).loc main_arg12) := m ((c : Thread nD τ).loc main_arg12)
/-- Argument 13 as launched. -/
abbrev a13 : Buf (Elt Ideal) ((c : Thread nD τ).loc main_arg13) := m ((c : Thread nD τ).loc main_arg13)
/-- Argument 14 as launched. -/
abbrev a14 : Buf (Elt Ideal) ((c : Thread nD τ).loc main_arg14) := m ((c : Thread nD τ).loc main_arg14)
/-- Argument 15 as launched. -/
abbrev a15 : Buf (Elt Ideal) ((c : Thread nD τ).loc main_arg15) := m ((c : Thread nD τ).loc main_arg15)
/-- Argument 16 as launched. -/
abbrev a16 : Buf (Elt Ideal) ((c : Thread nD τ).loc main_arg16) := m ((c : Thread nD τ).loc main_arg16)
/-- Argument 17 as launched. -/
abbrev a17 : Buf (Elt Ideal) ((c : Thread nD τ).loc main_arg17) := m ((c : Thread nD τ).loc main_arg17)
/-- Argument 18 as launched. -/
abbrev a18 : Buf (Elt Ideal) ((c : Thread nD τ).loc main_arg18) := m ((c : Thread nD τ).loc main_arg18)
/-- Argument 19 as launched. -/
abbrev a19 : Buf (Elt Ideal) ((c : Thread nD τ).loc main_arg19) := m ((c : Thread nD τ).loc main_arg19)
/-- Argument 20 as launched. -/
abbrev a20 : Buf (Elt Ideal) ((c : Thread nD τ).loc main_arg20) := m ((c : Thread nD τ).loc main_arg20)
/-- Argument 21 as launched. -/
abbrev a21 : Buf (Elt Ideal) ((c : Thread nD τ).loc main_arg21) := m ((c : Thread nD τ).loc main_arg21)
/-- Argument 22 as launched. -/
abbrev a22 : Buf (Elt Ideal) ((c : Thread nD τ).loc main_arg22) := m ((c : Thread nD τ).loc main_arg22)
/-- Argument 23 as launched. -/
abbrev a23 : Buf (Elt Ideal) ((c : Thread nD τ).loc main_arg23) := m ((c : Thread nD τ).loc main_arg23)
/-- Argument 24 as launched. -/
abbrev a24 : Buf (Elt Ideal) ((c : Thread nD τ).loc main_arg24) := m ((c : Thread nD τ).loc main_arg24)
/-- Argument 25 as launched. -/
abbrev a25 : Buf (Elt Ideal) ((c : Thread nD τ).loc main_arg25) := m ((c : Thread nD τ).loc main_arg25)

end Cert.KernelIdeal.Track

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.BlockLaws.lean ====
/-
  What one grid point computes, read at an entry of its block, on the extended reals.

  Three bodies occur. The product body turns its two blocks to the narrow format (the identity on the extended
  reals) and multiplies them into a zero accumulator: entry (p, q) is the sum over k of x(p, k) * w(k, q).
  The one-message combine adds the bias row to every row of the block, and the two-message combine first adds
  the two message blocks; both then optionally take the maximum with zero.
-/
import proofs.«156020_j6296422056695_1_alg».proof.Proof.Gen.KernelIdeal.Skeleton
import proofs.«156020_j6296422056695_1_alg».proof.Proof.LibDotSum
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Blocks

open Idealize.ShloMosaic Idealize.ShloMosaic.ValueIdx Cert.KernelIdeal Cert.KernelIdeal.Gen

/-- The block product's dimension record: rows of the block by the 128 contracted columns. -/
abbrev DK : DotDims S10000x128 S128x128 S10000x128 := dot_S10000x128_S128x128_S10000x128_1_0_0_1_n_n

/-- The left operand's index for output entry j and contracted coordinate k: row of j, column k. -/
theorem lhsIdx_eq (j : S10000x128.Idx) (k : Fin 128) :
    DK.lhsIdx j ((contrEquiv1 DK 128 rfl rfl).symm k) = ix2 (n0 := 10000) (n1 := 128) (j 0) k := by
  funext a; apply Fin.ext
  match a with
  | ⟨0, _⟩ =>
    show (DK.lhsIdx j _ 0).val = (j 0).val
    unfold DotDims.lhsIdx
    rw [dif_neg (show ¬(0 : Fin S10000x128.rank) ∈ DK.lhsBatch by decide), dif_pos (show (0 : Fin S10000x128.rank) ∈ DK.lhsNonContracting by decide)]
    rfl
  | ⟨1, _⟩ => exact LibDotSum.lhs_contr_val DK 128 rfl rfl (cl := 1) rfl j k

/-- The right operand's index: row k, column of j. -/
theorem rhsIdx_eq (j : S10000x128.Idx) (k : Fin 128) :
    DK.rhsIdx j ((contrEquiv1 DK 128 rfl rfl).symm k) = ix2 (n0 := 128) (n1 := 128) k (j 1) := by
  funext a; apply Fin.ext
  match a with
  | ⟨0, _⟩ => exact LibDotSum.rhs_contr_val DK 128 rfl rfl (cr := 0) rfl j k
  | ⟨1, _⟩ =>
    show (DK.rhsIdx j _ 1).val = (j 1).val
    unfold DotDims.rhsIdx
    rw [dif_neg (show ¬(1 : Fin S128x128.rank) ∈ DK.rhsBatch by decide), dif_pos (show (1 : Fin S128x128.rank) ∈ DK.rhsNonContracting by decide)]
    rfl

/-- The product body at entry j of its block: the sum over the contracted coordinate. -/
theorem mm_pay (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  rw [shapeCast_self]
  refine (Ideal.matmul_constant_zero_apply DK none _ _ (ix2 p q)).trans ?_
  exact LibDotSum.sum_single DK 128 rfl rfl _ _ (ix2 p q) _ _
    (fun k => by rw [lhsIdx_eq]; rfl) (fun k => by rw [rhsIdx_eq]; rfl)

/-- The bias row broadcast down the block, read at entry j: the bias at j's column. -/
theorem bias_bcast (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  refine broadcastTo_apply _ _ _ _ (fun a => ?_)
  match a with
  | ⟨0, _⟩ => rfl
  | ⟨1, _⟩ => rfl

/-- The one-message combine with the maximum: max (x + b, 0) entry by entry. -/
theorem c1_pay (x : Vec Ideal S5000x128 .f32) (b : Vec Ideal S1x128 .f32) (p : Fin 5000) (q : Fin 128) :
    k3_pay1 (F := Ideal) x b (ix2 p q) = max (x (ix2 p q) + b (ix2 (0 : Fin 1) q)) (Ideal.ofBits .f32 0x00000000#32) := by
  unfold k3_pay1
  show max ((shapeCast S5000x128 x shapeCasts_S5000x128_S5000x128) (ix2 p q) + broadcastTo S5000x128 (shapeCast S1x128 b shapeCasts_S1x128_S1x128) broadcasts_S1x128_S5000x128 (ix2 p q)) _ = _
  rw [shapeCast_self, bias_bcast]
  rfl

/-- The one-message combine without the maximum. -/
theorem c1n_pay (x : Vec Ideal S5000x128 .f32) (b : Vec Ideal S1x128 .f32) (p : Fin 5000) (q : Fin 128) :
    k13_pay1 (F := Ideal) x b (ix2 p q) = x (ix2 p q) + b (ix2 (0 : Fin 1) q) := by
  unfold k13_pay1
  show (shapeCast S5000x128 x shapeCasts_S5000x128_S5000x128) (ix2 p q) + broadcastTo S5000x128 (shapeCast S1x128 b shapeCasts_S1x128_S1x128) broadcasts_S1x128_S5000x128 (ix2 p q) = _
  rw [shapeCast_self, bias_bcast]

/-- The two-message combine with the maximum: max ((x + y) + b, 0). -/
theorem c2_pay (x y : Vec Ideal S5000x128 .f32) (b : Vec Ideal S1x128 .f32) (p : Fin 5000) (q : Fin 128) :
    k4_pay1 (F := Ideal) x y b (ix2 p q) = max ((x (ix2 p q) + y (ix2 p q)) + b (ix2 (0 : Fin 1) q)) (Ideal.ofBits .f32 0x00000000#32) := by
  unfold k4_pay1
  show max (((shapeCast S5000x128 x shapeCasts_S5000x128_S5000x128) (ix2 p q) + (shapeCast S5000x128 y shapeCasts_S5000x128_S5000x128) (ix2 p q)) + broadcastTo S5000x128 (shapeCast S1x128 b shapeCasts_S1x128_S1x128) broadcasts_S1x128_S5000x128 (ix2 p q)) _ = _
  rw [shapeCast_self, shapeCast_self, bias_bcast]
  rfl

/-- The two-message combine without the maximum. -/
theorem c2n_pay (x y : Vec Ideal S5000x128 .f32) (b : Vec Ideal S1x128 .f32) (p : Fin 5000) (q : Fin 128) :
    k14_pay1 (F := Ideal) x y b (ix2 p q) = (x (ix2 p q) + y (ix2 p q)) + b (ix2 (0 : Fin 1) q) := by
  unfold k14_pay1
  show ((shapeCast S5000x128 x shapeCasts_S5000x128_S5000x128) (ix2 p q) + (shapeCast S5000x128 y shapeCasts_S5000x128_S5000x128) (ix2 p q)) + broadcastTo S5000x128 (shapeCast S1x128 b shapeCasts_S1x128_S1x128) broadcasts_S1x128_S5000x128 (ix2 p q) = _
  rw [shapeCast_self, shapeCast_self, bias_bcast]

/-! ## The whole-array functions the regions compute -/

/-- A rank-two index's coordinates as numbers below the literal extents. -/
abbrev row (i : S100000x128.Idx) : Fin 100000 := ⟨(i 0).val, (i 0).isLt⟩
abbrev col (i : S100000x128.Idx) : Fin 128 := ⟨(i 1).val, (i 1).isLt⟩

/-- The whole product: entry (r, q) is the sum over k of X(r, k) · W(k, q). -/
def mmSpec (X : Vec Ideal S100000x128 .f32) (W : Vec Ideal S128x128 .f32) : Vec Ideal S100000x128 .f32 :=
  fun i => ∑ k : Fin 128, X (ix2 (row i) k) * W (ix2 k (col i))

/-- One message plus the bias row, then the maximum with zero. -/
def c1rSpec (M : Vec Ideal S100000x128 .f32) (B : Vec Ideal S1x128 .f32) : Vec Ideal S100000x128 .f32 :=
  fun i => max (M i + B (ix2 (0 : Fin 1) (col i))) (Ideal.ofBits .f32 0x00000000#32)

/-- One message plus the bias row. -/
def c1nSpec (M : Vec Ideal S100000x128 .f32) (B : Vec Ideal S1x128 .f32) : Vec Ideal S100000x128 .f32 :=
  fun i => M i + B (ix2 (0 : Fin 1) (col i))

/-- Two messages added, plus the bias row, then the maximum with zero. -/
def c2rSpec (M N : Vec Ideal S100000x128 .f32) (B : Vec Ideal S1x128 .f32) : Vec Ideal S100000x128 .f32 :=
  fun i => max ((M i + N i) + B (ix2 (0 : Fin 1) (col i))) (Ideal.ofBits .f32 0x00000000#32)

/-- Two messages added, plus the bias row. -/
def c2nSpec (M N : Vec Ideal S100000x128 .f32) (B : Vec Ideal S1x128 .f32) : Vec Ideal S100000x128 .f32 :=
  fun i => (M i + N i) + B (ix2 (0 : Fin 1) (col i))

end Cert.KernelIdeal.Blocks

end
-- ==== Proof.RefLaws.lean ====
/-
  The reference's operations, read entry by entry on the extended reals, are the same whole-array functions
  the regions compute: its general product with one contracted axis is the sum over that axis; adding the bias
  broadcast first to a row and then down the rows adds, at entry (r, q), the bias at q; the maximum with the
  broadcast zero is the entrywise maximum with zero. The one place where the two programs group a sum
  differently is the two-message output: (m2 + m3) + (b2 + b3) against (m2 + b2) + (m3 + b3), equal because
  addition of extended reals is commutative and associative.
-/
import proofs.«156020_j6296422056695_1_alg».proof.Proof.Gen.ReferenceIdeal
import proofs.«156020_j6296422056695_1_alg».proof.Proof.BlockLaws
import proofs.«156020_j6296422056695_1_alg».proof.Proof.LibDotSum
import Idealize.ShloMosaic.Lib.ValueLayout

noncomputable section

open scoped BigOperators

namespace Cert.RefLaws

open Idealize.ShloMosaic Idealize.ShloMosaic.ValueIdx Cert.KernelIdeal.Blocks

/-- The reference product's dimension record. -/
abbrev DR : DotDims Cert.ReferenceIdeal.S100000x128 Cert.ReferenceIdeal.S128x128 Cert.ReferenceIdeal.S100000x128 :=
  Cert.ReferenceIdeal.dot_S100000x128_S128x128_S100000x128_1_0_0_1_n_n

theorem lhsR (i : Cert.ReferenceIdeal.S100000x128.Idx) (k : Fin 128) :
    DR.lhsIdx i ((contrEquiv1 DR 128 rfl rfl).symm k) = ix2 (row i) k := by
  funext a; apply Fin.ext
  match a with
  | ⟨0, _⟩ =>
    show (DR.lhsIdx i _ 0).val = (i 0).val
    unfold DotDims.lhsIdx
    rw [dif_neg (show ¬(0 : Fin Cert.ReferenceIdeal.S100000x128.rank) ∈ DR.lhsBatch by decide), dif_pos (show (0 : Fin Cert.ReferenceIdeal.S100000x128.rank) ∈ DR.lhsNonContracting by decide)]
    rfl
  | ⟨1, _⟩ => exact LibDotSum.lhs_contr_val DR 128 rfl rfl (cl := 1) rfl i k

theorem rhsR (i : Cert.ReferenceIdeal.S100000x128.Idx) (k : Fin 128) :
    DR.rhsIdx i ((contrEquiv1 DR 128 rfl rfl).symm k) = ix2 k (col i) := by
  funext a; apply Fin.ext
  match a with
  | ⟨0, _⟩ => exact LibDotSum.rhs_contr_val DR 128 rfl rfl (cr := 0) rfl i k
  | ⟨1, _⟩ =>
    show (DR.rhsIdx i _ 1).val = (i 1).val
    unfold DotDims.rhsIdx
    rw [dif_neg (show ¬(1 : Fin Cert.ReferenceIdeal.S128x128.rank) ∈ DR.rhsBatch by decide), dif_pos (show (1 : Fin Cert.ReferenceIdeal.S128x128.rank) ∈ DR.rhsNonContracting by decide)]
    rfl

/-- The reference's product is the sum over the contracted coordinate. -/
theorem dot_eq (X : FVec Ideal Cert.ReferenceIdeal.S100000x128 .f32) (W : FVec Ideal Cert.ReferenceIdeal.S128x128 .f32) :
    Host.dotGeneral (F := Ideal) DR none X W = mmSpec X W := by
  funext i
  simp only [Host.dotGeneral]
  rw [Ideal.dotGeneral_apply]
  exact LibDotSum.sum_single DR 128 rfl rfl _ _ i _ _ (fun k => congrArg X (lhsR i k)) (fun k => congrArg W (rhsR i k))

open Cert.ReferenceIdeal Cert.ReferenceIdeal.Facts₀ in
/-- The bias as the reference adds it: broadcast to one row, then down the rows. -/
abbrev biasR (b : FVec Ideal S128 .f32) : FVec Ideal S100000x128 .f32 :=
  broadcastInDim S100000x128 ![0, 1] bcast_S1x128_S100000x128_0_1 (broadcastInDim S1x128 ![1] bcast_S128_S1x128_1 b)

open Cert.ReferenceIdeal Cert.ReferenceIdeal.Facts₀ in
/-- The zero array of the reference's maximum. -/
abbrev zeroR : FVec Ideal S100000x128 .f32 :=
  broadcastInDim S100000x128 ![] bcast_S_S100000x128 (constant (F := Ideal) S_ .f32 0x00000000#32)

/-- The bias row as the kernel's host code makes it: the [128] array cast to [1, 128]. -/
abbrev biasK (b : FVec Ideal Cert.KernelIdeal.S128 .f32) : FVec Ideal Cert.KernelIdeal.S1x128 .f32 :=
  shapeCast Cert.KernelIdeal.S1x128 b Cert.KernelIdeal.Facts₀.shapeCasts_S128_S1x128

theorem biasK_apply (b : FVec Ideal Cert.KernelIdeal.S128 .f32) (q : Fin 128) : biasK b (ix2 (0 : Fin 1) q) = b (ix1 q) :=
  shapeCast_a_1a_apply b _ 0 q

theorem biasR_apply (b : FVec Ideal Cert.ReferenceIdeal.S128 .f32) (i : Cert.ReferenceIdeal.S100000x128.Idx) : biasR b i = b (ix1 (col i)) := by
  show b _ = b _
  refine congrArg b (funext fun a => Fin.ext ?_)
  match a with
  | ⟨0, _⟩ => rfl

/-- One message, the maximum taken. -/
theorem c1r_glue (M : FVec Ideal Cert.KernelIdeal.S100000x128 .f32) (b : FVec Ideal Cert.KernelIdeal.S128 .f32) :
    c1rSpec M (biasK b) = maximumf (F := Ideal) (addf (F := Ideal) M (biasR b)) zeroR := by
  funext i
  show max (M i + biasK b (ix2 (0 : Fin 1) (col i))) _ = max (M i + biasR b i) _
  rw [biasK_apply, biasR_apply]
  rfl

/-- One message, no maximum. -/
theorem c1n_glue (M : FVec Ideal Cert.KernelIdeal.S100000x128 .f32) (b : FVec Ideal Cert.KernelIdeal.S128 .f32) :
    c1nSpec M (biasK b) = addf (F := Ideal) M (biasR b) := by
  funext i
  show M i + biasK b (ix2 (0 : Fin 1) (col i)) = M i + biasR b i
  rw [biasK_apply, biasR_apply]

/-- Two messages, the maximum taken: the kernel adds the two biases first, the reference adds each bias to its
    own message; the four-term sum is the same either way. -/
theorem c2r_glue (M N : FVec Ideal Cert.KernelIdeal.S100000x128 .f32) (b d : FVec Ideal Cert.KernelIdeal.S128 .f32) :
    c2rSpec M N (biasK (addf (F := Ideal) b d)) = maximumf (F := Ideal) (addf (F := Ideal) (addf (F := Ideal) M (biasR b)) (addf (F := Ideal) N (biasR d))) zeroR := by
  funext i
  show max ((M i + N i) + biasK (addf (F := Ideal) b d) (ix2 (0 : Fin 1) (col i))) _ = max ((M i + biasR b i) + (N i + biasR d i)) _
  rw [biasK_apply, biasR_apply, biasR_apply]
  show max ((M i + N i) + (b (ix1 (col i)) + d (ix1 (col i)))) _ = _
  rw [add_add_add_comm]
  rfl

/-- Two messages, no maximum. -/
theorem c2n_glue (M N : FVec Ideal Cert.KernelIdeal.S100000x128 .f32) (b d : FVec Ideal Cert.KernelIdeal.S128 .f32) :
    c2nSpec M N (biasK (addf (F := Ideal) b d)) = addf (F := Ideal) (addf (F := Ideal) M (biasR b)) (addf (F := Ideal) N (biasR d)) := by
  funext i
  show (M i + N i) + biasK (addf (F := Ideal) b d) (ix2 (0 : Fin 1) (col i)) = (M i + biasR b i) + (N i + biasR d i)
  rw [biasK_apply, biasR_apply, biasR_apply]
  show (M i + N i) + (b (ix1 (col i)) + d (ix1 (col i))) = _
  rw [add_add_add_comm]

open Cert.ReferenceIdeal Cert.ReferenceIdeal.Facts₀ in
/-- The degree normaliser: raising to the power −1/2 and then making the column, or making the column first,
    gives the same column. -/
theorem inv_glue (dg : FVec Ideal S100000 .f32) :
    broadcastInDim S100000x1 ![0] bcast_S100000_S100000x1_0 (Host.powf (F := Ideal) dg (broadcastInDim S100000 ![] bcast_S_S100000 (constant (F := Ideal) S_ .f32 0xBF000000#32)))
      = Host.powf (F := Ideal) (broadcastInDim S100000x1 ![0] bcast_S100000_S100000x1_0 dg) (broadcastInDim S100000x1 ![] bcast_S_S100000x1 (constant (F := Ideal) S_ .f32 0xBF000000#32)) := rfl

end Cert.RefLaws

end
-- ==== Proof.StretchPre.lean ====
/-
  The host operations before the first region, stretch by stretch, for an arbitrary state of the buffers: each
  lemma says what one stretch leaves in one buffer, given what the buffers it reads held, as a stage of the
  reference. The degree count is a scatter-add of ones into zeros; the clip call takes the maximum with one; the
  last stretch raises to the power −1/2 and makes the column (the reference makes the column first: the columns
  are equal), and scales the feature arrays row by row.
-/
import proofs.«156020_j6296422056695_1_alg».proof.Proof.Gen.KernelIdeal.Launch
import proofs.«156020_j6296422056695_1_alg».proof.Proof.RefLaws
import proofs.«156020_j6296422056695_1_alg».proof.Proof.ReadP
import Idealize.ShloMosaic.Lib.StableHlo.Run

noncomputable section

open scoped BigOperators

namespace Cert.KernelIdeal.StretchPre

open Idealize.ShloMosaic Idealize.ShloMosaic.TcCoe Idealize.ShloMosaic.StableHlo Idealize.SL.Sem
open Cert.KernelIdeal Cert.KernelIdeal.Gen

/-- The two programs spell the same scatter and gather dimension records. -/
theorem sc1_eq : Cert.KernelIdeal.scatter_S100000_S1600000x1_S1600000_n_0_0_1 = Cert.ReferenceIdeal.scatter_S100000_S1600000x1_S1600000_n_0_0_1 := rfl
theorem sc2_eq : Cert.KernelIdeal.scatter_S100000x128_S1600000x1_S1600000x128_1_0_0_1 = Cert.ReferenceIdeal.scatter_S100000x128_S1600000x1_S1600000x128_1_0_0_1 := rfl
theorem ga_eq : Cert.KernelIdeal.gather_S100000x128_S1600000x1_S1600000x128_1_0_n_n_0_1_1128 = Cert.ReferenceIdeal.gather_S100000x128_S1600000x1_S1600000x128_1_0_n_n_0_1_1128 := rfl

/-- The lower bound one, as the count stretch of index array 20 leaves it. -/
theorem one0 (Vv : Valuation τ sig (Elt Ideal))
 :
    StableHlo.after (hostOps0 (F := Ideal)) Vv (Proc.devRef .tc main_cst_1) = Cert.ReferenceIdeal.ReadP.val_main_cst_1 (F := Ideal) := by
  simp only [hostOps0]
  after_results
  rfl

/-- The occurrence counts of index array 20. -/
theorem scat0 (Vv : Valuation τ sig (Elt Ideal)) (x20 : (⟨Cert.ReferenceIdeal.S1600000, .i32⟩ : BufTy).Contents (Elt Ideal))
    (h0 : Vv (Proc.devRef .tc main_arg20) = x20) :
    StableHlo.after (hostOps0 (F := Ideal)) Vv (Proc.devRef .tc main_v3) = Cert.ReferenceIdeal.ReadP.val_main_v3 (F := Ideal) x20 := by
  simp only [hostOps0]
  after_results
  rw [h0, sc1_eq]
  rfl

/-- The clip call on arbitrary contents: the maximum of the broadcast bound and the operand. -/
theorem clipE0 (Vv : Valuation τ sig (Elt Ideal)) :
    StableHlo.after (hostOps0_1 (F := Ideal)) Vv (Proc.devRef .tc main_v4)
      = maximumf (F := Ideal) (φ := .f32) (broadcastInDim S100000 ![] bcast_S_S100000 (id (Vv (Proc.devRef .tc main_cst_1) : FVec Ideal S_ .f32))) (Vv (Proc.devRef .tc main_v3) : FVec Ideal S100000 .f32) := by
  simp only [hostOps0_1]
  after_results
  rfl

/-- The counts clipped below at one. -/
theorem clip0 (Vv : Valuation τ sig (Elt Ideal)) (x20 : (⟨Cert.ReferenceIdeal.S1600000, .i32⟩ : BufTy).Contents (Elt Ideal))
    (h0 : Vv (Proc.devRef .tc main_cst_1) = Cert.ReferenceIdeal.ReadP.val_main_cst_1 (F := Ideal))
    (h1 : Vv (Proc.devRef .tc main_v3) = Cert.ReferenceIdeal.ReadP.val_main_v3 (F := Ideal) x20) :
    StableHlo.after (hostOps0_1 (F := Ideal)) Vv (Proc.devRef .tc main_v4) = Cert.ReferenceIdeal.ReadP.val_main_v4 (F := Ideal) x20 := by
  rw [clipE0, h0, h1]
  rfl

/-- The normaliser column: the clipped counts to the power −1/2. -/
theorem pow0 (Vv : Valuation τ sig (Elt Ideal)) (x20 : (⟨Cert.ReferenceIdeal.S1600000, .i32⟩ : BufTy).Contents (Elt Ideal))
    (h0 : Vv (Proc.devRef .tc main_v4) = Cert.ReferenceIdeal.ReadP.val_main_v4 (F := Ideal) x20) :
    StableHlo.after (hostOps0_2 (F := Ideal)) Vv (Proc.devRef .tc main_v7) = Cert.ReferenceIdeal.ReadP.val_main_v11 (F := Ideal) x20 := by
  simp only [hostOps0_2]
  after_results
  rw [h0]
  exact (Cert.RefLaws.inv_glue _).trans rfl

/-- The lower bound one, as the count stretch of index array 21 leaves it. -/
theorem one1 (Vv : Valuation τ sig (Elt Ideal))
 :
    StableHlo.after (hostOps0_2 (F := Ideal)) Vv (Proc.devRef .tc main_cst_5) = Cert.ReferenceIdeal.ReadP.val_main_cst_3 (F := Ideal) := by
  simp only [hostOps0_2]
  after_results
  rfl

/-- The occurrence counts of index array 21. -/
theorem scat1 (Vv : Valuation τ sig (Elt Ideal)) (x21 : (⟨Cert.ReferenceIdeal.S1600000, .i32⟩ : BufTy).Contents (Elt Ideal))
    (h0 : Vv (Proc.devRef .tc main_arg21) = x21) :
    StableHlo.after (hostOps0_2 (F := Ideal)) Vv (Proc.devRef .tc main_v11) = Cert.ReferenceIdeal.ReadP.val_main_v7 (F := Ideal) x21 := by
  simp only [hostOps0_2]
  after_results
  rw [h0, sc1_eq]
  rfl

/-- The clip call on arbitrary contents: the maximum of the broadcast bound and the operand. -/
theorem clipE1 (Vv : Valuation τ sig (Elt Ideal)) :
    StableHlo.after (hostOps0_3 (F := Ideal)) Vv (Proc.devRef .tc main_v12)
      = maximumf (F := Ideal) (φ := .f32) (broadcastInDim S100000 ![] bcast_S_S100000 (id (Vv (Proc.devRef .tc main_cst_5) : FVec Ideal S_ .f32))) (Vv (Proc.devRef .tc main_v11) : FVec Ideal S100000 .f32) := by
  simp only [hostOps0_3]
  after_results
  rfl

/-- The counts clipped below at one. -/
theorem clip1 (Vv : Valuation τ sig (Elt Ideal)) (x21 : (⟨Cert.ReferenceIdeal.S1600000, .i32⟩ : BufTy).Contents (Elt Ideal))
    (h0 : Vv (Proc.devRef .tc main_cst_5) = Cert.ReferenceIdeal.ReadP.val_main_cst_3 (F := Ideal))
    (h1 : Vv (Proc.devRef .tc main_v11) = Cert.ReferenceIdeal.ReadP.val_main_v7 (F := Ideal) x21) :
    StableHlo.after (hostOps0_3 (F := Ideal)) Vv (Proc.devRef .tc main_v12) = Cert.ReferenceIdeal.ReadP.val_main_v8 (F := Ideal) x21 := by
  rw [clipE1, h0, h1]
  rfl

/-- The normaliser column: the clipped counts to the power −1/2. -/
theorem pow1 (Vv : Valuation τ sig (Elt Ideal)) (x21 : (⟨Cert.ReferenceIdeal.S1600000, .i32⟩ : BufTy).Contents (Elt Ideal))
    (h0 : Vv (Proc.devRef .tc main_v12) = Cert.ReferenceIdeal.ReadP.val_main_v8 (F := Ideal) x21) :
    StableHlo.after (hostOps0_4 (F := Ideal)) Vv (Proc.devRef .tc main_v15) = Cert.ReferenceIdeal.ReadP.val_main_v27 (F := Ideal) x21 := by
  simp only [hostOps0_4]
  after_results
  rw [h0]
  exact (Cert.RefLaws.inv_glue _).trans rfl

/-- The lower bound one, as the count stretch of index array 22 leaves it. -/
theorem one2 (Vv : Valuation τ sig (Elt Ideal))
 :
    StableHlo.after (hostOps0_4 (F := Ideal)) Vv (Proc.devRef .tc main_cst_9) = Cert.ReferenceIdeal.ReadP.val_main_cst_10 (F := Ideal) := by
  simp only [hostOps0_4]
  after_results
  rfl

/-- The occurrence counts of index array 22. -/
theorem scat2 (Vv : Valuation τ sig (Elt Ideal)) (x22 : (⟨Cert.ReferenceIdeal.S1600000, .i32⟩ : BufTy).Contents (Elt Ideal))
    (h0 : Vv (Proc.devRef .tc main_arg22) = x22) :
    StableHlo.after (hostOps0_4 (F := Ideal)) Vv (Proc.devRef .tc main_v19) = Cert.ReferenceIdeal.ReadP.val_main_v36 (F := Ideal) x22 := by
  simp only [hostOps0_4]
  after_results
  rw [h0, sc1_eq]
  rfl

/-- The clip call on arbitrary contents: the maximum of the broadcast bound and the operand. -/
theorem clipE2 (Vv : Valuation τ sig (Elt Ideal)) :
    StableHlo.after (hostOps0_5 (F := Ideal)) Vv (Proc.devRef .tc main_v20)
      = maximumf (F := Ideal) (φ := .f32) (broadcastInDim S100000 ![] bcast_S_S100000 (id (Vv (Proc.devRef .tc main_cst_9) : FVec Ideal S_ .f32))) (Vv (Proc.devRef .tc main_v19) : FVec Ideal S100000 .f32) := by
  simp only [hostOps0_5]
  after_results
  rfl

/-- The counts clipped below at one. -/
theorem clip2 (Vv : Valuation τ sig (Elt Ideal)) (x22 : (⟨Cert.ReferenceIdeal.S1600000, .i32⟩ : BufTy).Contents (Elt Ideal))
    (h0 : Vv (Proc.devRef .tc main_cst_9) = Cert.ReferenceIdeal.ReadP.val_main_cst_10 (F := Ideal))
    (h1 : Vv (Proc.devRef .tc main_v19) = Cert.ReferenceIdeal.ReadP.val_main_v36 (F := Ideal) x22) :
    StableHlo.after (hostOps0_5 (F := Ideal)) Vv (Proc.devRef .tc main_v20) = Cert.ReferenceIdeal.ReadP.val_main_v37 (F := Ideal) x22 := by
  rw [clipE2, h0, h1]
  rfl

/-- The normaliser column: the clipped counts to the power −1/2. -/
theorem pow2 (Vv : Valuation τ sig (Elt Ideal)) (x22 : (⟨Cert.ReferenceIdeal.S1600000, .i32⟩ : BufTy).Contents (Elt Ideal))
    (h0 : Vv (Proc.devRef .tc main_v20) = Cert.ReferenceIdeal.ReadP.val_main_v37 (F := Ideal) x22) :
    StableHlo.after (hostOps0_6 (F := Ideal)) Vv (Proc.devRef .tc main_v23) = Cert.ReferenceIdeal.ReadP.val_main_v44 (F := Ideal) x22 := by
  simp only [hostOps0_6]
  after_results
  rw [h0]
  exact (Cert.RefLaws.inv_glue _).trans rfl

/-- The lower bound one, as the count stretch of index array 23 leaves it. -/
theorem one3 (Vv : Valuation τ sig (Elt Ideal))
 :
    StableHlo.after (hostOps0_6 (F := Ideal)) Vv (Proc.devRef .tc main_cst_13) = Cert.ReferenceIdeal.ReadP.val_main_cst_12 (F := Ideal) := by
  simp only [hostOps0_6]
  after_results
  rfl

/-- The occurrence counts of index array 23. -/
theorem scat3 (Vv : Valuation τ sig (Elt Ideal)) (x23 : (⟨Cert.ReferenceIdeal.S1600000, .i32⟩ : BufTy).Contents (Elt Ideal))
    (h0 : Vv (Proc.devRef .tc main_arg23) = x23) :
    StableHlo.after (hostOps0_6 (F := Ideal)) Vv (Proc.devRef .tc main_v27) = Cert.ReferenceIdeal.ReadP.val_main_v40 (F := Ideal) x23 := by
  simp only [hostOps0_6]
  after_results
  rw [h0, sc1_eq]
  rfl

/-- The clip call on arbitrary contents: the maximum of the broadcast bound and the operand. -/
theorem clipE3 (Vv : Valuation τ sig (Elt Ideal)) :
    StableHlo.after (hostOps0_7 (F := Ideal)) Vv (Proc.devRef .tc main_v28)
      = maximumf (F := Ideal) (φ := .f32) (broadcastInDim S100000 ![] bcast_S_S100000 (id (Vv (Proc.devRef .tc main_cst_13) : FVec Ideal S_ .f32))) (Vv (Proc.devRef .tc main_v27) : FVec Ideal S100000 .f32) := by
  simp only [hostOps0_7]
  after_results
  rfl

/-- The counts clipped below at one. -/
theorem clip3 (Vv : Valuation τ sig (Elt Ideal)) (x23 : (⟨Cert.ReferenceIdeal.S1600000, .i32⟩ : BufTy).Contents (Elt Ideal))
    (h0 : Vv (Proc.devRef .tc main_cst_13) = Cert.ReferenceIdeal.ReadP.val_main_cst_12 (F := Ideal))
    (h1 : Vv (Proc.devRef .tc main_v27) = Cert.ReferenceIdeal.ReadP.val_main_v40 (F := Ideal) x23) :
    StableHlo.after (hostOps0_7 (F := Ideal)) Vv (Proc.devRef .tc main_v28) = Cert.ReferenceIdeal.ReadP.val_main_v41 (F := Ideal) x23 := by
  rw [clipE3, h0, h1]
  rfl

/-- The normaliser column: the clipped counts to the power −1/2. -/
theorem pow3 (Vv : Valuation τ sig (Elt Ideal)) (x23 : (⟨Cert.ReferenceIdeal.S1600000, .i32⟩ : BufTy).Contents (Elt Ideal))
    (h0 : Vv (Proc.devRef .tc main_v28) = Cert.ReferenceIdeal.ReadP.val_main_v41 (F := Ideal) x23) :
    StableHlo.after (hostOps0_8 (F := Ideal)) Vv (Proc.devRef .tc main_v31) = Cert.ReferenceIdeal.ReadP.val_main_v60 (F := Ideal) x23 := by
  simp only [hostOps0_8]
  after_results
  rw [h0]
  exact (Cert.RefLaws.inv_glue _).trans rfl

/-- The lower bound one, as the count stretch of index array 24 leaves it. -/
theorem one4 (Vv : Valuation τ sig (Elt Ideal))
 :
    StableHlo.after (hostOps0_8 (F := Ideal)) Vv (Proc.devRef .tc main_cst_17) = Cert.ReferenceIdeal.ReadP.val_main_cst_20 (F := Ideal) := by
  simp only [hostOps0_8]
  after_results
  rfl

/-- The occurrence counts of index array 24. -/
theorem scat4 (Vv : Valuation τ sig (Elt Ideal)) (x24 : (⟨Cert.ReferenceIdeal.S1600000, .i32⟩ : BufTy).Contents (Elt Ideal))
    (h0 : Vv (Proc.devRef .tc main_arg24) = x24) :
    StableHlo.after (hostOps0_8 (F := Ideal)) Vv (Proc.devRef .tc main_v35) = Cert.ReferenceIdeal.ReadP.val_main_v69 (F := Ideal) x24 := by
  simp only [hostOps0_8]
  after_results
  rw [h0, sc1_eq]
  rfl

/-- The clip call on arbitrary contents: the maximum of the broadcast bound and the operand. -/
theorem clipE4 (Vv : Valuation τ sig (Elt Ideal)) :
    StableHlo.after (hostOps0_9 (F := Ideal)) Vv (Proc.devRef .tc main_v36)
      = maximumf (F := Ideal) (φ := .f32) (broadcastInDim S100000 ![] bcast_S_S100000 (id (Vv (Proc.devRef .tc main_cst_17) : FVec Ideal S_ .f32))) (Vv (Proc.devRef .tc main_v35) : FVec Ideal S100000 .f32) := by
  simp only [hostOps0_9]
  after_results
  rfl

/-- The counts clipped below at one. -/
theorem clip4 (Vv : Valuation τ sig (Elt Ideal)) (x24 : (⟨Cert.ReferenceIdeal.S1600000, .i32⟩ : BufTy).Contents (Elt Ideal))
    (h0 : Vv (Proc.devRef .tc main_cst_17) = Cert.ReferenceIdeal.ReadP.val_main_cst_20 (F := Ideal))
    (h1 : Vv (Proc.devRef .tc main_v35) = Cert.ReferenceIdeal.ReadP.val_main_v69 (F := Ideal) x24) :
    StableHlo.after (hostOps0_9 (F := Ideal)) Vv (Proc.devRef .tc main_v36) = Cert.ReferenceIdeal.ReadP.val_main_v70 (F := Ideal) x24 := by
  rw [clipE4, h0, h1]
  rfl

/-- The normaliser column: the clipped counts to the power −1/2. -/
theorem pow4 (Vv : Valuation τ sig (Elt Ideal)) (x24 : (⟨Cert.ReferenceIdeal.S1600000, .i32⟩ : BufTy).Contents (Elt Ideal))
    (h0 : Vv (Proc.devRef .tc main_v36) = Cert.ReferenceIdeal.ReadP.val_main_v70 (F := Ideal) x24) :
    StableHlo.after (hostOps0_10 (F := Ideal)) Vv (Proc.devRef .tc main_v39) = Cert.ReferenceIdeal.ReadP.val_main_v77 (F := Ideal) x24 := by
  simp only [hostOps0_10]
  after_results
  rw [h0]
  exact (Cert.RefLaws.inv_glue _).trans rfl

/-- The lower bound one, as the count stretch of index array 25 leaves it. -/
theorem one5 (Vv : Valuation τ sig (Elt Ideal))
 :
    StableHlo.after (hostOps0_10 (F := Ideal)) Vv (Proc.devRef .tc main_cst_21) = Cert.ReferenceIdeal.ReadP.val_main_cst_22 (F := Ideal) := by
  simp only [hostOps0_10]
  after_results
  rfl

/-- The occurrence counts of index array 25. -/
theorem scat5 (Vv : Valuation τ sig (Elt Ideal)) (x25 : (⟨Cert.ReferenceIdeal.S1600000, .i32⟩ : BufTy).Contents (Elt Ideal))
    (h0 : Vv (Proc.devRef .tc main_arg25) = x25) :
    StableHlo.after (hostOps0_10 (F := Ideal)) Vv (Proc.devRef .tc main_v43) = Cert.ReferenceIdeal.ReadP.val_main_v73 (F := Ideal) x25 := by
  simp only [hostOps0_10]
  after_results
  rw [h0, sc1_eq]
  rfl

/-- The clip call on arbitrary contents: the maximum of the broadcast bound and the operand. -/
theorem clipE5 (Vv : Valuation τ sig (Elt Ideal)) :
    StableHlo.after (hostOps0_11 (F := Ideal)) Vv (Proc.devRef .tc main_v44)
      = maximumf (F := Ideal) (φ := .f32) (broadcastInDim S100000 ![] bcast_S_S100000 (id (Vv (Proc.devRef .tc main_cst_21) : FVec Ideal S_ .f32))) (Vv (Proc.devRef .tc main_v43) : FVec Ideal S100000 .f32) := by
  simp only [hostOps0_11]
  after_results
  rfl

/-- The counts clipped below at one. -/
theorem clip5 (Vv : Valuation τ sig (Elt Ideal)) (x25 : (⟨Cert.ReferenceIdeal.S1600000, .i32⟩ : BufTy).Contents (Elt Ideal))
    (h0 : Vv (Proc.devRef .tc main_cst_21) = Cert.ReferenceIdeal.ReadP.val_main_cst_22 (F := Ideal))
    (h1 : Vv (Proc.devRef .tc main_v43) = Cert.ReferenceIdeal.ReadP.val_main_v73 (F := Ideal) x25) :
    StableHlo.after (hostOps0_11 (F := Ideal)) Vv (Proc.devRef .tc main_v44) = Cert.ReferenceIdeal.ReadP.val_main_v74 (F := Ideal) x25 := by
  rw [clipE5, h0, h1]
  rfl

/-- The normaliser column: the clipped counts to the power −1/2. -/
theorem pow5 (Vv : Valuation τ sig (Elt Ideal)) (x25 : (⟨Cert.ReferenceIdeal.S1600000, .i32⟩ : BufTy).Contents (Elt Ideal))
    (h0 : Vv (Proc.devRef .tc main_v44) = Cert.ReferenceIdeal.ReadP.val_main_v74 (F := Ideal) x25) :
    StableHlo.after (hostOps0_12 (F := Ideal)) Vv (Proc.devRef .tc main_v47) = Cert.ReferenceIdeal.ReadP.val_main_v93 (F := Ideal) x25 := by
  simp only [hostOps0_12]
  after_results
  rw [h0]
  exact (Cert.RefLaws.inv_glue _).trans rfl

/-- Layer 1's left operand 1: the features scaled by the out-degree normaliser. -/
theorem xs1 (Vv : Valuation τ sig (Elt Ideal)) (x0 : (⟨Cert.ReferenceIdeal.S100000x128, .f32⟩ : BufTy).Contents (Elt Ideal)) (x20 : (⟨Cert.ReferenceIdeal.S1600000, .i32⟩ : BufTy).Contents (Elt Ideal))
    (h0 : Vv (Proc.devRef .tc main_arg0) = x0)
    (h1 : Vv (Proc.devRef .tc main_v7) = Cert.ReferenceIdeal.ReadP.val_main_v11 (F := Ideal) x20) :
    StableHlo.after (hostOps0_12 (F := Ideal)) Vv (Proc.devRef .tc main_v49) = Cert.ReferenceIdeal.ReadP.val_main_v13 (F := Ideal) x0 x20 := by
  simp only [hostOps0_12]
  after_results
  rw [h0, h1]
  rfl

/-- Layer 1's left operand 2: the features scaled by the out-degree normaliser. -/
theorem xs2 (Vv : Valuation τ sig (Elt Ideal)) (x1 : (⟨Cert.ReferenceIdeal.S100000x128, .f32⟩ : BufTy).Contents (Elt Ideal)) (x22 : (⟨Cert.ReferenceIdeal.S1600000, .i32⟩ : BufTy).Contents (Elt Ideal))
    (h0 : Vv (Proc.devRef .tc main_arg1) = x1)
    (h1 : Vv (Proc.devRef .tc main_v23) = Cert.ReferenceIdeal.ReadP.val_main_v44 (F := Ideal) x22) :
    StableHlo.after (hostOps0_12 (F := Ideal)) Vv (Proc.devRef .tc main_v51) = Cert.ReferenceIdeal.ReadP.val_main_v46 (F := Ideal) x1 x22 := by
  simp only [hostOps0_12]
  after_results
  rw [h0, h1]
  rfl

/-- Layer 1's left operand 3: the features scaled by the out-degree normaliser. -/
theorem xs3 (Vv : Valuation τ sig (Elt Ideal)) (x0 : (⟨Cert.ReferenceIdeal.S100000x128, .f32⟩ : BufTy).Contents (Elt Ideal)) (x24 : (⟨Cert.ReferenceIdeal.S1600000, .i32⟩ : BufTy).Contents (Elt Ideal))
    (h0 : Vv (Proc.devRef .tc main_arg0) = x0)
    (h1 : Vv (Proc.devRef .tc main_v39) = Cert.ReferenceIdeal.ReadP.val_main_v77 (F := Ideal) x24) :
    StableHlo.after (hostOps0_12 (F := Ideal)) Vv (Proc.devRef .tc main_v53) = Cert.ReferenceIdeal.ReadP.val_main_v79 (F := Ideal) x0 x24 := by
  simp only [hostOps0_12]
  after_results
  rw [h0, h1]
  rfl

end Cert.KernelIdeal.StretchPre

end
-- ==== Proof.ChainPre.lean ====
/-
  The kernel program's buffers before the first region, matched with the reference's stages: the six degree
  normalisers where the host code makes them, and the three scaled feature arrays the first layer's products read.
-/
import proofs.«156020_j6296422056695_1_alg».proof.Proof.Args
import proofs.«156020_j6296422056695_1_alg».proof.Proof.StretchPre

noncomputable section

open scoped BigOperators

namespace Cert.KernelIdeal.ChainPre

open Idealize.ShloMosaic Idealize.ShloMosaic.TcCoe Idealize.ShloMosaic.StableHlo Idealize.SL.Sem
open Cert.KernelIdeal Cert.KernelIdeal.Gen Cert.KernelIdeal.Blocks Cert.KernelIdeal.Track

variable (m : (ℓ : Loc nD τ sig) → Buf (Elt Ideal) ℓ) (ρ : Dev nD → PrngReg) (c : Dev nD)

/-- The normaliser of index array 20, where the host code has just made it. -/
theorem inv0 : W3 m ρ c (Proc.devRef .tc main_v7) = Cert.ReferenceIdeal.ReadP.val_main_v11 (F := Ideal) (a20 m c) :=
  StretchPre.pow0 (W2 m ρ c) (a20 m c)
    (StretchPre.clip0 (W1 m ρ c) (a20 m c) (StretchPre.one0 (W0 m ρ c))
      (StretchPre.scat0 (W0 m ρ c) (a20 m c) rfl))

/-- The normaliser of index array 21, where the host code has just made it. -/
theorem inv1 : W5 m ρ c (Proc.devRef .tc main_v15) = Cert.ReferenceIdeal.ReadP.val_main_v27 (F := Ideal) (a21 m c) :=
  StretchPre.pow1 (W4 m ρ c) (a21 m c)
    (StretchPre.clip1 (W3 m ρ c) (a21 m c) (StretchPre.one1 (W2 m ρ c))
      (StretchPre.scat1 (W2 m ρ c) (a21 m c) (((Keep.keep2 m ρ c main_arg21 (by decide)).trans (Keep.keep1 m ρ c main_arg21 (by decide))).trans rfl)))

/-- The normaliser of index array 22, where the host code has just made it. -/
theorem inv2 : W7 m ρ c (Proc.devRef .tc main_v23) = Cert.ReferenceIdeal.ReadP.val_main_v44 (F := Ideal) (a22 m c) :=
  StretchPre.pow2 (W6 m ρ c) (a22 m c)
    (StretchPre.clip2 (W5 m ρ c) (a22 m c) (StretchPre.one2 (W4 m ρ c))
      (StretchPre.scat2 (W4 m ρ c) (a22 m c) (((Keep.keep4 m ρ c main_arg22 (by decide)).trans ((Keep.keep3 m ρ c main_arg22 (by decide)).trans ((Keep.keep2 m ρ c main_arg22 (by decide)).trans (Keep.keep1 m ρ c main_arg22 (by decide))))).trans rfl)))

/-- The normaliser of index array 23, where the host code has just made it. -/
theorem inv3 : W9 m ρ c (Proc.devRef .tc main_v31) = Cert.ReferenceIdeal.ReadP.val_main_v60 (F := Ideal) (a23 m c) :=
  StretchPre.pow3 (W8 m ρ c) (a23 m c)
    (StretchPre.clip3 (W7 m ρ c) (a23 m c) (StretchPre.one3 (W6 m ρ c))
      (StretchPre.scat3 (W6 m ρ c) (a23 m c) (((Keep.keep6 m ρ c main_arg23 (by decide)).trans ((Keep.keep5 m ρ c main_arg23 (by decide)).trans ((Keep.keep4 m ρ c main_arg23 (by decide)).trans ((Keep.keep3 m ρ c main_arg23 (by decide)).trans ((Keep.keep2 m ρ c main_arg23 (by decide)).trans (Keep.keep1 m ρ c main_arg23 (by decide))))))).trans rfl)))

/-- The normaliser of index array 24, where the host code has just made it. -/
theorem inv4 : W11 m ρ c (Proc.devRef .tc main_v39) = Cert.ReferenceIdeal.ReadP.val_main_v77 (F := Ideal) (a24 m c) :=
  StretchPre.pow4 (W10 m ρ c) (a24 m c)
    (StretchPre.clip4 (W9 m ρ c) (a24 m c) (StretchPre.one4 (W8 m ρ c))
      (StretchPre.scat4 (W8 m ρ c) (a24 m c) (((Keep.keep8 m ρ c main_arg24 (by decide)).trans ((Keep.keep7 m ρ c main_arg24 (by decide)).trans ((Keep.keep6 m ρ c main_arg24 (by decide)).trans ((Keep.keep5 m ρ c main_arg24 (by decide)).trans ((Keep.keep4 m ρ c main_arg24 (by decide)).trans ((Keep.keep3 m ρ c main_arg24 (by decide)).trans ((Keep.keep2 m ρ c main_arg24 (by decide)).trans (Keep.keep1 m ρ c main_arg24 (by decide))))))))).trans rfl)))

/-- The normaliser of index array 25, where the host code has just made it. -/
theorem inv5 : W13 m ρ c (Proc.devRef .tc main_v47) = Cert.ReferenceIdeal.ReadP.val_main_v93 (F := Ideal) (a25 m c) :=
  StretchPre.pow5 (W12 m ρ c) (a25 m c)
    (StretchPre.clip5 (W11 m ρ c) (a25 m c) (StretchPre.one5 (W10 m ρ c))
      (StretchPre.scat5 (W10 m ρ c) (a25 m c) (((Keep.keep10 m ρ c main_arg25 (by decide)).trans ((Keep.keep9 m ρ c main_arg25 (by decide)).trans ((Keep.keep8 m ρ c main_arg25 (by decide)).trans ((Keep.keep7 m ρ c main_arg25 (by decide)).trans ((Keep.keep6 m ρ c main_arg25 (by decide)).trans ((Keep.keep5 m ρ c main_arg25 (by decide)).trans ((Keep.keep4 m ρ c main_arg25 (by decide)).trans ((Keep.keep3 m ρ c main_arg25 (by decide)).trans ((Keep.keep2 m ρ c main_arg25 (by decide)).trans (Keep.keep1 m ρ c main_arg25 (by decide))))))))))).trans rfl)))

/-- Layer 1's left operand 1. -/
theorem x1 : W13 m ρ c (Proc.devRef .tc main_v49) = Cert.ReferenceIdeal.ReadP.val_main_v13 (F := Ideal) (a0 m c) (a20 m c) :=
  StretchPre.xs1 (W12 m ρ c) (a0 m c) (a20 m c) (((Keep.keep12 m ρ c main_arg0 (by decide)).trans ((Keep.keep11 m ρ c main_arg0 (by decide)).trans ((Keep.keep10 m ρ c main_arg0 (by decide)).trans ((Keep.keep9 m ρ c main_arg0 (by decide)).trans ((Keep.keep8 m ρ c main_arg0 (by decide)).trans ((Keep.keep7 m ρ c main_arg0 (by decide)).trans ((Keep.keep6 m ρ c main_arg0 (by decide)).trans ((Keep.keep5 m ρ c main_arg0 (by decide)).trans ((Keep.keep4 m ρ c main_arg0 (by decide)).trans ((Keep.keep3 m ρ c main_arg0 (by decide)).trans ((Keep.keep2 m ρ c main_arg0 (by decide)).trans (Keep.keep1 m ρ c main_arg0 (by decide))))))))))))).trans rfl) (((Keep.keep12 m ρ c main_v7 (by decide)).trans ((Keep.keep11 m ρ c main_v7 (by decide)).trans ((Keep.keep10 m ρ c main_v7 (by decide)).trans ((Keep.keep9 m ρ c main_v7 (by decide)).trans ((Keep.keep8 m ρ c main_v7 (by decide)).trans ((Keep.keep7 m ρ c main_v7 (by decide)).trans ((Keep.keep6 m ρ c main_v7 (by decide)).trans ((Keep.keep5 m ρ c main_v7 (by decide)).trans (Keep.keep4 m ρ c main_v7 (by decide)))))))))).trans (inv0 m ρ c))

/-- Layer 1's left operand 2. -/
theorem x2 : W13 m ρ c (Proc.devRef .tc main_v51) = Cert.ReferenceIdeal.ReadP.val_main_v46 (F := Ideal) (a1 m c) (a22 m c) :=
  StretchPre.xs2 (W12 m ρ c) (a1 m c) (a22 m c) (((Keep.keep12 m ρ c main_arg1 (by decide)).trans ((Keep.keep11 m ρ c main_arg1 (by decide)).trans ((Keep.keep10 m ρ c main_arg1 (by decide)).trans ((Keep.keep9 m ρ c main_arg1 (by decide)).trans ((Keep.keep8 m ρ c main_arg1 (by decide)).trans ((Keep.keep7 m ρ c main_arg1 (by decide)).trans ((Keep.keep6 m ρ c main_arg1 (by decide)).trans ((Keep.keep5 m ρ c main_arg1 (by decide)).trans ((Keep.keep4 m ρ c main_arg1 (by decide)).trans ((Keep.keep3 m ρ c main_arg1 (by decide)).trans ((Keep.keep2 m ρ c main_arg1 (by decide)).trans (Keep.keep1 m ρ c main_arg1 (by decide))))))))))))).trans rfl) (((Keep.keep12 m ρ c main_v23 (by decide)).trans ((Keep.keep11 m ρ c main_v23 (by decide)).trans ((Keep.keep10 m ρ c main_v23 (by decide)).trans ((Keep.keep9 m ρ c main_v23 (by decide)).trans (Keep.keep8 m ρ c main_v23 (by decide)))))).trans (inv2 m ρ c))

/-- Layer 1's left operand 3. -/
theorem x3 : W13 m ρ c (Proc.devRef .tc main_v53) = Cert.ReferenceIdeal.ReadP.val_main_v79 (F := Ideal) (a0 m c) (a24 m c) :=
  StretchPre.xs3 (W12 m ρ c) (a0 m c) (a24 m c) (((Keep.keep12 m ρ c main_arg0 (by decide)).trans ((Keep.keep11 m ρ c main_arg0 (by decide)).trans ((Keep.keep10 m ρ c main_arg0 (by decide)).trans ((Keep.keep9 m ρ c main_arg0 (by decide)).trans ((Keep.keep8 m ρ c main_arg0 (by decide)).trans ((Keep.keep7 m ρ c main_arg0 (by decide)).trans ((Keep.keep6 m ρ c main_arg0 (by decide)).trans ((Keep.keep5 m ρ c main_arg0 (by decide)).trans ((Keep.keep4 m ρ c main_arg0 (by decide)).trans ((Keep.keep3 m ρ c main_arg0 (by decide)).trans ((Keep.keep2 m ρ c main_arg0 (by decide)).trans (Keep.keep1 m ρ c main_arg0 (by decide))))))))))))).trans rfl) ((Keep.keep12 m ρ c main_v39 (by decide)).trans (inv4 m ρ c))

end Cert.KernelIdeal.ChainPre

end
-- ==== Proof.StretchL1.lean ====
/-
  Layer 1's host operations, for an arbitrary state of the buffers. After the three products: each product's
  rows gathered at the edges' sources (a negative index wrapped once) and scatter-added into the destinations,
  then scaled by the in-degree normaliser — the three messages; the bias rows ([128] cast to [1, 128], the type-A
  one after adding the two biases); after the combine regions: the outputs scaled by the out-degree normalisers, the next layer's left operands.
-/
import proofs.«156020_j6296422056695_1_alg».proof.Proof.Gen.KernelIdeal.Launch
import proofs.«156020_j6296422056695_1_alg».proof.Proof.RefLaws
import proofs.«156020_j6296422056695_1_alg».proof.Proof.ReadP
import Idealize.ShloMosaic.Lib.StableHlo.Run

noncomputable section

open scoped BigOperators

namespace Cert.KernelIdeal.StretchL1

open Idealize.ShloMosaic Idealize.ShloMosaic.TcCoe Idealize.ShloMosaic.StableHlo Idealize.SL.Sem
open Cert.KernelIdeal Cert.KernelIdeal.Gen

/-- The two programs spell the same scatter and gather dimension records. -/
theorem sc1_eq : Cert.KernelIdeal.scatter_S100000_S1600000x1_S1600000_n_0_0_1 = Cert.ReferenceIdeal.scatter_S100000_S1600000x1_S1600000_n_0_0_1 := rfl
theorem sc2_eq : Cert.KernelIdeal.scatter_S100000x128_S1600000x1_S1600000x128_1_0_0_1 = Cert.ReferenceIdeal.scatter_S100000x128_S1600000x1_S1600000x128_1_0_0_1 := rfl
theorem ga_eq : Cert.KernelIdeal.gather_S100000x128_S1600000x1_S1600000x128_1_0_n_n_0_1_1128 = Cert.ReferenceIdeal.gather_S100000x128_S1600000x1_S1600000x128_1_0_n_n_0_1_1128 := rfl

set_option maxHeartbeats 8000000 in
/-- Message 1: gathered at the sources, summed into the destinations, scaled by the in-degree normaliser. -/
theorem ms1 (Vv : Valuation τ sig (Elt Ideal)) (x0 : (⟨Cert.ReferenceIdeal.S100000x128, .f32⟩ : BufTy).Contents (Elt Ideal)) (x2 : (⟨Cert.ReferenceIdeal.S128x128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal))
    (h0 : Vv (Proc.devRef .tc main_v54) = Cert.ReferenceIdeal.ReadP.val_main_v14 (F := Ideal) x0 x2 x20)
    (h1 : Vv (Proc.devRef .tc main_arg20) = x20)
    (h2 : Vv (Proc.devRef .tc main_arg21) = x21)
    (h3 : Vv (Proc.devRef .tc main_v15) = Cert.ReferenceIdeal.ReadP.val_main_v27 (F := Ideal) x21) :
    StableHlo.after (hostOps3 (F := Ideal)) Vv (Proc.devRef .tc main_v88) = Cert.ReferenceIdeal.ReadP.val_main_v29 (F := Ideal) x0 x2 x20 x21 := by
  simp only [hostOps3]
  after_results_simp
  rw [h0, h1, h2, h3, sc2_eq, ga_eq]
  rfl

set_option maxHeartbeats 8000000 in
/-- Message 2: gathered at the sources, summed into the destinations, scaled by the in-degree normaliser. -/
theorem ms2 (Vv : Valuation τ sig (Elt Ideal)) (x1 : (⟨Cert.ReferenceIdeal.S100000x128, .f32⟩ : BufTy).Contents (Elt Ideal)) (x4 : (⟨Cert.ReferenceIdeal.S128x128, .f32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal))
    (h0 : Vv (Proc.devRef .tc main_v55) = Cert.ReferenceIdeal.ReadP.val_main_v47 (F := Ideal) x1 x4 x22)
    (h1 : Vv (Proc.devRef .tc main_arg22) = x22)
    (h2 : Vv (Proc.devRef .tc main_arg23) = x23)
    (h3 : Vv (Proc.devRef .tc main_v31) = Cert.ReferenceIdeal.ReadP.val_main_v60 (F := Ideal) x23) :
    StableHlo.after (hostOps3 (F := Ideal)) Vv (Proc.devRef .tc main_v90) = Cert.ReferenceIdeal.ReadP.val_main_v62 (F := Ideal) x1 x4 x22 x23 := by
  simp only [hostOps3]
  after_results_simp
  rw [h0, h1, h2, h3, sc2_eq, ga_eq]
  rfl

set_option maxHeartbeats 8000000 in
/-- Message 3: gathered at the sources, summed into the destinations, scaled by the in-degree normaliser. -/
theorem ms3 (Vv : Valuation τ sig (Elt Ideal)) (x0 : (⟨Cert.ReferenceIdeal.S100000x128, .f32⟩ : BufTy).Contents (Elt Ideal)) (x6 : (⟨Cert.ReferenceIdeal.S128x128, .f32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v56) = Cert.ReferenceIdeal.ReadP.val_main_v80 (F := Ideal) x0 x6 x24)
    (h1 : Vv (Proc.devRef .tc main_arg24) = x24)
    (h2 : Vv (Proc.devRef .tc main_arg25) = x25)
    (h3 : Vv (Proc.devRef .tc main_v47) = Cert.ReferenceIdeal.ReadP.val_main_v93 (F := Ideal) x25) :
    StableHlo.after (hostOps3 (F := Ideal)) Vv (Proc.devRef .tc main_v92) = Cert.ReferenceIdeal.ReadP.val_main_v95 (F := Ideal) x0 x6 x24 x25 := by
  simp only [hostOps3]
  after_results_simp
  rw [h0, h1, h2, h3, sc2_eq, ga_eq]
  rfl

set_option maxHeartbeats 8000000 in
/-- The bias row of the type-B output. -/
theorem bias1 (Vv : Valuation τ sig (Elt Ideal)) (x3 : (⟨Cert.ReferenceIdeal.S128, .f32⟩ : BufTy).Contents (Elt Ideal))
    (h0 : Vv (Proc.devRef .tc main_arg3) = x3) :
    StableHlo.after (hostOps3 (F := Ideal)) Vv (Proc.devRef .tc main_v93) = Cert.RefLaws.biasK x3 := by
  simp only [hostOps3]
  after_results_simp
  rw [h0]
  rfl

set_option maxHeartbeats 8000000 in
/-- The bias row of the type-A output: the two relations' biases added. -/
theorem bias23 (Vv : Valuation τ sig (Elt Ideal)) (x5 : (⟨Cert.ReferenceIdeal.S128, .f32⟩ : BufTy).Contents (Elt Ideal)) (x7 : (⟨Cert.ReferenceIdeal.S128, .f32⟩ : BufTy).Contents (Elt Ideal))
    (h0 : Vv (Proc.devRef .tc main_arg5) = x5)
    (h1 : Vv (Proc.devRef .tc main_arg7) = x7) :
    StableHlo.after (hostOps3 (F := Ideal)) Vv (Proc.devRef .tc main_v95) = Cert.RefLaws.biasK (addf (F := Ideal) x5 x7) := by
  simp only [hostOps3]
  after_results_simp
  rw [h0, h1]
  rfl

/-- The next layer's left operand 1: this layer's output scaled by the out-degree normaliser. -/
theorem nx1 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x20 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v97) = Cert.ReferenceIdeal.ReadP.val_main_v100 (F := Ideal) x0 x1 x4 x5 x6 x7 x22 x23 x24 x25)
    (h1 : Vv (Proc.devRef .tc main_v7) = Cert.ReferenceIdeal.ReadP.val_main_v113 (F := Ideal) x20) :
    StableHlo.after (hostOps5 (F := Ideal)) Vv (Proc.devRef .tc main_v99) = Cert.ReferenceIdeal.ReadP.val_main_v115 (F := Ideal) x0 x1 x4 x5 x6 x7 x20 x22 x23 x24 x25 := by
  simp only [hostOps5]
  after_results
  rw [h0, h1]
  rfl

/-- The next layer's left operand 2: this layer's output scaled by the out-degree normaliser. -/
theorem nx2 (Vv : Valuation τ sig (Elt Ideal)) (x0 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal))
    (h0 : Vv (Proc.devRef .tc main_v96) = Cert.ReferenceIdeal.ReadP.val_main_v101 (F := Ideal) x0 x2 x3 x20 x21)
    (h1 : Vv (Proc.devRef .tc main_v23) = Cert.ReferenceIdeal.ReadP.val_main_v146 (F := Ideal) x22) :
    StableHlo.after (hostOps5 (F := Ideal)) Vv (Proc.devRef .tc main_v101) = Cert.ReferenceIdeal.ReadP.val_main_v148 (F := Ideal) x0 x2 x3 x20 x21 x22 := by
  simp only [hostOps5]
  after_results
  rw [h0, h1]
  rfl

/-- The next layer's left operand 3: this layer's output scaled by the out-degree normaliser. -/
theorem nx3 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v97) = Cert.ReferenceIdeal.ReadP.val_main_v100 (F := Ideal) x0 x1 x4 x5 x6 x7 x22 x23 x24 x25)
    (h1 : Vv (Proc.devRef .tc main_v39) = Cert.ReferenceIdeal.ReadP.val_main_v179 (F := Ideal) x24) :
    StableHlo.after (hostOps5 (F := Ideal)) Vv (Proc.devRef .tc main_v103) = Cert.ReferenceIdeal.ReadP.val_main_v181 (F := Ideal) x0 x1 x4 x5 x6 x7 x22 x23 x24 x25 := by
  simp only [hostOps5]
  after_results
  rw [h0, h1]
  rfl

end Cert.KernelIdeal.StretchL1

end
-- ==== Proof.Region0.lean ====
/-
  Region 0: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (mmSpec (V c main_v49) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg0.win 2).blk t).view.emb (ix2 p q) = ix2 (n0 := 100000) (n1 := 128) ⟨t.val * 10000 + p.val, hR⟩ q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  show _ = mmSpec (V c main_v49) (V c main_arg2) (((cfg0.win 2).blk t).view.emb (ix2 p q))
  rw [hi]
  unfold mmSpec
  show _ = ∑ k : Fin 128, _
  refine Finset.sum_congr rfl fun k _ => ?_
  have h0 : ((cfg0.win 0).blk t).view.emb (ix2 p k) = ix2 (n0 := 100000) (n1 := 128) ⟨t.val * 10000 + p.val, hR⟩ k := by
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ((cfg0.win 1).blk t).view.emb (ix2 k q) = ix2 (n0 := 128) (n1 := 128) k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have x0 : iblk0 V c 0 t (ix2 p k) = V c main_v49 (ix2 (n0 := 100000) (n1 := 128) ⟨t.val * 10000 + p.val, hR⟩ k) := congrArg (V c main_v49) h0
  have x1 : iblk0 V c 1 t (ix2 k q) = V c main_arg2 (ix2 (n0 := 128) (n1 := 128) k q) := congrArg (V c main_arg2) h1
  rw [x0, x1] <;> rfl

/-- An index of the result lies in point t's block iff each coordinate is in the block's range. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v54).slice (win0_2.rect t)).set ↔ _
  rw [View.set_slice_whole, Rect.mem_set_unit]
  exact Iff.rfl

/-- Row r of the result is written by point r / 10000. -/
theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 10 := rfl
  refine ⟨⟨(i 0).val / 10000, by omega⟩, flush0_2 _, ?_⟩
  rw [mem_blk]
  have eo := (idx_facts ⟨(i 0).val / 10000, by omega⟩).2.2.2.2
  intro a
  match a with
  | ⟨0, _⟩ => show win0_2.index _ (0 : Fin 2) * 10000 ≤ (i 0).val ∧ (i 0).val < win0_2.index _ (0 : Fin 2) * 10000 + 10000; rw [eo.1]; show (i 0).val / 10000 * 10000 ≤ _ ∧ _ < (i 0).val / 10000 * 10000 + 10000; omega
  | ⟨1, _⟩ => show win0_2.index _ (1 : Fin 2) * 128 ≤ (i 1).val ∧ (i 1).val < win0_2.index _ (1 : Fin 2) * 128 + 128; rw [eo.2]; omega

/-- The result array after the region: the whole product of the arrays the region found. -/
theorem arr_eq (c : Dev nD) : (dat0 V c).arrAt 2 cfg0.N = mmSpec (V c main_v49) (V c main_arg2) :=
  (dat0 V c).arrAt_eq_of_cover 2 _ (fun t _ => flushed_eq V c t) cover

end Cert.KernelIdeal.Region0

end
-- ==== Proof.Region1.lean ====
/-
  Region 1: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed_eq (c : Dev nD) (t : Fin cfg1.N) :
    (dat1 V c).flushed 2 t = ((cfg1.win 2).blk t).view.read (Elt Ideal) (mmSpec (V c main_v51) (V c main_arg4)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg1.win 2).blk t).view.emb (ix2 p q) = ix2 (n0 := 100000) (n1 := 128) ⟨t.val * 10000 + p.val, hR⟩ q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  show _ = mmSpec (V c main_v51) (V c main_arg4) (((cfg1.win 2).blk t).view.emb (ix2 p q))
  rw [hi]
  unfold mmSpec
  show _ = ∑ k : Fin 128, _
  refine Finset.sum_congr rfl fun k _ => ?_
  have h0 : ((cfg1.win 0).blk t).view.emb (ix2 p k) = ix2 (n0 := 100000) (n1 := 128) ⟨t.val * 10000 + p.val, hR⟩ k := by
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  have h1 : ((cfg1.win 1).blk t).view.emb (ix2 k q) = ix2 (n0 := 128) (n1 := 128) k q := by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have x0 : iblk1 V c 0 t (ix2 p k) = V c main_v51 (ix2 (n0 := 100000) (n1 := 128) ⟨t.val * 10000 + p.val, hR⟩ k) := congrArg (V c main_v51) h0
  have x1 : iblk1 V c 1 t (ix2 k q) = V c main_arg4 (ix2 (n0 := 128) (n1 := 128) k q) := congrArg (V c main_arg4) h1
  rw [x0, x1] <;> rfl

/-- An index of the result lies in point t's block iff each coordinate is in the block's range. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v55).slice (win1_2.rect t)).set ↔ _
  rw [View.set_slice_whole, Rect.mem_set_unit]
  exact Iff.rfl

/-- Row r of the result is written by point r / 10000. -/
theorem cover (i : S100000x128.Idx) : ∃ t : Fin cfg1.N, (cfg1.win 2).flush t = true ∧ i ∈ ((cfg1.win 2).blk t).view.set := by
  have h0 : (i 0).val < 100000 := (i 0).isLt
  have h1 : (i 1).val < 128 := (i 1).isLt
  have hN : cfg1.N = 10 := rfl
  refine ⟨⟨(i 0).val / 10000, by omega⟩, flush1_2 _, ?_⟩
  rw [mem_blk]
  have eo := (idx_facts ⟨(i 0).val / 10000, by omega⟩).2.2.2.2
  intro a
  match a with
  | ⟨0, _⟩ => show win1_2.index _ (0 : Fin 2) * 10000 ≤ (i 0).val ∧ (i 0).val < win1_2.index _ (0 : Fin 2) * 10000 + 10000; rw [eo.1]; show (i 0).val / 10000 * 10000 ≤ _ ∧ _ < (i 0).val / 10000 * 10000 + 10000; omega
  | ⟨1, _⟩ => show win1_2.index _ (1 : Fin 2) * 128 ≤ (i 1).val ∧ (i 1).val < win1_2.index _ (1 : Fin 2) * 128 + 128; rw [eo.2]; omega

/-- The result array after the region: the whole product of the arrays the region found. -/
theorem arr_eq (c : Dev nD) : (dat1 V c).arrAt 2 cfg1.N = mmSpec (V c main_v51) (V c main_arg4) :=
  (dat1 V c).arrAt_eq_of_cover 2 _ (fun t _ => flushed_eq V c t) cover

end Cert.KernelIdeal.Region1

end
-- ==== Proof.Region2.lean ====
/-
  Region 2: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal) (mmSpec (V c main_v53) (V c main_arg6)) := by
  show (cfg2.win 2).cut (grid2.coords t) ((dat2 V c).after 2 t) = _
  rw [after2_2]
  unfold out2_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg2.win 2).blk t).view.emb (ix2 p q) = ix2 (n0 := 100000) (n1 := 128) ⟨t.val * 10000 + p.val, hR⟩ q := by
    funext a; apply Fin.ext
    match a with
    | ⟨0, _⟩ => show win2_2.index t (0 : Fin 2) * 10000 + 1 * p.val = t.val * 10000 + p.val; omega
    | ⟨1, _⟩ => show win2_2.index t (1 : Fin 2) * 128 + 1 * q.val = q.val; omega
  show _ = mmSpec (V c main_v53) (V c main_arg6) (((cfg2.win 2).blk t).view.emb (ix2 p q))
  rw [hi]
  unfold mmSpec
  show _ = ∑ k : Fin 128, _
  refine Finset.sum_congr rfl fun k _ => ?_
  have h0 : ((cfg2.win 0).blk t).view.emb (ix2 p k) = ix2 (n0 := 100000) (n1 := 128) ⟨t.val * 10000 + p.val, hR⟩ k := by
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have h1 : ((cfg2.win 1).blk t).view.emb (ix2 k q) = ix2 (n0 := 128) (n1 := 128) k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have x0 : iblk2 V c 0 t (ix2 p k) = V c main_v53 (ix2 (n0 := 100000) (n1 := 128) ⟨t.val * 10000 + p.val, hR⟩ k) := congrArg (V c main_v53) h0
  have x1 : iblk2 V c 1 t (ix2 k q) = V c main_arg6 (ix2 (n0 := 128) (n1 := 128) k q) := congrArg (V c main_arg6) h1
  rw [x0, x1] <;> rfl

/-- An index of the result lies in point t's block iff each coordinate is in the block's range. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v56).slice (win2_2.rect t)).set ↔ _
  rw [View.set_slice_whole, Rect.mem_set_unit]
  exact Iff.rfl

/-- Row r of the result is written by point r / 10000. -/
theorem cover (i : S100000x128.Idx) : ∃ t : Fin cfg2.N, (cfg2.win 2).flush t = true ∧ i ∈ ((cfg2.win 2).blk t).view.set := by
  have h0 : (i 0).val < 100000 := (i 0).isLt
  have h1 : (i 1).val < 128 := (i 1).isLt
  have hN : cfg2.N = 10 := rfl
  refine ⟨⟨(i 0).val / 10000, by omega⟩, flush2_2 _, ?_⟩
  rw [mem_blk]
  have eo := (idx_facts ⟨(i 0).val / 10000, by omega⟩).2.2.2.2
  intro a
  match a with
  | ⟨0, _⟩ => show win2_2.index _ (0 : Fin 2) * 10000 ≤ (i 0).val ∧ (i 0).val < win2_2.index _ (0 : Fin 2) * 10000 + 10000; rw [eo.1]; show (i 0).val / 10000 * 10000 ≤ _ ∧ _ < (i 0).val / 10000 * 10000 + 10000; omega
  | ⟨1, _⟩ => show win2_2.index _ (1 : Fin 2) * 128 ≤ (i 1).val ∧ (i 1).val < win2_2.index _ (1 : Fin 2) * 128 + 128; rw [eo.2]; omega

/-- The result array after the region: the whole product of the arrays the region found. -/
theorem arr_eq (c : Dev nD) : (dat2 V c).arrAt 2 cfg2.N = mmSpec (V c main_v53) (V c main_arg6) :=
  (dat2 V c).arrAt_eq_of_cover 2 _ (fun t _ => flushed_eq V c t) cover

end Cert.KernelIdeal.Region2

end
-- ==== Proof.Region3.lean ====
/-
  Region 3: one message array plus the bias row, then the maximum with zero. Grid point t handles rows
  5000·t … 5000·t + 4999; the twenty row blocks tile the result, so the result array is the whole-array
  function, entry (r, q) = max (message(r, q) + bias(q), 0).
-/
import proofs.«156020_j6296422056695_1_alg».proof.Proof.Gen.KernelIdeal.Frame
import proofs.«156020_j6296422056695_1_alg».proof.Proof.BlockLaws

noncomputable section

open scoped BigOperators

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the message and result windows move down one row block per point, the bias
    window stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function. -/
theorem flushed_eq (c : Dev nD) (t : Fin cfg3.N) :
    (dat3 V c).flushed 2 t = ((cfg3.win 2).blk t).view.read (Elt Ideal) (c1rSpec (V c main_v88) (V c main_v93)) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S1x128) zero_off]
  obtain ⟨e0, e1, e2, e3, e4, e5⟩ := idx_facts t
  funext j
  obtain ⟨p, q, rfl⟩ : ∃ (p : Fin 5000) (q : Fin 128), j = ix2 p q := ⟨j 0, j 1, eq_ix2 j⟩
  have ht : t.val < 20 := t.isLt
  have hp : p.val < 5000 := p.isLt
  have hq : q.val < 128 := q.isLt
  have hR : t.val * 5000 + p.val < 100000 := by omega
  refine (c1_pay _ _ p q).trans ?_
  have hi : ((cfg3.win 2).blk t).view.emb (ix2 p q) = ix2 (n0 := 100000) (n1 := 128) ⟨t.val * 5000 + p.val, hR⟩ q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  have h0 : ((cfg3.win 0).blk t).view.emb (ix2 p q) = ix2 (n0 := 100000) (n1 := 128) ⟨t.val * 5000 + p.val, hR⟩ q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : ((cfg3.win 1).blk t).view.emb (ix2 (0 : Fin 1) q) = ix2 (n0 := 1) (n1 := 128) (0 : Fin 1) q := by
    funext a; apply Fin.ext
    match a with
    | ⟨0, _⟩ => show win3_1.index t (0 : Fin 2) * 1 + 1 * (0 : Fin 1).val = (0 : Fin 1).val; omega
    | ⟨1, _⟩ => show win3_1.index t (1 : Fin 2) * 128 + 1 * q.val = q.val; omega
  have x0 : iblk3 V c 0 t (ix2 p q) = V c main_v88 (ix2 (n0 := 100000) (n1 := 128) ⟨t.val * 5000 + p.val, hR⟩ q) := congrArg (V c main_v88) h0
  have x1 : iblk3 V c 1 t (ix2 (0 : Fin 1) q) = V c main_v93 (ix2 (n0 := 1) (n1 := 128) (0 : Fin 1) q) := congrArg (V c main_v93) h1
  rw [x0, x1]
  show _ = c1rSpec (V c main_v88) (V c main_v93) (((cfg3.win 2).blk t).view.emb (ix2 p q))
  rw [hi] <;> rfl

/-- An index of the result lies in point t's block iff each coordinate is in the block's range. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v96).slice (win3_2.rect t)).set ↔ _
  rw [View.set_slice_whole, Rect.mem_set_unit]
  exact Iff.rfl

/-- Row r of the result is written by point r / 5000. -/
theorem cover (i : S100000x128.Idx) : ∃ t : Fin cfg3.N, (cfg3.win 2).flush t = true ∧ i ∈ ((cfg3.win 2).blk t).view.set := by
  have h0 : (i 0).val < 100000 := (i 0).isLt
  have h1 : (i 1).val < 128 := (i 1).isLt
  have hN : cfg3.N = 20 := rfl
  refine ⟨⟨(i 0).val / 5000, by omega⟩, flush3_2 _, ?_⟩
  rw [mem_blk]
  have eo := (idx_facts ⟨(i 0).val / 5000, by omega⟩).2.2.2.2
  intro a
  match a with
  | ⟨0, _⟩ => show win3_2.index _ (0 : Fin 2) * 5000 ≤ (i 0).val ∧ (i 0).val < win3_2.index _ (0 : Fin 2) * 5000 + 5000; rw [eo.1]; show (i 0).val / 5000 * 5000 ≤ _ ∧ _ < (i 0).val / 5000 * 5000 + 5000; omega
  | ⟨1, _⟩ => show win3_2.index _ (1 : Fin 2) * 128 ≤ (i 1).val ∧ (i 1).val < win3_2.index _ (1 : Fin 2) * 128 + 128; rw [eo.2]; omega

/-- The result array after the region. -/
theorem arr_eq (c : Dev nD) : (dat3 V c).arrAt 2 cfg3.N = c1rSpec (V c main_v88) (V c main_v93) :=
  (dat3 V c).arrAt_eq_of_cover 2 _ (fun t _ => flushed_eq V c t) cover

end Cert.KernelIdeal.Region3

end
-- ==== Proof.Region4.lean ====
/-
  Region 4: two message arrays added, plus the bias row, then the maximum with zero. Grid point t handles
  rows 5000·t … 5000·t + 4999; the twenty row blocks tile the result, so the result array is the whole-array
  function, entry (r, q) = max ((m(r, q) + n(r, q)) + bias(q), 0).
-/
import proofs.«156020_j6296422056695_1_alg».proof.Proof.Gen.KernelIdeal.Frame
import proofs.«156020_j6296422056695_1_alg».proof.Proof.BlockLaws

noncomputable section

open scoped BigOperators

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the two message windows and the result window move down one row block per
    point, the bias window stays. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the whole-array function. -/
theorem flushed_eq (c : Dev nD) (t : Fin cfg4.N) :
    (dat4 V c).flushed 3 t = ((cfg4.win 3).blk t).view.read (Elt Ideal) (c2rSpec (V c main_v90) (V c main_v92) (V c main_v95)) := by
  show (cfg4.win 3).cut (grid4.coords t) ((dat4 V c).after 3 t) = _
  rw [after4_3]
  unfold out4_3
  rw [View.canon_unit_zero zero_off]
  simp only [View.ld_unit_zero (S := S5000x128) zero_off, View.ld_unit_zero (S := S1x128) zero_off]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have ht : t.val < 20 := t.isLt
  have hp : p.val < 5000 := p.isLt
  have hq : q.val < 128 := q.isLt
  have hR : t.val * 5000 + p.val < 100000 := by omega
  refine (c2_pay _ _ _ p q).trans ?_
  have hi : ((cfg4.win 3).blk t).view.emb (ix2 p q) = ix2 (n0 := 100000) (n1 := 128) ⟨t.val * 5000 + p.val, hR⟩ q := by
    funext a; apply Fin.ext
    match a with
    | ⟨0, _⟩ => show win4_3.index t (0 : Fin 2) * 5000 + 1 * p.val = t.val * 5000 + p.val; omega
    | ⟨1, _⟩ => show win4_3.index t (1 : Fin 2) * 128 + 1 * q.val = q.val; omega
  have h0 : ((cfg4.win 0).blk t).view.emb (ix2 p q) = ix2 (n0 := 100000) (n1 := 128) ⟨t.val * 5000 + p.val, hR⟩ q := by
    funext a; apply Fin.ext
    match a with
    | ⟨0, _⟩ => show win4_0.index t (0 : Fin 2) * 5000 + 1 * p.val = t.val * 5000 + p.val; omega
    | ⟨1, _⟩ => show win4_0.index t (1 : Fin 2) * 128 + 1 * q.val = q.val; omega
  have h1 : ((cfg4.win 1).blk t).view.emb (ix2 p q) = ix2 (n0 := 100000) (n1 := 128) ⟨t.val * 5000 + p.val, hR⟩ q := by
    funext a; apply Fin.ext
    match a with
    | ⟨0, _⟩ => show win4_1.index t (0 : Fin 2) * 5000 + 1 * p.val = t.val * 5000 + p.val; omega
    | ⟨1, _⟩ => show win4_1.index t (1 : Fin 2) * 128 + 1 * q.val = q.val; omega
  have h2 : ((cfg4.win 2).blk t).view.emb (ix2 (0 : Fin 1) q) = ix2 (n0 := 1) (n1 := 128) (0 : Fin 1) q := by
    funext a; apply Fin.ext
    match a with
    | ⟨0, _⟩ => show win4_2.index t (0 : Fin 2) * 1 + 1 * (0 : Fin 1).val = (0 : Fin 1).val; omega
    | ⟨1, _⟩ => show win4_2.index t (1 : Fin 2) * 128 + 1 * q.val = q.val; omega
  have x0 : iblk4 V c 0 t (ix2 p q) = V c main_v90 (ix2 (n0 := 100000) (n1 := 128) ⟨t.val * 5000 + p.val, hR⟩ q) := congrArg (V c main_v90) h0
  have x1 : iblk4 V c 1 t (ix2 p q) = V c main_v92 (ix2 (n0 := 100000) (n1 := 128) ⟨t.val * 5000 + p.val, hR⟩ q) := congrArg (V c main_v92) h1
  have x2 : iblk4 V c 2 t (ix2 (0 : Fin 1) q) = V c main_v95 (ix2 (n0 := 1) (n1 := 128) (0 : Fin 1) q) := congrArg (V c main_v95) h2
  rw [x0, x1, x2]
  show _ = c2rSpec (V c main_v90) (V c main_v92) (V c main_v95) (((cfg4.win 3).blk t).view.emb (ix2 p q))
  rw [hi] <;> rfl

/-- An index of the result lies in point t's block iff each coordinate is in the block's range. -/
theorem mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v97).slice (win4_3.rect t)).set ↔ _
  rw [View.set_slice_whole, Rect.mem_set_unit]
  exact Iff.rfl

/-- Row r of the result is written by point r / 5000. -/
theorem cover (i : S100000x128.Idx) : ∃ t : Fin cfg4.N, (cfg4.win 3).flush t = true ∧ i ∈ ((cfg4.win 3).blk t).view.set := by
  have h0 : (i 0).val < 100000 := (i 0).isLt
  have h1 : (i 1).val < 128 := (i 1).isLt
  have hN : cfg4.N = 20 := rfl
  refine ⟨⟨(i 0).val / 5000, by omega⟩, flush4_3 _, ?_⟩
  rw [mem_blk]
  have eo := (idx_facts ⟨(i 0).val / 5000, by omega⟩).2.2.2.2.2.2
  intro a
  match a with
  | ⟨0, _⟩ => show win4_3.index _ (0 : Fin 2) * 5000 ≤ (i 0).val ∧ (i 0).val < win4_3.index _ (0 : Fin 2) * 5000 + 5000; rw [eo.1]; show (i 0).val / 5000 * 5000 ≤ _ ∧ _ < (i 0).val / 5000 * 5000 + 5000; omega
  | ⟨1, _⟩ => show win4_3.index _ (1 : Fin 2) * 128 ≤ (i 1).val ∧ (i 1).val < win4_3.index _ (1 : Fin 2) * 128 + 128; rw [eo.2]; omega

/-- The result array after the region. -/
theorem arr_eq (c : Dev nD) : (dat4 V c).arrAt 3 cfg4.N = c2rSpec (V c main_v90) (V c main_v92) (V c main_v95) :=
  (dat4 V c).arrAt_eq_of_cover 3 _ (fun t _ => flushed_eq V c t) cover

end Cert.KernelIdeal.Region4

end
-- ==== Proof.Chain1.lean ====
/-
  Layer 1 of the kernel program, buffer by buffer, matched with the reference's stages, from the layer's three
  left operands (hypotheses: the previous layer's facts) and the six normalisers.
-/
import proofs.«156020_j6296422056695_1_alg».proof.Proof.Args
import proofs.«156020_j6296422056695_1_alg».proof.Proof.StretchL1
import proofs.«156020_j6296422056695_1_alg».proof.Proof.Region0
import proofs.«156020_j6296422056695_1_alg».proof.Proof.Region1
import proofs.«156020_j6296422056695_1_alg».proof.Proof.Region2
import proofs.«156020_j6296422056695_1_alg».proof.Proof.Region3
import proofs.«156020_j6296422056695_1_alg».proof.Proof.Region4

noncomputable section

open scoped BigOperators

namespace Cert.KernelIdeal.Chain1

open Idealize.ShloMosaic Idealize.ShloMosaic.TcCoe Idealize.ShloMosaic.StableHlo Idealize.SL.Sem
open Cert.KernelIdeal Cert.KernelIdeal.Gen Cert.KernelIdeal.Blocks Cert.KernelIdeal.Track

variable (m : (ℓ : Loc nD τ sig) → Buf (Elt Ideal) ℓ) (ρ : Dev nD → PrngReg) (c : Dev nD)

/-- The reference recomputes this normaliser in each layer: the same stage under another name. -/
theorem same_val_main_v113 (x : (⟨Cert.ReferenceIdeal.S1600000, .i32⟩ : BufTy).Contents (Elt Ideal)) : Cert.ReferenceIdeal.ReadP.val_main_v11 (F := Ideal) x = Cert.ReferenceIdeal.ReadP.val_main_v113 (F := Ideal) x := rfl

/-- The reference recomputes this normaliser in each layer: the same stage under another name. -/
theorem same_val_main_v146 (x : (⟨Cert.ReferenceIdeal.S1600000, .i32⟩ : BufTy).Contents (Elt Ideal)) : Cert.ReferenceIdeal.ReadP.val_main_v44 (F := Ideal) x = Cert.ReferenceIdeal.ReadP.val_main_v146 (F := Ideal) x := rfl

/-- The reference recomputes this normaliser in each layer: the same stage under another name. -/
theorem same_val_main_v179 (x : (⟨Cert.ReferenceIdeal.S1600000, .i32⟩ : BufTy).Contents (Elt Ideal)) : Cert.ReferenceIdeal.ReadP.val_main_v77 (F := Ideal) x = Cert.ReferenceIdeal.ReadP.val_main_v179 (F := Ideal) x := rfl

/-- Product 1: the region's result array is the reference's product stage. -/
theorem h1
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W14 m ρ c (Proc.devRef .tc main_v54) = Cert.ReferenceIdeal.ReadP.val_main_v14 (F := Ideal) (a0 m c) (a2 m c) (a20 m c) := by
  refine (W14_arr m ρ c 2).trans ?_
  rw [Region0.arr_eq]
  show mmSpec (W13 m ρ c (Proc.devRef .tc main_v49)) (W13 m ρ c (Proc.devRef .tc main_arg2)) = _
  rw [show W13 m ρ c (Proc.devRef .tc main_v49) = _ from (rfl.trans hx1),
    show W13 m ρ c (Proc.devRef .tc main_arg2) = a2 m c from (((Keep.keep13 m ρ c main_arg2 (by decide)).trans ((Keep.keep12 m ρ c main_arg2 (by decide)).trans ((Keep.keep11 m ρ c main_arg2 (by decide)).trans ((Keep.keep10 m ρ c main_arg2 (by decide)).trans ((Keep.keep9 m ρ c main_arg2 (by decide)).trans ((Keep.keep8 m ρ c main_arg2 (by decide)).trans ((Keep.keep7 m ρ c main_arg2 (by decide)).trans ((Keep.keep6 m ρ c main_arg2 (by decide)).trans ((Keep.keep5 m ρ c main_arg2 (by decide)).trans ((Keep.keep4 m ρ c main_arg2 (by decide)).trans ((Keep.keep3 m ρ c main_arg2 (by decide)).trans ((Keep.keep2 m ρ c main_arg2 (by decide)).trans (Keep.keep1 m ρ c main_arg2 (by decide)))))))))))))).trans rfl)]
  exact (Cert.RefLaws.dot_eq _ _).symm

/-- Product 2: the region's result array is the reference's product stage. -/
theorem h2
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W15 m ρ c (Proc.devRef .tc main_v55) = Cert.ReferenceIdeal.ReadP.val_main_v47 (F := Ideal) (a1 m c) (a4 m c) (a22 m c) := by
  refine (W15_arr m ρ c 2).trans ?_
  rw [Region1.arr_eq]
  show mmSpec (W14 m ρ c (Proc.devRef .tc main_v51)) (W14 m ρ c (Proc.devRef .tc main_arg4)) = _
  rw [show W14 m ρ c (Proc.devRef .tc main_v51) = _ from ((W14_of_ne m ρ c main_v51 (by decide)).trans hx2),
    show W14 m ρ c (Proc.devRef .tc main_arg4) = a4 m c from (((W14_of_ne m ρ c main_arg4 (by decide)).trans ((Keep.keep13 m ρ c main_arg4 (by decide)).trans ((Keep.keep12 m ρ c main_arg4 (by decide)).trans ((Keep.keep11 m ρ c main_arg4 (by decide)).trans ((Keep.keep10 m ρ c main_arg4 (by decide)).trans ((Keep.keep9 m ρ c main_arg4 (by decide)).trans ((Keep.keep8 m ρ c main_arg4 (by decide)).trans ((Keep.keep7 m ρ c main_arg4 (by decide)).trans ((Keep.keep6 m ρ c main_arg4 (by decide)).trans ((Keep.keep5 m ρ c main_arg4 (by decide)).trans ((Keep.keep4 m ρ c main_arg4 (by decide)).trans ((Keep.keep3 m ρ c main_arg4 (by decide)).trans ((Keep.keep2 m ρ c main_arg4 (by decide)).trans (Keep.keep1 m ρ c main_arg4 (by decide))))))))))))))).trans rfl)]
  exact (Cert.RefLaws.dot_eq _ _).symm

/-- Product 3: the region's result array is the reference's product stage. -/
theorem h3
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W16 m ρ c (Proc.devRef .tc main_v56) = Cert.ReferenceIdeal.ReadP.val_main_v80 (F := Ideal) (a0 m c) (a6 m c) (a24 m c) := by
  refine (W16_arr m ρ c 2).trans ?_
  rw [Region2.arr_eq]
  show mmSpec (W15 m ρ c (Proc.devRef .tc main_v53)) (W15 m ρ c (Proc.devRef .tc main_arg6)) = _
  rw [show W15 m ρ c (Proc.devRef .tc main_v53) = _ from (((W15_of_ne m ρ c main_v53 (by decide)).trans (W14_of_ne m ρ c main_v53 (by decide))).trans hx3),
    show W15 m ρ c (Proc.devRef .tc main_arg6) = a6 m c from (((W15_of_ne m ρ c main_arg6 (by decide)).trans ((W14_of_ne m ρ c main_arg6 (by decide)).trans ((Keep.keep13 m ρ c main_arg6 (by decide)).trans ((Keep.keep12 m ρ c main_arg6 (by decide)).trans ((Keep.keep11 m ρ c main_arg6 (by decide)).trans ((Keep.keep10 m ρ c main_arg6 (by decide)).trans ((Keep.keep9 m ρ c main_arg6 (by decide)).trans ((Keep.keep8 m ρ c main_arg6 (by decide)).trans ((Keep.keep7 m ρ c main_arg6 (by decide)).trans ((Keep.keep6 m ρ c main_arg6 (by decide)).trans ((Keep.keep5 m ρ c main_arg6 (by decide)).trans ((Keep.keep4 m ρ c main_arg6 (by decide)).trans ((Keep.keep3 m ρ c main_arg6 (by decide)).trans ((Keep.keep2 m ρ c main_arg6 (by decide)).trans (Keep.keep1 m ρ c main_arg6 (by decide)))))))))))))))).trans rfl)]
  exact (Cert.RefLaws.dot_eq _ _).symm

/-- Message 1. -/
theorem ms1
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W17 m ρ c (Proc.devRef .tc main_v88) = Cert.ReferenceIdeal.ReadP.val_main_v29 (F := Ideal) (a0 m c) (a2 m c) (a20 m c) (a21 m c) :=
  StretchL1.ms1 (W16 m ρ c) (a0 m c) (a2 m c) (a20 m c) (a21 m c)
    (((W16_of_ne m ρ c main_v54 (by decide)).trans (W15_of_ne m ρ c main_v54 (by decide))).trans (h1 m ρ c hx1 hx2 hx3 hi0 hi1 hi2 hi3 hi4 hi5))
    (((W16_of_ne m ρ c main_arg20 (by decide)).trans ((W15_of_ne m ρ c main_arg20 (by decide)).trans ((W14_of_ne m ρ c main_arg20 (by decide)).trans ((Keep.keep13 m ρ c main_arg20 (by decide)).trans ((Keep.keep12 m ρ c main_arg20 (by decide)).trans ((Keep.keep11 m ρ c main_arg20 (by decide)).trans ((Keep.keep10 m ρ c main_arg20 (by decide)).trans ((Keep.keep9 m ρ c main_arg20 (by decide)).trans ((Keep.keep8 m ρ c main_arg20 (by decide)).trans ((Keep.keep7 m ρ c main_arg20 (by decide)).trans ((Keep.keep6 m ρ c main_arg20 (by decide)).trans ((Keep.keep5 m ρ c main_arg20 (by decide)).trans ((Keep.keep4 m ρ c main_arg20 (by decide)).trans ((Keep.keep3 m ρ c main_arg20 (by decide)).trans ((Keep.keep2 m ρ c main_arg20 (by decide)).trans (Keep.keep1 m ρ c main_arg20 (by decide))))))))))))))))).trans rfl)
    (((W16_of_ne m ρ c main_arg21 (by decide)).trans ((W15_of_ne m ρ c main_arg21 (by decide)).trans ((W14_of_ne m ρ c main_arg21 (by decide)).trans ((Keep.keep13 m ρ c main_arg21 (by decide)).trans ((Keep.keep12 m ρ c main_arg21 (by decide)).trans ((Keep.keep11 m ρ c main_arg21 (by decide)).trans ((Keep.keep10 m ρ c main_arg21 (by decide)).trans ((Keep.keep9 m ρ c main_arg21 (by decide)).trans ((Keep.keep8 m ρ c main_arg21 (by decide)).trans ((Keep.keep7 m ρ c main_arg21 (by decide)).trans ((Keep.keep6 m ρ c main_arg21 (by decide)).trans ((Keep.keep5 m ρ c main_arg21 (by decide)).trans ((Keep.keep4 m ρ c main_arg21 (by decide)).trans ((Keep.keep3 m ρ c main_arg21 (by decide)).trans ((Keep.keep2 m ρ c main_arg21 (by decide)).trans (Keep.keep1 m ρ c main_arg21 (by decide))))))))))))))))).trans rfl)
    (((W16_of_ne m ρ c main_v15 (by decide)).trans ((W15_of_ne m ρ c main_v15 (by decide)).trans ((W14_of_ne m ρ c main_v15 (by decide)).trans ((Keep.keep13 m ρ c main_v15 (by decide)).trans ((Keep.keep12 m ρ c main_v15 (by decide)).trans ((Keep.keep11 m ρ c main_v15 (by decide)).trans ((Keep.keep10 m ρ c main_v15 (by decide)).trans ((Keep.keep9 m ρ c main_v15 (by decide)).trans ((Keep.keep8 m ρ c main_v15 (by decide)).trans ((Keep.keep7 m ρ c main_v15 (by decide)).trans (Keep.keep6 m ρ c main_v15 (by decide)))))))))))).trans hi1)

/-- Message 2. -/
theorem ms2
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W17 m ρ c (Proc.devRef .tc main_v90) = Cert.ReferenceIdeal.ReadP.val_main_v62 (F := Ideal) (a1 m c) (a4 m c) (a22 m c) (a23 m c) :=
  StretchL1.ms2 (W16 m ρ c) (a1 m c) (a4 m c) (a22 m c) (a23 m c)
    ((W16_of_ne m ρ c main_v55 (by decide)).trans (h2 m ρ c hx1 hx2 hx3 hi0 hi1 hi2 hi3 hi4 hi5))
    (((W16_of_ne m ρ c main_arg22 (by decide)).trans ((W15_of_ne m ρ c main_arg22 (by decide)).trans ((W14_of_ne m ρ c main_arg22 (by decide)).trans ((Keep.keep13 m ρ c main_arg22 (by decide)).trans ((Keep.keep12 m ρ c main_arg22 (by decide)).trans ((Keep.keep11 m ρ c main_arg22 (by decide)).trans ((Keep.keep10 m ρ c main_arg22 (by decide)).trans ((Keep.keep9 m ρ c main_arg22 (by decide)).trans ((Keep.keep8 m ρ c main_arg22 (by decide)).trans ((Keep.keep7 m ρ c main_arg22 (by decide)).trans ((Keep.keep6 m ρ c main_arg22 (by decide)).trans ((Keep.keep5 m ρ c main_arg22 (by decide)).trans ((Keep.keep4 m ρ c main_arg22 (by decide)).trans ((Keep.keep3 m ρ c main_arg22 (by decide)).trans ((Keep.keep2 m ρ c main_arg22 (by decide)).trans (Keep.keep1 m ρ c main_arg22 (by decide))))))))))))))))).trans rfl)
    (((W16_of_ne m ρ c main_arg23 (by decide)).trans ((W15_of_ne m ρ c main_arg23 (by decide)).trans ((W14_of_ne m ρ c main_arg23 (by decide)).trans ((Keep.keep13 m ρ c main_arg23 (by decide)).trans ((Keep.keep12 m ρ c main_arg23 (by decide)).trans ((Keep.keep11 m ρ c main_arg23 (by decide)).trans ((Keep.keep10 m ρ c main_arg23 (by decide)).trans ((Keep.keep9 m ρ c main_arg23 (by decide)).trans ((Keep.keep8 m ρ c main_arg23 (by decide)).trans ((Keep.keep7 m ρ c main_arg23 (by decide)).trans ((Keep.keep6 m ρ c main_arg23 (by decide)).trans ((Keep.keep5 m ρ c main_arg23 (by decide)).trans ((Keep.keep4 m ρ c main_arg23 (by decide)).trans ((Keep.keep3 m ρ c main_arg23 (by decide)).trans ((Keep.keep2 m ρ c main_arg23 (by decide)).trans (Keep.keep1 m ρ c main_arg23 (by decide))))))))))))))))).trans rfl)
    (((W16_of_ne m ρ c main_v31 (by decide)).trans ((W15_of_ne m ρ c main_v31 (by decide)).trans ((W14_of_ne m ρ c main_v31 (by decide)).trans ((Keep.keep13 m ρ c main_v31 (by decide)).trans ((Keep.keep12 m ρ c main_v31 (by decide)).trans ((Keep.keep11 m ρ c main_v31 (by decide)).trans (Keep.keep10 m ρ c main_v31 (by decide)))))))).trans hi3)

/-- Message 3. -/
theorem ms3
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W17 m ρ c (Proc.devRef .tc main_v92) = Cert.ReferenceIdeal.ReadP.val_main_v95 (F := Ideal) (a0 m c) (a6 m c) (a24 m c) (a25 m c) :=
  StretchL1.ms3 (W16 m ρ c) (a0 m c) (a6 m c) (a24 m c) (a25 m c)
    (rfl.trans (h3 m ρ c hx1 hx2 hx3 hi0 hi1 hi2 hi3 hi4 hi5))
    (((W16_of_ne m ρ c main_arg24 (by decide)).trans ((W15_of_ne m ρ c main_arg24 (by decide)).trans ((W14_of_ne m ρ c main_arg24 (by decide)).trans ((Keep.keep13 m ρ c main_arg24 (by decide)).trans ((Keep.keep12 m ρ c main_arg24 (by decide)).trans ((Keep.keep11 m ρ c main_arg24 (by decide)).trans ((Keep.keep10 m ρ c main_arg24 (by decide)).trans ((Keep.keep9 m ρ c main_arg24 (by decide)).trans ((Keep.keep8 m ρ c main_arg24 (by decide)).trans ((Keep.keep7 m ρ c main_arg24 (by decide)).trans ((Keep.keep6 m ρ c main_arg24 (by decide)).trans ((Keep.keep5 m ρ c main_arg24 (by decide)).trans ((Keep.keep4 m ρ c main_arg24 (by decide)).trans ((Keep.keep3 m ρ c main_arg24 (by decide)).trans ((Keep.keep2 m ρ c main_arg24 (by decide)).trans (Keep.keep1 m ρ c main_arg24 (by decide))))))))))))))))).trans rfl)
    (((W16_of_ne m ρ c main_arg25 (by decide)).trans ((W15_of_ne m ρ c main_arg25 (by decide)).trans ((W14_of_ne m ρ c main_arg25 (by decide)).trans ((Keep.keep13 m ρ c main_arg25 (by decide)).trans ((Keep.keep12 m ρ c main_arg25 (by decide)).trans ((Keep.keep11 m ρ c main_arg25 (by decide)).trans ((Keep.keep10 m ρ c main_arg25 (by decide)).trans ((Keep.keep9 m ρ c main_arg25 (by decide)).trans ((Keep.keep8 m ρ c main_arg25 (by decide)).trans ((Keep.keep7 m ρ c main_arg25 (by decide)).trans ((Keep.keep6 m ρ c main_arg25 (by decide)).trans ((Keep.keep5 m ρ c main_arg25 (by decide)).trans ((Keep.keep4 m ρ c main_arg25 (by decide)).trans ((Keep.keep3 m ρ c main_arg25 (by decide)).trans ((Keep.keep2 m ρ c main_arg25 (by decide)).trans (Keep.keep1 m ρ c main_arg25 (by decide))))))))))))))))).trans rfl)
    (((W16_of_ne m ρ c main_v47 (by decide)).trans ((W15_of_ne m ρ c main_v47 (by decide)).trans (W14_of_ne m ρ c main_v47 (by decide)))).trans hi5)

/-- The bias row of the type-B output. -/
theorem bias1 : W17 m ρ c (Proc.devRef .tc main_v93) = Cert.RefLaws.biasK (a3 m c) :=
  StretchL1.bias1 (W16 m ρ c) (a3 m c) (((W16_of_ne m ρ c main_arg3 (by decide)).trans ((W15_of_ne m ρ c main_arg3 (by decide)).trans ((W14_of_ne m ρ c main_arg3 (by decide)).trans ((Keep.keep13 m ρ c main_arg3 (by decide)).trans ((Keep.keep12 m ρ c main_arg3 (by decide)).trans ((Keep.keep11 m ρ c main_arg3 (by decide)).trans ((Keep.keep10 m ρ c main_arg3 (by decide)).trans ((Keep.keep9 m ρ c main_arg3 (by decide)).trans ((Keep.keep8 m ρ c main_arg3 (by decide)).trans ((Keep.keep7 m ρ c main_arg3 (by decide)).trans ((Keep.keep6 m ρ c main_arg3 (by decide)).trans ((Keep.keep5 m ρ c main_arg3 (by decide)).trans ((Keep.keep4 m ρ c main_arg3 (by decide)).trans ((Keep.keep3 m ρ c main_arg3 (by decide)).trans ((Keep.keep2 m ρ c main_arg3 (by decide)).trans (Keep.keep1 m ρ c main_arg3 (by decide))))))))))))))))).trans rfl)

/-- The bias row of the type-A output. -/
theorem bias23 : W17 m ρ c (Proc.devRef .tc main_v95) = Cert.RefLaws.biasK (addf (F := Ideal) (a5 m c) (a7 m c)) :=
  StretchL1.bias23 (W16 m ρ c) (a5 m c) (a7 m c) (((W16_of_ne m ρ c main_arg5 (by decide)).trans ((W15_of_ne m ρ c main_arg5 (by decide)).trans ((W14_of_ne m ρ c main_arg5 (by decide)).trans ((Keep.keep13 m ρ c main_arg5 (by decide)).trans ((Keep.keep12 m ρ c main_arg5 (by decide)).trans ((Keep.keep11 m ρ c main_arg5 (by decide)).trans ((Keep.keep10 m ρ c main_arg5 (by decide)).trans ((Keep.keep9 m ρ c main_arg5 (by decide)).trans ((Keep.keep8 m ρ c main_arg5 (by decide)).trans ((Keep.keep7 m ρ c main_arg5 (by decide)).trans ((Keep.keep6 m ρ c main_arg5 (by decide)).trans ((Keep.keep5 m ρ c main_arg5 (by decide)).trans ((Keep.keep4 m ρ c main_arg5 (by decide)).trans ((Keep.keep3 m ρ c main_arg5 (by decide)).trans ((Keep.keep2 m ρ c main_arg5 (by decide)).trans (Keep.keep1 m ρ c main_arg5 (by decide))))))))))))))))).trans rfl) (((W16_of_ne m ρ c main_arg7 (by decide)).trans ((W15_of_ne m ρ c main_arg7 (by decide)).trans ((W14_of_ne m ρ c main_arg7 (by decide)).trans ((Keep.keep13 m ρ c main_arg7 (by decide)).trans ((Keep.keep12 m ρ c main_arg7 (by decide)).trans ((Keep.keep11 m ρ c main_arg7 (by decide)).trans ((Keep.keep10 m ρ c main_arg7 (by decide)).trans ((Keep.keep9 m ρ c main_arg7 (by decide)).trans ((Keep.keep8 m ρ c main_arg7 (by decide)).trans ((Keep.keep7 m ρ c main_arg7 (by decide)).trans ((Keep.keep6 m ρ c main_arg7 (by decide)).trans ((Keep.keep5 m ρ c main_arg7 (by decide)).trans ((Keep.keep4 m ρ c main_arg7 (by decide)).trans ((Keep.keep3 m ρ c main_arg7 (by decide)).trans ((Keep.keep2 m ρ c main_arg7 (by decide)).trans (Keep.keep1 m ρ c main_arg7 (by decide))))))))))))))))).trans rfl)

/-- The layer's output for node type B. -/
theorem outB
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W18 m ρ c (Proc.devRef .tc main_v96) = Cert.ReferenceIdeal.ReadP.val_main_v101 (F := Ideal) (a0 m c) (a2 m c) (a3 m c) (a20 m c) (a21 m c) := by
  refine (W18_arr m ρ c 2).trans ?_
  rw [Region3.arr_eq]
  show c1rSpec (W17 m ρ c (Proc.devRef .tc main_v88)) (W17 m ρ c (Proc.devRef .tc main_v93)) = _
  rw [ms1 m ρ c hx1 hx2 hx3 hi0 hi1 hi2 hi3 hi4 hi5, bias1 m ρ c]
  exact (Cert.RefLaws.c1r_glue _ _).trans rfl

/-- The layer's output for node type A. -/
theorem outA
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W19 m ρ c (Proc.devRef .tc main_v97) = Cert.ReferenceIdeal.ReadP.val_main_v100 (F := Ideal) (a0 m c) (a1 m c) (a4 m c) (a5 m c) (a6 m c) (a7 m c) (a22 m c) (a23 m c) (a24 m c) (a25 m c) := by
  refine (W19_arr m ρ c 3).trans ?_
  rw [Region4.arr_eq]
  show c2rSpec (W18 m ρ c (Proc.devRef .tc main_v90)) (W18 m ρ c (Proc.devRef .tc main_v92)) (W18 m ρ c (Proc.devRef .tc main_v95)) = _
  rw [show W18 m ρ c (Proc.devRef .tc main_v90) = _ from ((W18_of_ne m ρ c main_v90 (by decide)).trans (ms2 m ρ c hx1 hx2 hx3 hi0 hi1 hi2 hi3 hi4 hi5)),
    show W18 m ρ c (Proc.devRef .tc main_v92) = _ from ((W18_of_ne m ρ c main_v92 (by decide)).trans (ms3 m ρ c hx1 hx2 hx3 hi0 hi1 hi2 hi3 hi4 hi5)),
    show W18 m ρ c (Proc.devRef .tc main_v95) = _ from ((W18_of_ne m ρ c main_v95 (by decide)).trans (bias23 m ρ c))]
  exact (Cert.RefLaws.c2r_glue _ _ _ _).trans rfl

/-- The next layer's left operand 1. -/
theorem nx1
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c) :=
  StretchL1.nx1 (W19 m ρ c) (a0 m c) (a1 m c) (a4 m c) (a5 m c) (a6 m c) (a7 m c) (a20 m c) (a22 m c) (a23 m c) (a24 m c) (a25 m c)
    (rfl.trans (outA m ρ c hx1 hx2 hx3 hi0 hi1 hi2 hi3 hi4 hi5))
    ((((W19_of_ne m ρ c main_v7 (by decide)).trans ((W18_of_ne m ρ c main_v7 (by decide)).trans ((Keep.keep17 m ρ c main_v7 (by decide)).trans ((W16_of_ne m ρ c main_v7 (by decide)).trans ((W15_of_ne m ρ c main_v7 (by decide)).trans ((W14_of_ne m ρ c main_v7 (by decide)).trans ((Keep.keep13 m ρ c main_v7 (by decide)).trans ((Keep.keep12 m ρ c main_v7 (by decide)).trans ((Keep.keep11 m ρ c main_v7 (by decide)).trans ((Keep.keep10 m ρ c main_v7 (by decide)).trans ((Keep.keep9 m ρ c main_v7 (by decide)).trans ((Keep.keep8 m ρ c main_v7 (by decide)).trans ((Keep.keep7 m ρ c main_v7 (by decide)).trans ((Keep.keep6 m ρ c main_v7 (by decide)).trans ((Keep.keep5 m ρ c main_v7 (by decide)).trans (Keep.keep4 m ρ c main_v7 (by decide))))))))))))))))).trans hi0).trans (same_val_main_v113 _))

/-- The next layer's left operand 2. -/
theorem nx2
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W20 m ρ c (Proc.devRef .tc main_v101) = Cert.ReferenceIdeal.ReadP.val_main_v148 (F := Ideal) (a0 m c) (a2 m c) (a3 m c) (a20 m c) (a21 m c) (a22 m c) :=
  StretchL1.nx2 (W19 m ρ c) (a0 m c) (a2 m c) (a3 m c) (a20 m c) (a21 m c) (a22 m c)
    ((W19_of_ne m ρ c main_v96 (by decide)).trans (outB m ρ c hx1 hx2 hx3 hi0 hi1 hi2 hi3 hi4 hi5))
    ((((W19_of_ne m ρ c main_v23 (by decide)).trans ((W18_of_ne m ρ c main_v23 (by decide)).trans ((Keep.keep17 m ρ c main_v23 (by decide)).trans ((W16_of_ne m ρ c main_v23 (by decide)).trans ((W15_of_ne m ρ c main_v23 (by decide)).trans ((W14_of_ne m ρ c main_v23 (by decide)).trans ((Keep.keep13 m ρ c main_v23 (by decide)).trans ((Keep.keep12 m ρ c main_v23 (by decide)).trans ((Keep.keep11 m ρ c main_v23 (by decide)).trans ((Keep.keep10 m ρ c main_v23 (by decide)).trans ((Keep.keep9 m ρ c main_v23 (by decide)).trans (Keep.keep8 m ρ c main_v23 (by decide))))))))))))).trans hi2).trans (same_val_main_v146 _))

/-- The next layer's left operand 3. -/
theorem nx3
    (hx1 : W13 m ρ c (Proc.devRef .tc main_v49) = Cert.ReferenceIdeal.ReadP.val_main_v13 (F := Ideal) (a0 m c) (a20 m c))
    (hx2 : W13 m ρ c (Proc.devRef .tc main_v51) = Cert.ReferenceIdeal.ReadP.val_main_v46 (F := Ideal) (a1 m c) (a22 m c))
    (hx3 : W13 m ρ c (Proc.devRef .tc main_v53) = Cert.ReferenceIdeal.ReadP.val_main_v79 (F := Ideal) (a0 m c) (a24 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c) :=
  StretchL1.nx3 (W19 m ρ c) (a0 m c) (a1 m c) (a4 m c) (a5 m c) (a6 m c) (a7 m c) (a22 m c) (a23 m c) (a24 m c) (a25 m c)
    (rfl.trans (outA m ρ c hx1 hx2 hx3 hi0 hi1 hi2 hi3 hi4 hi5))
    ((((W19_of_ne m ρ c main_v39 (by decide)).trans ((W18_of_ne m ρ c main_v39 (by decide)).trans ((Keep.keep17 m ρ c main_v39 (by decide)).trans ((W16_of_ne m ρ c main_v39 (by decide)).trans ((W15_of_ne m ρ c main_v39 (by decide)).trans ((W14_of_ne m ρ c main_v39 (by decide)).trans ((Keep.keep13 m ρ c main_v39 (by decide)).trans (Keep.keep12 m ρ c main_v39 (by decide))))))))).trans hi4).trans (same_val_main_v179 _))

end Cert.KernelIdeal.Chain1

end
-- ==== Proof.StretchL2.lean ====
/-
  Layer 2's host operations, for an arbitrary state of the buffers. After the three products: each product's
  rows gathered at the edges' sources (a negative index wrapped once) and scatter-added into the destinations,
  then scaled by the in-degree normaliser — the three messages; the bias rows ([128] cast to [1, 128], the type-A
  one after adding the two biases); after the combine regions: the outputs scaled by the out-degree normalisers, the next layer's left operands.
-/
import proofs.«156020_j6296422056695_1_alg».proof.Proof.Gen.KernelIdeal.Launch
import proofs.«156020_j6296422056695_1_alg».proof.Proof.RefLaws
import proofs.«156020_j6296422056695_1_alg».proof.Proof.ReadP
import Idealize.ShloMosaic.Lib.StableHlo.Run

noncomputable section

open scoped BigOperators

namespace Cert.KernelIdeal.StretchL2

open Idealize.ShloMosaic Idealize.ShloMosaic.TcCoe Idealize.ShloMosaic.StableHlo Idealize.SL.Sem
open Cert.KernelIdeal Cert.KernelIdeal.Gen

/-- The two programs spell the same scatter and gather dimension records. -/
theorem sc1_eq : Cert.KernelIdeal.scatter_S100000_S1600000x1_S1600000_n_0_0_1 = Cert.ReferenceIdeal.scatter_S100000_S1600000x1_S1600000_n_0_0_1 := rfl
theorem sc2_eq : Cert.KernelIdeal.scatter_S100000x128_S1600000x1_S1600000x128_1_0_0_1 = Cert.ReferenceIdeal.scatter_S100000x128_S1600000x1_S1600000x128_1_0_0_1 := rfl
theorem ga_eq : Cert.KernelIdeal.gather_S100000x128_S1600000x1_S1600000x128_1_0_n_n_0_1_1128 = Cert.ReferenceIdeal.gather_S100000x128_S1600000x1_S1600000x128_1_0_n_n_0_1_1128 := rfl

set_option maxHeartbeats 8000000 in
/-- Message 1: gathered at the sources, summed into the destinations, scaled by the in-degree normaliser. -/
theorem ms1 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v104) = Cert.ReferenceIdeal.ReadP.val_main_v116 (F := Ideal) x0 x1 x4 x5 x6 x7 x8 x20 x22 x23 x24 x25)
    (h1 : Vv (Proc.devRef .tc main_arg20) = x20)
    (h2 : Vv (Proc.devRef .tc main_arg21) = x21)
    (h3 : Vv (Proc.devRef .tc main_v15) = Cert.ReferenceIdeal.ReadP.val_main_v129 (F := Ideal) x21) :
    StableHlo.after (hostOps8 (F := Ideal)) Vv (Proc.devRef .tc main_v138) = Cert.ReferenceIdeal.ReadP.val_main_v131 (F := Ideal) x0 x1 x4 x5 x6 x7 x8 x20 x21 x22 x23 x24 x25 := by
  simp only [hostOps8]
  after_results_simp
  rw [h0, h1, h2, h3, sc2_eq, ga_eq]
  rfl

set_option maxHeartbeats 8000000 in
/-- Message 2: gathered at the sources, summed into the destinations, scaled by the in-degree normaliser. -/
theorem ms2 (Vv : Valuation τ sig (Elt Ideal)) (x0 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x10 : (⟨Cert.ReferenceIdeal.S128x128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal))
    (h0 : Vv (Proc.devRef .tc main_v105) = Cert.ReferenceIdeal.ReadP.val_main_v149 (F := Ideal) x0 x2 x3 x10 x20 x21 x22)
    (h1 : Vv (Proc.devRef .tc main_arg22) = x22)
    (h2 : Vv (Proc.devRef .tc main_arg23) = x23)
    (h3 : Vv (Proc.devRef .tc main_v31) = Cert.ReferenceIdeal.ReadP.val_main_v162 (F := Ideal) x23) :
    StableHlo.after (hostOps8 (F := Ideal)) Vv (Proc.devRef .tc main_v140) = Cert.ReferenceIdeal.ReadP.val_main_v164 (F := Ideal) x0 x2 x3 x10 x20 x21 x22 x23 := by
  simp only [hostOps8]
  after_results_simp
  rw [h0, h1, h2, h3, sc2_eq, ga_eq]
  rfl

set_option maxHeartbeats 8000000 in
/-- Message 3: gathered at the sources, summed into the destinations, scaled by the in-degree normaliser. -/
theorem ms3 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x12 : (⟨Cert.ReferenceIdeal.S128x128, .f32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v106) = Cert.ReferenceIdeal.ReadP.val_main_v182 (F := Ideal) x0 x1 x4 x5 x6 x7 x12 x22 x23 x24 x25)
    (h1 : Vv (Proc.devRef .tc main_arg24) = x24)
    (h2 : Vv (Proc.devRef .tc main_arg25) = x25)
    (h3 : Vv (Proc.devRef .tc main_v47) = Cert.ReferenceIdeal.ReadP.val_main_v195 (F := Ideal) x25) :
    StableHlo.after (hostOps8 (F := Ideal)) Vv (Proc.devRef .tc main_v142) = Cert.ReferenceIdeal.ReadP.val_main_v197 (F := Ideal) x0 x1 x4 x5 x6 x7 x12 x22 x23 x24 x25 := by
  simp only [hostOps8]
  after_results_simp
  rw [h0, h1, h2, h3, sc2_eq, ga_eq]
  rfl

set_option maxHeartbeats 8000000 in
/-- The bias row of the type-B output. -/
theorem bias1 (Vv : Valuation τ sig (Elt Ideal)) (x9 : (⟨Cert.ReferenceIdeal.S128, .f32⟩ : BufTy).Contents (Elt Ideal))
    (h0 : Vv (Proc.devRef .tc main_arg9) = x9) :
    StableHlo.after (hostOps8 (F := Ideal)) Vv (Proc.devRef .tc main_v143) = Cert.RefLaws.biasK x9 := by
  simp only [hostOps8]
  after_results_simp
  rw [h0]
  rfl

set_option maxHeartbeats 8000000 in
/-- The bias row of the type-A output: the two relations' biases added. -/
theorem bias23 (Vv : Valuation τ sig (Elt Ideal)) (x11 : (⟨Cert.ReferenceIdeal.S128, .f32⟩ : BufTy).Contents (Elt Ideal)) (x13 : (⟨Cert.ReferenceIdeal.S128, .f32⟩ : BufTy).Contents (Elt Ideal))
    (h0 : Vv (Proc.devRef .tc main_arg11) = x11)
    (h1 : Vv (Proc.devRef .tc main_arg13) = x13) :
    StableHlo.after (hostOps8 (F := Ideal)) Vv (Proc.devRef .tc main_v145) = Cert.RefLaws.biasK (addf (F := Ideal) x11 x13) := by
  simp only [hostOps8]
  after_results_simp
  rw [h0, h1]
  rfl

/-- The next layer's left operand 1: this layer's output scaled by the out-degree normaliser. -/
theorem nx1 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v147) = Cert.ReferenceIdeal.ReadP.val_main_v202 (F := Ideal) x0 x1 x2 x3 x4 x5 x6 x7 x10 x11 x12 x13 x20 x21 x22 x23 x24 x25)
    (h1 : Vv (Proc.devRef .tc main_v7) = Cert.ReferenceIdeal.ReadP.val_main_v215 (F := Ideal) x20) :
    StableHlo.after (hostOps10 (F := Ideal)) Vv (Proc.devRef .tc main_v149) = Cert.ReferenceIdeal.ReadP.val_main_v217 (F := Ideal) x0 x1 x2 x3 x4 x5 x6 x7 x10 x11 x12 x13 x20 x21 x22 x23 x24 x25 := by
  simp only [hostOps10]
  after_results
  rw [h0, h1]
  rfl

/-- The next layer's left operand 2: this layer's output scaled by the out-degree normaliser. -/
theorem nx2 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v146) = Cert.ReferenceIdeal.ReadP.val_main_v203 (F := Ideal) x0 x1 x4 x5 x6 x7 x8 x9 x20 x21 x22 x23 x24 x25)
    (h1 : Vv (Proc.devRef .tc main_v23) = Cert.ReferenceIdeal.ReadP.val_main_v248 (F := Ideal) x22) :
    StableHlo.after (hostOps10 (F := Ideal)) Vv (Proc.devRef .tc main_v151) = Cert.ReferenceIdeal.ReadP.val_main_v250 (F := Ideal) x0 x1 x4 x5 x6 x7 x8 x9 x20 x21 x22 x23 x24 x25 := by
  simp only [hostOps10]
  after_results
  rw [h0, h1]
  rfl

/-- The next layer's left operand 3: this layer's output scaled by the out-degree normaliser. -/
theorem nx3 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v147) = Cert.ReferenceIdeal.ReadP.val_main_v202 (F := Ideal) x0 x1 x2 x3 x4 x5 x6 x7 x10 x11 x12 x13 x20 x21 x22 x23 x24 x25)
    (h1 : Vv (Proc.devRef .tc main_v39) = Cert.ReferenceIdeal.ReadP.val_main_v281 (F := Ideal) x24) :
    StableHlo.after (hostOps10 (F := Ideal)) Vv (Proc.devRef .tc main_v153) = Cert.ReferenceIdeal.ReadP.val_main_v283 (F := Ideal) x0 x1 x2 x3 x4 x5 x6 x7 x10 x11 x12 x13 x20 x21 x22 x23 x24 x25 := by
  simp only [hostOps10]
  after_results
  rw [h0, h1]
  rfl

end Cert.KernelIdeal.StretchL2

end
-- ==== Proof.Region5.lean ====
/-
  Region 5: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region5

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the whole product. -/
theorem flushed_eq (c : Dev nD) (t : Fin cfg5.N) :
    (dat5 V c).flushed 2 t = ((cfg5.win 2).blk t).view.read (Elt Ideal) (mmSpec (V c main_v99) (V c main_arg8)) := by
  show (cfg5.win 2).cut (grid5.coords t) ((dat5 V c).after 2 t) = _
  rw [after5_2]
  unfold out5_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg5.win 2).blk t).view.emb (ix2 p q) = ix2 (n0 := 100000) (n1 := 128) ⟨t.val * 10000 + p.val, hR⟩ q := by
    funext a; apply Fin.ext
    match a with
    | ⟨0, _⟩ => show win5_2.index t (0 : Fin 2) * 10000 + 1 * p.val = t.val * 10000 + p.val; omega
    | ⟨1, _⟩ => show win5_2.index t (1 : Fin 2) * 128 + 1 * q.val = q.val; omega
  show _ = mmSpec (V c main_v99) (V c main_arg8) (((cfg5.win 2).blk t).view.emb (ix2 p q))
  rw [hi]
  unfold mmSpec
  show _ = ∑ k : Fin 128, _
  refine Finset.sum_congr rfl fun k _ => ?_
  have h0 : ((cfg5.win 0).blk t).view.emb (ix2 p k) = ix2 (n0 := 100000) (n1 := 128) ⟨t.val * 10000 + p.val, hR⟩ k := by
    funext a; apply Fin.ext
    match a with
    | ⟨0, _⟩ => show win5_0.index t (0 : Fin 2) * 10000 + 1 * p.val = t.val * 10000 + p.val; omega
    | ⟨1, _⟩ => show win5_0.index t (1 : Fin 2) * 128 + 1 * k.val = k.val; omega
  have h1 : ((cfg5.win 1).blk t).view.emb (ix2 k q) = ix2 (n0 := 128) (n1 := 128) k q := by
    funext a; apply Fin.ext
    match a with
    | ⟨0, _⟩ => show win5_1.index t (0 : Fin 2) * 128 + 1 * k.val = k.val; omega
    | ⟨1, _⟩ => show win5_1.index t (1 : Fin 2) * 128 + 1 * q.val = q.val; omega
  have x0 : iblk5 V c 0 t (ix2 p k) = V c main_v99 (ix2 (n0 := 100000) (n1 := 128) ⟨t.val * 10000 + p.val, hR⟩ k) := congrArg (V c main_v99) h0
  have x1 : iblk5 V c 1 t (ix2 k q) = V c main_arg8 (ix2 (n0 := 128) (n1 := 128) k q) := congrArg (V c main_arg8) h1
  rw [x0, x1] <;> rfl

/-- An index of the result lies in point t's block iff each coordinate is in the block's range. -/
theorem mem_blk (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v104).slice (win5_2.rect t)).set ↔ _
  rw [View.set_slice_whole, Rect.mem_set_unit]
  exact Iff.rfl

/-- Row r of the result is written by point r / 10000. -/
theorem cover (i : S100000x128.Idx) : ∃ t : Fin cfg5.N, (cfg5.win 2).flush t = true ∧ i ∈ ((cfg5.win 2).blk t).view.set := by
  have h0 : (i 0).val < 100000 := (i 0).isLt
  have h1 : (i 1).val < 128 := (i 1).isLt
  have hN : cfg5.N = 10 := rfl
  refine ⟨⟨(i 0).val / 10000, by omega⟩, flush5_2 _, ?_⟩
  rw [mem_blk]
  have eo := (idx_facts ⟨(i 0).val / 10000, by omega⟩).2.2.2.2
  intro a
  match a with
  | ⟨0, _⟩ => show win5_2.index _ (0 : Fin 2) * 10000 ≤ (i 0).val ∧ (i 0).val < win5_2.index _ (0 : Fin 2) * 10000 + 10000; rw [eo.1]; show (i 0).val / 10000 * 10000 ≤ _ ∧ _ < (i 0).val / 10000 * 10000 + 10000; omega
  | ⟨1, _⟩ => show win5_2.index _ (1 : Fin 2) * 128 ≤ (i 1).val ∧ (i 1).val < win5_2.index _ (1 : Fin 2) * 128 + 128; rw [eo.2]; omega

/-- The result array after the region: the whole product of the arrays the region found. -/
theorem arr_eq (c : Dev nD) : (dat5 V c).arrAt 2 cfg5.N = mmSpec (V c main_v99) (V c main_arg8) :=
  (dat5 V c).arrAt_eq_of_cover 2 _ (fun t _ => flushed_eq V c t) cover

end Cert.KernelIdeal.Region5

end
-- ==== Proof.Region6.lean ====
/-
  Region 6: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region6

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem flushed_eq (c : Dev nD) (t : Fin cfg6.N) :
    (dat6 V c).flushed 2 t = ((cfg6.win 2).blk t).view.read (Elt Ideal) (mmSpec (V c main_v101) (V c main_arg10)) := by
  show (cfg6.win 2).cut (grid6.coords t) ((dat6 V c).after 2 t) = _
  rw [after6_2]
  unfold out6_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg6.win 2).blk t).view.emb (ix2 p q) = ix2 (n0 := 100000) (n1 := 128) ⟨t.val * 10000 + p.val, hR⟩ q := by
    funext a; apply Fin.ext
    match a with
    | ⟨0, _⟩ => show win6_2.index t (0 : Fin 2) * 10000 + 1 * p.val = t.val * 10000 + p.val; omega
    | ⟨1, _⟩ => show win6_2.index t (1 : Fin 2) * 128 + 1 * q.val = q.val; omega
  show _ = mmSpec (V c main_v101) (V c main_arg10) (((cfg6.win 2).blk t).view.emb (ix2 p q))
  rw [hi]
  unfold mmSpec
  show _ = ∑ k : Fin 128, _
  refine Finset.sum_congr rfl fun k _ => ?_
  have h0 : ((cfg6.win 0).blk t).view.emb (ix2 p k) = ix2 (n0 := 100000) (n1 := 128) ⟨t.val * 10000 + p.val, hR⟩ k := by
    funext a; apply Fin.ext
    match a with
    | ⟨0, _⟩ => show win6_0.index t (0 : Fin 2) * 10000 + 1 * p.val = t.val * 10000 + p.val; omega
    | ⟨1, _⟩ => show win6_0.index t (1 : Fin 2) * 128 + 1 * k.val = k.val; omega
  have h1 : ((cfg6.win 1).blk t).view.emb (ix2 k q) = ix2 (n0 := 128) (n1 := 128) k q := by
    funext a; apply Fin.ext
    match a with
    | ⟨0, _⟩ => show win6_1.index t (0 : Fin 2) * 128 + 1 * k.val = k.val; omega
    | ⟨1, _⟩ => show win6_1.index t (1 : Fin 2) * 128 + 1 * q.val = q.val; omega
  have x0 : iblk6 V c 0 t (ix2 p k) = V c main_v101 (ix2 (n0 := 100000) (n1 := 128) ⟨t.val * 10000 + p.val, hR⟩ k) := congrArg (V c main_v101) h0
  have x1 : iblk6 V c 1 t (ix2 k q) = V c main_arg10 (ix2 (n0 := 128) (n1 := 128) k q) := congrArg (V c main_arg10) h1
  rw [x0, x1] <;> rfl

/-- An index of the result lies in point t's block iff each coordinate is in the block's range. -/
theorem mem_blk (t : Fin cfg6.N) (i : S100000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v105).slice (win6_2.rect t)).set ↔ _
  rw [View.set_slice_whole, Rect.mem_set_unit]
  exact Iff.rfl

/-- Row r of the result is written by point r / 10000. -/
theorem cover (i : S100000x128.Idx) : ∃ t : Fin cfg6.N, (cfg6.win 2).flush t = true ∧ i ∈ ((cfg6.win 2).blk t).view.set := by
  have h0 : (i 0).val < 100000 := (i 0).isLt
  have h1 : (i 1).val < 128 := (i 1).isLt
  have hN : cfg6.N = 10 := rfl
  refine ⟨⟨(i 0).val / 10000, by omega⟩, flush6_2 _, ?_⟩
  rw [mem_blk]
  have eo := (idx_facts ⟨(i 0).val / 10000, by omega⟩).2.2.2.2
  intro a
  match a with
  | ⟨0, _⟩ => show win6_2.index _ (0 : Fin 2) * 10000 ≤ (i 0).val ∧ (i 0).val < win6_2.index _ (0 : Fin 2) * 10000 + 10000; rw [eo.1]; show (i 0).val / 10000 * 10000 ≤ _ ∧ _ < (i 0).val / 10000 * 10000 + 10000; omega
  | ⟨1, _⟩ => show win6_2.index _ (1 : Fin 2) * 128 ≤ (i 1).val ∧ (i 1).val < win6_2.index _ (1 : Fin 2) * 128 + 128; rw [eo.2]; omega

/-- The result array after the region: the whole product of the arrays the region found. -/
theorem arr_eq (c : Dev nD) : (dat6 V c).arrAt 2 cfg6.N = mmSpec (V c main_v101) (V c main_arg10) :=
  (dat6 V c).arrAt_eq_of_cover 2 _ (fun t _ => flushed_eq V c t) cover

end Cert.KernelIdeal.Region6

end
-- ==== Proof.Region7.lean ====
/-
  Region 7: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region7

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the whole product. -/
theorem flushed_eq (c : Dev nD) (t : Fin cfg7.N) :
    (dat7 V c).flushed 2 t = ((cfg7.win 2).blk t).view.read (Elt Ideal) (mmSpec (V c main_v103) (V c main_arg12)) := by
  show (cfg7.win 2).cut (grid7.coords t) ((dat7 V c).after 2 t) = _
  rw [after7_2]
  unfold out7_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg7.win 2).blk t).view.emb (ix2 p q) = ix2 (n0 := 100000) (n1 := 128) ⟨t.val * 10000 + p.val, hR⟩ q := by
    funext a; apply Fin.ext
    match a with
    | ⟨0, _⟩ => show win7_2.index t (0 : Fin 2) * 10000 + 1 * p.val = t.val * 10000 + p.val; omega
    | ⟨1, _⟩ => show win7_2.index t (1 : Fin 2) * 128 + 1 * q.val = q.val; omega
  show _ = mmSpec (V c main_v103) (V c main_arg12) (((cfg7.win 2).blk t).view.emb (ix2 p q))
  rw [hi]
  unfold mmSpec
  show _ = ∑ k : Fin 128, _
  refine Finset.sum_congr rfl fun k _ => ?_
  have h0 : ((cfg7.win 0).blk t).view.emb (ix2 p k) = ix2 (n0 := 100000) (n1 := 128) ⟨t.val * 10000 + p.val, hR⟩ k := by
    funext a; apply Fin.ext
    match a with
    | ⟨0, _⟩ => show win7_0.index t (0 : Fin 2) * 10000 + 1 * p.val = t.val * 10000 + p.val; omega
    | ⟨1, _⟩ => show win7_0.index t (1 : Fin 2) * 128 + 1 * k.val = k.val; omega
  have h1 : ((cfg7.win 1).blk t).view.emb (ix2 k q) = ix2 (n0 := 128) (n1 := 128) k q := by
    funext a; apply Fin.ext
    match a with
    | ⟨0, _⟩ => show win7_1.index t (0 : Fin 2) * 128 + 1 * k.val = k.val; omega
    | ⟨1, _⟩ => show win7_1.index t (1 : Fin 2) * 128 + 1 * q.val = q.val; omega
  have x0 : iblk7 V c 0 t (ix2 p k) = V c main_v103 (ix2 (n0 := 100000) (n1 := 128) ⟨t.val * 10000 + p.val, hR⟩ k) := congrArg (V c main_v103) h0
  have x1 : iblk7 V c 1 t (ix2 k q) = V c main_arg12 (ix2 (n0 := 128) (n1 := 128) k q) := congrArg (V c main_arg12) h1
  rw [x0, x1] <;> rfl

/-- An index of the result lies in point t's block iff each coordinate is in the block's range. -/
theorem mem_blk (t : Fin cfg7.N) (i : S100000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v106).slice (win7_2.rect t)).set ↔ _
  rw [View.set_slice_whole, Rect.mem_set_unit]
  exact Iff.rfl

/-- Row r of the result is written by point r / 10000. -/
theorem cover (i : S100000x128.Idx) : ∃ t : Fin cfg7.N, (cfg7.win 2).flush t = true ∧ i ∈ ((cfg7.win 2).blk t).view.set := by
  have h0 : (i 0).val < 100000 := (i 0).isLt
  have h1 : (i 1).val < 128 := (i 1).isLt
  have hN : cfg7.N = 10 := rfl
  refine ⟨⟨(i 0).val / 10000, by omega⟩, flush7_2 _, ?_⟩
  rw [mem_blk]
  have eo := (idx_facts ⟨(i 0).val / 10000, by omega⟩).2.2.2.2
  intro a
  match a with
  | ⟨0, _⟩ => show win7_2.index _ (0 : Fin 2) * 10000 ≤ (i 0).val ∧ (i 0).val < win7_2.index _ (0 : Fin 2) * 10000 + 10000; rw [eo.1]; show (i 0).val / 10000 * 10000 ≤ _ ∧ _ < (i 0).val / 10000 * 10000 + 10000; omega
  | ⟨1, _⟩ => show win7_2.index _ (1 : Fin 2) * 128 ≤ (i 1).val ∧ (i 1).val < win7_2.index _ (1 : Fin 2) * 128 + 128; rw [eo.2]; omega

/-- The result array after the region: the whole product of the arrays the region found. -/
theorem arr_eq (c : Dev nD) : (dat7 V c).arrAt 2 cfg7.N = mmSpec (V c main_v103) (V c main_arg12) :=
  (dat7 V c).arrAt_eq_of_cover 2 _ (fun t _ => flushed_eq V c t) cover

end Cert.KernelIdeal.Region7

end
-- ==== Proof.Region8.lean ====
/-
  Region 8: one message array plus the bias row, then the maximum with zero. Grid point t handles rows
  5000·t … 5000·t + 4999; the twenty row blocks tile the result, so the result array is the whole-array
  function, entry (r, q) = max (message(r, q) + bias(q), 0).
-/
import proofs.«156020_j6296422056695_1_alg».proof.Proof.Gen.KernelIdeal.Frame
import proofs.«156020_j6296422056695_1_alg».proof.Proof.BlockLaws

noncomputable section

open scoped BigOperators

namespace Cert.KernelIdeal.Region8

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the message and result windows move down one row block per point, the bias
    window stays. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole-array function. -/
theorem flushed_eq (c : Dev nD) (t : Fin cfg8.N) :
    (dat8 V c).flushed 2 t = ((cfg8.win 2).blk t).view.read (Elt Ideal) (c1rSpec (V c main_v138) (V c main_v143)) := by
  show (cfg8.win 2).cut (grid8.coords t) ((dat8 V c).after 2 t) = _
  rw [after8_2]
  unfold out8_2
  rw [View.canon_unit_zero zero_off]
  simp only [View.ld_unit_zero (S := S5000x128) zero_off, View.ld_unit_zero (S := S1x128) zero_off]
  obtain ⟨e0, e1, e2, e3, e4, e5⟩ := idx_facts t
  funext j
  obtain ⟨p, q, rfl⟩ : ∃ (p : Fin 5000) (q : Fin 128), j = ix2 p q := ⟨j 0, j 1, eq_ix2 j⟩
  have ht : t.val < 20 := t.isLt
  have hp : p.val < 5000 := p.isLt
  have hq : q.val < 128 := q.isLt
  have hR : t.val * 5000 + p.val < 100000 := by omega
  refine (c1_pay _ _ p q).trans ?_
  have hi : ((cfg8.win 2).blk t).view.emb (ix2 p q) = ix2 (n0 := 100000) (n1 := 128) ⟨t.val * 5000 + p.val, hR⟩ q := by
    funext a; apply Fin.ext
    match a with
    | ⟨0, _⟩ => show win8_2.index t (0 : Fin 2) * 5000 + 1 * p.val = t.val * 5000 + p.val; omega
    | ⟨1, _⟩ => show win8_2.index t (1 : Fin 2) * 128 + 1 * q.val = q.val; omega
  have h0 : ((cfg8.win 0).blk t).view.emb (ix2 p q) = ix2 (n0 := 100000) (n1 := 128) ⟨t.val * 5000 + p.val, hR⟩ q := by
    funext a; apply Fin.ext
    match a with
    | ⟨0, _⟩ => show win8_0.index t (0 : Fin 2) * 5000 + 1 * p.val = t.val * 5000 + p.val; omega
    | ⟨1, _⟩ => show win8_0.index t (1 : Fin 2) * 128 + 1 * q.val = q.val; omega
  have h1 : ((cfg8.win 1).blk t).view.emb (ix2 (0 : Fin 1) q) = ix2 (n0 := 1) (n1 := 128) (0 : Fin 1) q := by
    funext a; apply Fin.ext
    match a with
    | ⟨0, _⟩ => show win8_1.index t (0 : Fin 2) * 1 + 1 * (0 : Fin 1).val = (0 : Fin 1).val; omega
    | ⟨1, _⟩ => show win8_1.index t (1 : Fin 2) * 128 + 1 * q.val = q.val; omega
  have x0 : iblk8 V c 0 t (ix2 p q) = V c main_v138 (ix2 (n0 := 100000) (n1 := 128) ⟨t.val * 5000 + p.val, hR⟩ q) := congrArg (V c main_v138) h0
  have x1 : iblk8 V c 1 t (ix2 (0 : Fin 1) q) = V c main_v143 (ix2 (n0 := 1) (n1 := 128) (0 : Fin 1) q) := congrArg (V c main_v143) h1
  rw [x0, x1]
  show _ = c1rSpec (V c main_v138) (V c main_v143) (((cfg8.win 2).blk t).view.emb (ix2 p q))
  rw [hi] <;> rfl

/-- An index of the result lies in point t's block iff each coordinate is in the block's range. -/
theorem mem_blk (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v146).slice (win8_2.rect t)).set ↔ _
  rw [View.set_slice_whole, Rect.mem_set_unit]
  exact Iff.rfl

/-- Row r of the result is written by point r / 5000. -/
theorem cover (i : S100000x128.Idx) : ∃ t : Fin cfg8.N, (cfg8.win 2).flush t = true ∧ i ∈ ((cfg8.win 2).blk t).view.set := by
  have h0 : (i 0).val < 100000 := (i 0).isLt
  have h1 : (i 1).val < 128 := (i 1).isLt
  have hN : cfg8.N = 20 := rfl
  refine ⟨⟨(i 0).val / 5000, by omega⟩, flush8_2 _, ?_⟩
  rw [mem_blk]
  have eo := (idx_facts ⟨(i 0).val / 5000, by omega⟩).2.2.2.2
  intro a
  match a with
  | ⟨0, _⟩ => show win8_2.index _ (0 : Fin 2) * 5000 ≤ (i 0).val ∧ (i 0).val < win8_2.index _ (0 : Fin 2) * 5000 + 5000; rw [eo.1]; show (i 0).val / 5000 * 5000 ≤ _ ∧ _ < (i 0).val / 5000 * 5000 + 5000; omega
  | ⟨1, _⟩ => show win8_2.index _ (1 : Fin 2) * 128 ≤ (i 1).val ∧ (i 1).val < win8_2.index _ (1 : Fin 2) * 128 + 128; rw [eo.2]; omega

/-- The result array after the region. -/
theorem arr_eq (c : Dev nD) : (dat8 V c).arrAt 2 cfg8.N = c1rSpec (V c main_v138) (V c main_v143) :=
  (dat8 V c).arrAt_eq_of_cover 2 _ (fun t _ => flushed_eq V c t) cover

end Cert.KernelIdeal.Region8

end
-- ==== Proof.Region9.lean ====
/-
  Region 9: two message arrays added, plus the bias row, then the maximum with zero. Grid point t handles
  rows 5000·t … 5000·t + 4999; the twenty row blocks tile the result, so the result array is the whole-array
  function, entry (r, q) = max ((m(r, q) + n(r, q)) + bias(q), 0).
-/
import proofs.«156020_j6296422056695_1_alg».proof.Proof.Gen.KernelIdeal.Frame
import proofs.«156020_j6296422056695_1_alg».proof.Proof.BlockLaws

noncomputable section

open scoped BigOperators

namespace Cert.KernelIdeal.Region9

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the two message windows and the result window move down one row block per
    point, the bias window stays. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- What point t writes back is block t of the whole-array function. -/
theorem flushed_eq (c : Dev nD) (t : Fin cfg9.N) :
    (dat9 V c).flushed 3 t = ((cfg9.win 3).blk t).view.read (Elt Ideal) (c2rSpec (V c main_v140) (V c main_v142) (V c main_v145)) := by
  show (cfg9.win 3).cut (grid9.coords t) ((dat9 V c).after 3 t) = _
  rw [after9_3]
  unfold out9_3
  rw [View.canon_unit_zero zero_off]
  simp only [View.ld_unit_zero (S := S5000x128) zero_off, View.ld_unit_zero (S := S1x128) zero_off]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have ht : t.val < 20 := t.isLt
  have hp : p.val < 5000 := p.isLt
  have hq : q.val < 128 := q.isLt
  have hR : t.val * 5000 + p.val < 100000 := by omega
  refine (c2_pay _ _ _ p q).trans ?_
  have hi : ((cfg9.win 3).blk t).view.emb (ix2 p q) = ix2 (n0 := 100000) (n1 := 128) ⟨t.val * 5000 + p.val, hR⟩ q := by
    funext a; apply Fin.ext
    match a with
    | ⟨0, _⟩ => show win9_3.index t (0 : Fin 2) * 5000 + 1 * p.val = t.val * 5000 + p.val; omega
    | ⟨1, _⟩ => show win9_3.index t (1 : Fin 2) * 128 + 1 * q.val = q.val; omega
  have h0 : ((cfg9.win 0).blk t).view.emb (ix2 p q) = ix2 (n0 := 100000) (n1 := 128) ⟨t.val * 5000 + p.val, hR⟩ q := by
    funext a; apply Fin.ext
    match a with
    | ⟨0, _⟩ => show win9_0.index t (0 : Fin 2) * 5000 + 1 * p.val = t.val * 5000 + p.val; omega
    | ⟨1, _⟩ => show win9_0.index t (1 : Fin 2) * 128 + 1 * q.val = q.val; omega
  have h1 : ((cfg9.win 1).blk t).view.emb (ix2 p q) = ix2 (n0 := 100000) (n1 := 128) ⟨t.val * 5000 + p.val, hR⟩ q := by
    funext a; apply Fin.ext
    match a with
    | ⟨0, _⟩ => show win9_1.index t (0 : Fin 2) * 5000 + 1 * p.val = t.val * 5000 + p.val; omega
    | ⟨1, _⟩ => show win9_1.index t (1 : Fin 2) * 128 + 1 * q.val = q.val; omega
  have h2 : ((cfg9.win 2).blk t).view.emb (ix2 (0 : Fin 1) q) = ix2 (n0 := 1) (n1 := 128) (0 : Fin 1) q := by
    funext a; apply Fin.ext
    match a with
    | ⟨0, _⟩ => show win9_2.index t (0 : Fin 2) * 1 + 1 * (0 : Fin 1).val = (0 : Fin 1).val; omega
    | ⟨1, _⟩ => show win9_2.index t (1 : Fin 2) * 128 + 1 * q.val = q.val; omega
  have x0 : iblk9 V c 0 t (ix2 p q) = V c main_v140 (ix2 (n0 := 100000) (n1 := 128) ⟨t.val * 5000 + p.val, hR⟩ q) := congrArg (V c main_v140) h0
  have x1 : iblk9 V c 1 t (ix2 p q) = V c main_v142 (ix2 (n0 := 100000) (n1 := 128) ⟨t.val * 5000 + p.val, hR⟩ q) := congrArg (V c main_v142) h1
  have x2 : iblk9 V c 2 t (ix2 (0 : Fin 1) q) = V c main_v145 (ix2 (n0 := 1) (n1 := 128) (0 : Fin 1) q) := congrArg (V c main_v145) h2
  rw [x0, x1, x2]
  show _ = c2rSpec (V c main_v140) (V c main_v142) (V c main_v145) (((cfg9.win 3).blk t).view.emb (ix2 p q))
  rw [hi] <;> rfl

/-- An index of the result lies in point t's block iff each coordinate is in the block's range. -/
theorem mem_blk (t : Fin cfg9.N) (i : S100000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v147).slice (win9_3.rect t)).set ↔ _
  rw [View.set_slice_whole, Rect.mem_set_unit]
  exact Iff.rfl

/-- Row r of the result is written by point r / 5000. -/
theorem cover (i : S100000x128.Idx) : ∃ t : Fin cfg9.N, (cfg9.win 3).flush t = true ∧ i ∈ ((cfg9.win 3).blk t).view.set := by
  have h0 : (i 0).val < 100000 := (i 0).isLt
  have h1 : (i 1).val < 128 := (i 1).isLt
  have hN : cfg9.N = 20 := rfl
  refine ⟨⟨(i 0).val / 5000, by omega⟩, flush9_3 _, ?_⟩
  rw [mem_blk]
  have eo := (idx_facts ⟨(i 0).val / 5000, by omega⟩).2.2.2.2.2.2
  intro a
  match a with
  | ⟨0, _⟩ => show win9_3.index _ (0 : Fin 2) * 5000 ≤ (i 0).val ∧ (i 0).val < win9_3.index _ (0 : Fin 2) * 5000 + 5000; rw [eo.1]; show (i 0).val / 5000 * 5000 ≤ _ ∧ _ < (i 0).val / 5000 * 5000 + 5000; omega
  | ⟨1, _⟩ => show win9_3.index _ (1 : Fin 2) * 128 ≤ (i 1).val ∧ (i 1).val < win9_3.index _ (1 : Fin 2) * 128 + 128; rw [eo.2]; omega

/-- The result array after the region. -/
theorem arr_eq (c : Dev nD) : (dat9 V c).arrAt 3 cfg9.N = c2rSpec (V c main_v140) (V c main_v142) (V c main_v145) :=
  (dat9 V c).arrAt_eq_of_cover 3 _ (fun t _ => flushed_eq V c t) cover

end Cert.KernelIdeal.Region9

end
-- ==== Proof.Chain2.lean ====
/-
  Layer 2 of the kernel program, buffer by buffer, matched with the reference's stages, from the layer's three
  left operands (hypotheses: the previous layer's facts) and the six normalisers.
-/
import proofs.«156020_j6296422056695_1_alg».proof.Proof.Args
import proofs.«156020_j6296422056695_1_alg».proof.Proof.StretchL2
import proofs.«156020_j6296422056695_1_alg».proof.Proof.Region5
import proofs.«156020_j6296422056695_1_alg».proof.Proof.Region6
import proofs.«156020_j6296422056695_1_alg».proof.Proof.Region7
import proofs.«156020_j6296422056695_1_alg».proof.Proof.Region8
import proofs.«156020_j6296422056695_1_alg».proof.Proof.Region9

noncomputable section

open scoped BigOperators

namespace Cert.KernelIdeal.Chain2

open Idealize.ShloMosaic Idealize.ShloMosaic.TcCoe Idealize.ShloMosaic.StableHlo Idealize.SL.Sem
open Cert.KernelIdeal Cert.KernelIdeal.Gen Cert.KernelIdeal.Blocks Cert.KernelIdeal.Track

variable (m : (ℓ : Loc nD τ sig) → Buf (Elt Ideal) ℓ) (ρ : Dev nD → PrngReg) (c : Dev nD)

/-- The reference recomputes this normaliser in each layer: the same stage under another name. -/
theorem same_val_main_v129 (x : (⟨Cert.ReferenceIdeal.S1600000, .i32⟩ : BufTy).Contents (Elt Ideal)) : Cert.ReferenceIdeal.ReadP.val_main_v27 (F := Ideal) x = Cert.ReferenceIdeal.ReadP.val_main_v129 (F := Ideal) x := rfl

/-- The reference recomputes this normaliser in each layer: the same stage under another name. -/
theorem same_val_main_v162 (x : (⟨Cert.ReferenceIdeal.S1600000, .i32⟩ : BufTy).Contents (Elt Ideal)) : Cert.ReferenceIdeal.ReadP.val_main_v60 (F := Ideal) x = Cert.ReferenceIdeal.ReadP.val_main_v162 (F := Ideal) x := rfl

/-- The reference recomputes this normaliser in each layer: the same stage under another name. -/
theorem same_val_main_v195 (x : (⟨Cert.ReferenceIdeal.S1600000, .i32⟩ : BufTy).Contents (Elt Ideal)) : Cert.ReferenceIdeal.ReadP.val_main_v93 (F := Ideal) x = Cert.ReferenceIdeal.ReadP.val_main_v195 (F := Ideal) x := rfl

/-- The reference recomputes this normaliser in each layer: the same stage under another name. -/
theorem same_val_main_v215 (x : (⟨Cert.ReferenceIdeal.S1600000, .i32⟩ : BufTy).Contents (Elt Ideal)) : Cert.ReferenceIdeal.ReadP.val_main_v11 (F := Ideal) x = Cert.ReferenceIdeal.ReadP.val_main_v215 (F := Ideal) x := rfl

/-- The reference recomputes this normaliser in each layer: the same stage under another name. -/
theorem same_val_main_v248 (x : (⟨Cert.ReferenceIdeal.S1600000, .i32⟩ : BufTy).Contents (Elt Ideal)) : Cert.ReferenceIdeal.ReadP.val_main_v44 (F := Ideal) x = Cert.ReferenceIdeal.ReadP.val_main_v248 (F := Ideal) x := rfl

/-- The reference recomputes this normaliser in each layer: the same stage under another name. -/
theorem same_val_main_v281 (x : (⟨Cert.ReferenceIdeal.S1600000, .i32⟩ : BufTy).Contents (Elt Ideal)) : Cert.ReferenceIdeal.ReadP.val_main_v77 (F := Ideal) x = Cert.ReferenceIdeal.ReadP.val_main_v281 (F := Ideal) x := rfl

/-- Product 1: the region's result array is the reference's product stage. -/
theorem h1
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W21 m ρ c (Proc.devRef .tc main_v104) = Cert.ReferenceIdeal.ReadP.val_main_v116 (F := Ideal) (a0 m c) (a1 m c) (a4 m c) (a5 m c) (a6 m c) (a7 m c) (a8 m c) (a20 m c) (a22 m c) (a23 m c) (a24 m c) (a25 m c) := by
  refine (W21_arr m ρ c 2).trans ?_
  rw [Region5.arr_eq]
  show mmSpec (W20 m ρ c (Proc.devRef .tc main_v99)) (W20 m ρ c (Proc.devRef .tc main_arg8)) = _
  rw [show W20 m ρ c (Proc.devRef .tc main_v99) = _ from (rfl.trans hx1),
    show W20 m ρ c (Proc.devRef .tc main_arg8) = a8 m c from (((Keep.keep20 m ρ c main_arg8 (by decide)).trans ((W19_of_ne m ρ c main_arg8 (by decide)).trans ((W18_of_ne m ρ c main_arg8 (by decide)).trans ((Keep.keep17 m ρ c main_arg8 (by decide)).trans ((W16_of_ne m ρ c main_arg8 (by decide)).trans ((W15_of_ne m ρ c main_arg8 (by decide)).trans ((W14_of_ne m ρ c main_arg8 (by decide)).trans ((Keep.keep13 m ρ c main_arg8 (by decide)).trans ((Keep.keep12 m ρ c main_arg8 (by decide)).trans ((Keep.keep11 m ρ c main_arg8 (by decide)).trans ((Keep.keep10 m ρ c main_arg8 (by decide)).trans ((Keep.keep9 m ρ c main_arg8 (by decide)).trans ((Keep.keep8 m ρ c main_arg8 (by decide)).trans ((Keep.keep7 m ρ c main_arg8 (by decide)).trans ((Keep.keep6 m ρ c main_arg8 (by decide)).trans ((Keep.keep5 m ρ c main_arg8 (by decide)).trans ((Keep.keep4 m ρ c main_arg8 (by decide)).trans ((Keep.keep3 m ρ c main_arg8 (by decide)).trans ((Keep.keep2 m ρ c main_arg8 (by decide)).trans (Keep.keep1 m ρ c main_arg8 (by decide))))))))))))))))))))).trans rfl)]
  exact (Cert.RefLaws.dot_eq _ _).symm

/-- Product 2: the region's result array is the reference's product stage. -/
theorem h2
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W22 m ρ c (Proc.devRef .tc main_v105) = Cert.ReferenceIdeal.ReadP.val_main_v149 (F := Ideal) (a0 m c) (a2 m c) (a3 m c) (a10 m c) (a20 m c) (a21 m c) (a22 m c) := by
  refine (W22_arr m ρ c 2).trans ?_
  rw [Region6.arr_eq]
  show mmSpec (W21 m ρ c (Proc.devRef .tc main_v101)) (W21 m ρ c (Proc.devRef .tc main_arg10)) = _
  rw [show W21 m ρ c (Proc.devRef .tc main_v101) = _ from ((W21_of_ne m ρ c main_v101 (by decide)).trans hx2),
    show W21 m ρ c (Proc.devRef .tc main_arg10) = a10 m c from (((W21_of_ne m ρ c main_arg10 (by decide)).trans ((Keep.keep20 m ρ c main_arg10 (by decide)).trans ((W19_of_ne m ρ c main_arg10 (by decide)).trans ((W18_of_ne m ρ c main_arg10 (by decide)).trans ((Keep.keep17 m ρ c main_arg10 (by decide)).trans ((W16_of_ne m ρ c main_arg10 (by decide)).trans ((W15_of_ne m ρ c main_arg10 (by decide)).trans ((W14_of_ne m ρ c main_arg10 (by decide)).trans ((Keep.keep13 m ρ c main_arg10 (by decide)).trans ((Keep.keep12 m ρ c main_arg10 (by decide)).trans ((Keep.keep11 m ρ c main_arg10 (by decide)).trans ((Keep.keep10 m ρ c main_arg10 (by decide)).trans ((Keep.keep9 m ρ c main_arg10 (by decide)).trans ((Keep.keep8 m ρ c main_arg10 (by decide)).trans ((Keep.keep7 m ρ c main_arg10 (by decide)).trans ((Keep.keep6 m ρ c main_arg10 (by decide)).trans ((Keep.keep5 m ρ c main_arg10 (by decide)).trans ((Keep.keep4 m ρ c main_arg10 (by decide)).trans ((Keep.keep3 m ρ c main_arg10 (by decide)).trans ((Keep.keep2 m ρ c main_arg10 (by decide)).trans (Keep.keep1 m ρ c main_arg10 (by decide)))))))))))))))))))))).trans rfl)]
  exact (Cert.RefLaws.dot_eq _ _).symm

/-- Product 3: the region's result array is the reference's product stage. -/
theorem h3
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W23 m ρ c (Proc.devRef .tc main_v106) = Cert.ReferenceIdeal.ReadP.val_main_v182 (F := Ideal) (a0 m c) (a1 m c) (a4 m c) (a5 m c) (a6 m c) (a7 m c) (a12 m c) (a22 m c) (a23 m c) (a24 m c) (a25 m c) := by
  refine (W23_arr m ρ c 2).trans ?_
  rw [Region7.arr_eq]
  show mmSpec (W22 m ρ c (Proc.devRef .tc main_v103)) (W22 m ρ c (Proc.devRef .tc main_arg12)) = _
  rw [show W22 m ρ c (Proc.devRef .tc main_v103) = _ from (((W22_of_ne m ρ c main_v103 (by decide)).trans (W21_of_ne m ρ c main_v103 (by decide))).trans hx3),
    show W22 m ρ c (Proc.devRef .tc main_arg12) = a12 m c from (((W22_of_ne m ρ c main_arg12 (by decide)).trans ((W21_of_ne m ρ c main_arg12 (by decide)).trans ((Keep.keep20 m ρ c main_arg12 (by decide)).trans ((W19_of_ne m ρ c main_arg12 (by decide)).trans ((W18_of_ne m ρ c main_arg12 (by decide)).trans ((Keep.keep17 m ρ c main_arg12 (by decide)).trans ((W16_of_ne m ρ c main_arg12 (by decide)).trans ((W15_of_ne m ρ c main_arg12 (by decide)).trans ((W14_of_ne m ρ c main_arg12 (by decide)).trans ((Keep.keep13 m ρ c main_arg12 (by decide)).trans ((Keep.keep12 m ρ c main_arg12 (by decide)).trans ((Keep.keep11 m ρ c main_arg12 (by decide)).trans ((Keep.keep10 m ρ c main_arg12 (by decide)).trans ((Keep.keep9 m ρ c main_arg12 (by decide)).trans ((Keep.keep8 m ρ c main_arg12 (by decide)).trans ((Keep.keep7 m ρ c main_arg12 (by decide)).trans ((Keep.keep6 m ρ c main_arg12 (by decide)).trans ((Keep.keep5 m ρ c main_arg12 (by decide)).trans ((Keep.keep4 m ρ c main_arg12 (by decide)).trans ((Keep.keep3 m ρ c main_arg12 (by decide)).trans ((Keep.keep2 m ρ c main_arg12 (by decide)).trans (Keep.keep1 m ρ c main_arg12 (by decide))))))))))))))))))))))).trans rfl)]
  exact (Cert.RefLaws.dot_eq _ _).symm

/-- Message 1. -/
theorem ms1
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W24 m ρ c (Proc.devRef .tc main_v138) = Cert.ReferenceIdeal.ReadP.val_main_v131 (F := Ideal) (a0 m c) (a1 m c) (a4 m c) (a5 m c) (a6 m c) (a7 m c) (a8 m c) (a20 m c) (a21 m c) (a22 m c) (a23 m c) (a24 m c) (a25 m c) :=
  StretchL2.ms1 (W23 m ρ c) (a0 m c) (a1 m c) (a4 m c) (a5 m c) (a6 m c) (a7 m c) (a8 m c) (a20 m c) (a21 m c) (a22 m c) (a23 m c) (a24 m c) (a25 m c)
    (((W23_of_ne m ρ c main_v104 (by decide)).trans (W22_of_ne m ρ c main_v104 (by decide))).trans (h1 m ρ c hx1 hx2 hx3 hi0 hi1 hi2 hi3 hi4 hi5))
    (((W23_of_ne m ρ c main_arg20 (by decide)).trans ((W22_of_ne m ρ c main_arg20 (by decide)).trans ((W21_of_ne m ρ c main_arg20 (by decide)).trans ((Keep.keep20 m ρ c main_arg20 (by decide)).trans ((W19_of_ne m ρ c main_arg20 (by decide)).trans ((W18_of_ne m ρ c main_arg20 (by decide)).trans ((Keep.keep17 m ρ c main_arg20 (by decide)).trans ((W16_of_ne m ρ c main_arg20 (by decide)).trans ((W15_of_ne m ρ c main_arg20 (by decide)).trans ((W14_of_ne m ρ c main_arg20 (by decide)).trans ((Keep.keep13 m ρ c main_arg20 (by decide)).trans ((Keep.keep12 m ρ c main_arg20 (by decide)).trans ((Keep.keep11 m ρ c main_arg20 (by decide)).trans ((Keep.keep10 m ρ c main_arg20 (by decide)).trans ((Keep.keep9 m ρ c main_arg20 (by decide)).trans ((Keep.keep8 m ρ c main_arg20 (by decide)).trans ((Keep.keep7 m ρ c main_arg20 (by decide)).trans ((Keep.keep6 m ρ c main_arg20 (by decide)).trans ((Keep.keep5 m ρ c main_arg20 (by decide)).trans ((Keep.keep4 m ρ c main_arg20 (by decide)).trans ((Keep.keep3 m ρ c main_arg20 (by decide)).trans ((Keep.keep2 m ρ c main_arg20 (by decide)).trans (Keep.keep1 m ρ c main_arg20 (by decide)))))))))))))))))))))))).trans rfl)
    (((W23_of_ne m ρ c main_arg21 (by decide)).trans ((W22_of_ne m ρ c main_arg21 (by decide)).trans ((W21_of_ne m ρ c main_arg21 (by decide)).trans ((Keep.keep20 m ρ c main_arg21 (by decide)).trans ((W19_of_ne m ρ c main_arg21 (by decide)).trans ((W18_of_ne m ρ c main_arg21 (by decide)).trans ((Keep.keep17 m ρ c main_arg21 (by decide)).trans ((W16_of_ne m ρ c main_arg21 (by decide)).trans ((W15_of_ne m ρ c main_arg21 (by decide)).trans ((W14_of_ne m ρ c main_arg21 (by decide)).trans ((Keep.keep13 m ρ c main_arg21 (by decide)).trans ((Keep.keep12 m ρ c main_arg21 (by decide)).trans ((Keep.keep11 m ρ c main_arg21 (by decide)).trans ((Keep.keep10 m ρ c main_arg21 (by decide)).trans ((Keep.keep9 m ρ c main_arg21 (by decide)).trans ((Keep.keep8 m ρ c main_arg21 (by decide)).trans ((Keep.keep7 m ρ c main_arg21 (by decide)).trans ((Keep.keep6 m ρ c main_arg21 (by decide)).trans ((Keep.keep5 m ρ c main_arg21 (by decide)).trans ((Keep.keep4 m ρ c main_arg21 (by decide)).trans ((Keep.keep3 m ρ c main_arg21 (by decide)).trans ((Keep.keep2 m ρ c main_arg21 (by decide)).trans (Keep.keep1 m ρ c main_arg21 (by decide)))))))))))))))))))))))).trans rfl)
    ((((W23_of_ne m ρ c main_v15 (by decide)).trans ((W22_of_ne m ρ c main_v15 (by decide)).trans ((W21_of_ne m ρ c main_v15 (by decide)).trans ((Keep.keep20 m ρ c main_v15 (by decide)).trans ((W19_of_ne m ρ c main_v15 (by decide)).trans ((W18_of_ne m ρ c main_v15 (by decide)).trans ((Keep.keep17 m ρ c main_v15 (by decide)).trans ((W16_of_ne m ρ c main_v15 (by decide)).trans ((W15_of_ne m ρ c main_v15 (by decide)).trans ((W14_of_ne m ρ c main_v15 (by decide)).trans ((Keep.keep13 m ρ c main_v15 (by decide)).trans ((Keep.keep12 m ρ c main_v15 (by decide)).trans ((Keep.keep11 m ρ c main_v15 (by decide)).trans ((Keep.keep10 m ρ c main_v15 (by decide)).trans ((Keep.keep9 m ρ c main_v15 (by decide)).trans ((Keep.keep8 m ρ c main_v15 (by decide)).trans ((Keep.keep7 m ρ c main_v15 (by decide)).trans (Keep.keep6 m ρ c main_v15 (by decide))))))))))))))))))).trans hi1).trans (same_val_main_v129 _))

/-- Message 2. -/
theorem ms2
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W24 m ρ c (Proc.devRef .tc main_v140) = Cert.ReferenceIdeal.ReadP.val_main_v164 (F := Ideal) (a0 m c) (a2 m c) (a3 m c) (a10 m c) (a20 m c) (a21 m c) (a22 m c) (a23 m c) :=
  StretchL2.ms2 (W23 m ρ c) (a0 m c) (a2 m c) (a3 m c) (a10 m c) (a20 m c) (a21 m c) (a22 m c) (a23 m c)
    ((W23_of_ne m ρ c main_v105 (by decide)).trans (h2 m ρ c hx1 hx2 hx3 hi0 hi1 hi2 hi3 hi4 hi5))
    (((W23_of_ne m ρ c main_arg22 (by decide)).trans ((W22_of_ne m ρ c main_arg22 (by decide)).trans ((W21_of_ne m ρ c main_arg22 (by decide)).trans ((Keep.keep20 m ρ c main_arg22 (by decide)).trans ((W19_of_ne m ρ c main_arg22 (by decide)).trans ((W18_of_ne m ρ c main_arg22 (by decide)).trans ((Keep.keep17 m ρ c main_arg22 (by decide)).trans ((W16_of_ne m ρ c main_arg22 (by decide)).trans ((W15_of_ne m ρ c main_arg22 (by decide)).trans ((W14_of_ne m ρ c main_arg22 (by decide)).trans ((Keep.keep13 m ρ c main_arg22 (by decide)).trans ((Keep.keep12 m ρ c main_arg22 (by decide)).trans ((Keep.keep11 m ρ c main_arg22 (by decide)).trans ((Keep.keep10 m ρ c main_arg22 (by decide)).trans ((Keep.keep9 m ρ c main_arg22 (by decide)).trans ((Keep.keep8 m ρ c main_arg22 (by decide)).trans ((Keep.keep7 m ρ c main_arg22 (by decide)).trans ((Keep.keep6 m ρ c main_arg22 (by decide)).trans ((Keep.keep5 m ρ c main_arg22 (by decide)).trans ((Keep.keep4 m ρ c main_arg22 (by decide)).trans ((Keep.keep3 m ρ c main_arg22 (by decide)).trans ((Keep.keep2 m ρ c main_arg22 (by decide)).trans (Keep.keep1 m ρ c main_arg22 (by decide)))))))))))))))))))))))).trans rfl)
    (((W23_of_ne m ρ c main_arg23 (by decide)).trans ((W22_of_ne m ρ c main_arg23 (by decide)).trans ((W21_of_ne m ρ c main_arg23 (by decide)).trans ((Keep.keep20 m ρ c main_arg23 (by decide)).trans ((W19_of_ne m ρ c main_arg23 (by decide)).trans ((W18_of_ne m ρ c main_arg23 (by decide)).trans ((Keep.keep17 m ρ c main_arg23 (by decide)).trans ((W16_of_ne m ρ c main_arg23 (by decide)).trans ((W15_of_ne m ρ c main_arg23 (by decide)).trans ((W14_of_ne m ρ c main_arg23 (by decide)).trans ((Keep.keep13 m ρ c main_arg23 (by decide)).trans ((Keep.keep12 m ρ c main_arg23 (by decide)).trans ((Keep.keep11 m ρ c main_arg23 (by decide)).trans ((Keep.keep10 m ρ c main_arg23 (by decide)).trans ((Keep.keep9 m ρ c main_arg23 (by decide)).trans ((Keep.keep8 m ρ c main_arg23 (by decide)).trans ((Keep.keep7 m ρ c main_arg23 (by decide)).trans ((Keep.keep6 m ρ c main_arg23 (by decide)).trans ((Keep.keep5 m ρ c main_arg23 (by decide)).trans ((Keep.keep4 m ρ c main_arg23 (by decide)).trans ((Keep.keep3 m ρ c main_arg23 (by decide)).trans ((Keep.keep2 m ρ c main_arg23 (by decide)).trans (Keep.keep1 m ρ c main_arg23 (by decide)))))))))))))))))))))))).trans rfl)
    ((((W23_of_ne m ρ c main_v31 (by decide)).trans ((W22_of_ne m ρ c main_v31 (by decide)).trans ((W21_of_ne m ρ c main_v31 (by decide)).trans ((Keep.keep20 m ρ c main_v31 (by decide)).trans ((W19_of_ne m ρ c main_v31 (by decide)).trans ((W18_of_ne m ρ c main_v31 (by decide)).trans ((Keep.keep17 m ρ c main_v31 (by decide)).trans ((W16_of_ne m ρ c main_v31 (by decide)).trans ((W15_of_ne m ρ c main_v31 (by decide)).trans ((W14_of_ne m ρ c main_v31 (by decide)).trans ((Keep.keep13 m ρ c main_v31 (by decide)).trans ((Keep.keep12 m ρ c main_v31 (by decide)).trans ((Keep.keep11 m ρ c main_v31 (by decide)).trans (Keep.keep10 m ρ c main_v31 (by decide))))))))))))))).trans hi3).trans (same_val_main_v162 _))

/-- Message 3. -/
theorem ms3
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W24 m ρ c (Proc.devRef .tc main_v142) = Cert.ReferenceIdeal.ReadP.val_main_v197 (F := Ideal) (a0 m c) (a1 m c) (a4 m c) (a5 m c) (a6 m c) (a7 m c) (a12 m c) (a22 m c) (a23 m c) (a24 m c) (a25 m c) :=
  StretchL2.ms3 (W23 m ρ c) (a0 m c) (a1 m c) (a4 m c) (a5 m c) (a6 m c) (a7 m c) (a12 m c) (a22 m c) (a23 m c) (a24 m c) (a25 m c)
    (rfl.trans (h3 m ρ c hx1 hx2 hx3 hi0 hi1 hi2 hi3 hi4 hi5))
    (((W23_of_ne m ρ c main_arg24 (by decide)).trans ((W22_of_ne m ρ c main_arg24 (by decide)).trans ((W21_of_ne m ρ c main_arg24 (by decide)).trans ((Keep.keep20 m ρ c main_arg24 (by decide)).trans ((W19_of_ne m ρ c main_arg24 (by decide)).trans ((W18_of_ne m ρ c main_arg24 (by decide)).trans ((Keep.keep17 m ρ c main_arg24 (by decide)).trans ((W16_of_ne m ρ c main_arg24 (by decide)).trans ((W15_of_ne m ρ c main_arg24 (by decide)).trans ((W14_of_ne m ρ c main_arg24 (by decide)).trans ((Keep.keep13 m ρ c main_arg24 (by decide)).trans ((Keep.keep12 m ρ c main_arg24 (by decide)).trans ((Keep.keep11 m ρ c main_arg24 (by decide)).trans ((Keep.keep10 m ρ c main_arg24 (by decide)).trans ((Keep.keep9 m ρ c main_arg24 (by decide)).trans ((Keep.keep8 m ρ c main_arg24 (by decide)).trans ((Keep.keep7 m ρ c main_arg24 (by decide)).trans ((Keep.keep6 m ρ c main_arg24 (by decide)).trans ((Keep.keep5 m ρ c main_arg24 (by decide)).trans ((Keep.keep4 m ρ c main_arg24 (by decide)).trans ((Keep.keep3 m ρ c main_arg24 (by decide)).trans ((Keep.keep2 m ρ c main_arg24 (by decide)).trans (Keep.keep1 m ρ c main_arg24 (by decide)))))))))))))))))))))))).trans rfl)
    (((W23_of_ne m ρ c main_arg25 (by decide)).trans ((W22_of_ne m ρ c main_arg25 (by decide)).trans ((W21_of_ne m ρ c main_arg25 (by decide)).trans ((Keep.keep20 m ρ c main_arg25 (by decide)).trans ((W19_of_ne m ρ c main_arg25 (by decide)).trans ((W18_of_ne m ρ c main_arg25 (by decide)).trans ((Keep.keep17 m ρ c main_arg25 (by decide)).trans ((W16_of_ne m ρ c main_arg25 (by decide)).trans ((W15_of_ne m ρ c main_arg25 (by decide)).trans ((W14_of_ne m ρ c main_arg25 (by decide)).trans ((Keep.keep13 m ρ c main_arg25 (by decide)).trans ((Keep.keep12 m ρ c main_arg25 (by decide)).trans ((Keep.keep11 m ρ c main_arg25 (by decide)).trans ((Keep.keep10 m ρ c main_arg25 (by decide)).trans ((Keep.keep9 m ρ c main_arg25 (by decide)).trans ((Keep.keep8 m ρ c main_arg25 (by decide)).trans ((Keep.keep7 m ρ c main_arg25 (by decide)).trans ((Keep.keep6 m ρ c main_arg25 (by decide)).trans ((Keep.keep5 m ρ c main_arg25 (by decide)).trans ((Keep.keep4 m ρ c main_arg25 (by decide)).trans ((Keep.keep3 m ρ c main_arg25 (by decide)).trans ((Keep.keep2 m ρ c main_arg25 (by decide)).trans (Keep.keep1 m ρ c main_arg25 (by decide)))))))))))))))))))))))).trans rfl)
    ((((W23_of_ne m ρ c main_v47 (by decide)).trans ((W22_of_ne m ρ c main_v47 (by decide)).trans ((W21_of_ne m ρ c main_v47 (by decide)).trans ((Keep.keep20 m ρ c main_v47 (by decide)).trans ((W19_of_ne m ρ c main_v47 (by decide)).trans ((W18_of_ne m ρ c main_v47 (by decide)).trans ((Keep.keep17 m ρ c main_v47 (by decide)).trans ((W16_of_ne m ρ c main_v47 (by decide)).trans ((W15_of_ne m ρ c main_v47 (by decide)).trans (W14_of_ne m ρ c main_v47 (by decide))))))))))).trans hi5).trans (same_val_main_v195 _))

/-- The bias row of the type-B output. -/
theorem bias1 : W24 m ρ c (Proc.devRef .tc main_v143) = Cert.RefLaws.biasK (a9 m c) :=
  StretchL2.bias1 (W23 m ρ c) (a9 m c) (((W23_of_ne m ρ c main_arg9 (by decide)).trans ((W22_of_ne m ρ c main_arg9 (by decide)).trans ((W21_of_ne m ρ c main_arg9 (by decide)).trans ((Keep.keep20 m ρ c main_arg9 (by decide)).trans ((W19_of_ne m ρ c main_arg9 (by decide)).trans ((W18_of_ne m ρ c main_arg9 (by decide)).trans ((Keep.keep17 m ρ c main_arg9 (by decide)).trans ((W16_of_ne m ρ c main_arg9 (by decide)).trans ((W15_of_ne m ρ c main_arg9 (by decide)).trans ((W14_of_ne m ρ c main_arg9 (by decide)).trans ((Keep.keep13 m ρ c main_arg9 (by decide)).trans ((Keep.keep12 m ρ c main_arg9 (by decide)).trans ((Keep.keep11 m ρ c main_arg9 (by decide)).trans ((Keep.keep10 m ρ c main_arg9 (by decide)).trans ((Keep.keep9 m ρ c main_arg9 (by decide)).trans ((Keep.keep8 m ρ c main_arg9 (by decide)).trans ((Keep.keep7 m ρ c main_arg9 (by decide)).trans ((Keep.keep6 m ρ c main_arg9 (by decide)).trans ((Keep.keep5 m ρ c main_arg9 (by decide)).trans ((Keep.keep4 m ρ c main_arg9 (by decide)).trans ((Keep.keep3 m ρ c main_arg9 (by decide)).trans ((Keep.keep2 m ρ c main_arg9 (by decide)).trans (Keep.keep1 m ρ c main_arg9 (by decide)))))))))))))))))))))))).trans rfl)

/-- The bias row of the type-A output. -/
theorem bias23 : W24 m ρ c (Proc.devRef .tc main_v145) = Cert.RefLaws.biasK (addf (F := Ideal) (a11 m c) (a13 m c)) :=
  StretchL2.bias23 (W23 m ρ c) (a11 m c) (a13 m c) (((W23_of_ne m ρ c main_arg11 (by decide)).trans ((W22_of_ne m ρ c main_arg11 (by decide)).trans ((W21_of_ne m ρ c main_arg11 (by decide)).trans ((Keep.keep20 m ρ c main_arg11 (by decide)).trans ((W19_of_ne m ρ c main_arg11 (by decide)).trans ((W18_of_ne m ρ c main_arg11 (by decide)).trans ((Keep.keep17 m ρ c main_arg11 (by decide)).trans ((W16_of_ne m ρ c main_arg11 (by decide)).trans ((W15_of_ne m ρ c main_arg11 (by decide)).trans ((W14_of_ne m ρ c main_arg11 (by decide)).trans ((Keep.keep13 m ρ c main_arg11 (by decide)).trans ((Keep.keep12 m ρ c main_arg11 (by decide)).trans ((Keep.keep11 m ρ c main_arg11 (by decide)).trans ((Keep.keep10 m ρ c main_arg11 (by decide)).trans ((Keep.keep9 m ρ c main_arg11 (by decide)).trans ((Keep.keep8 m ρ c main_arg11 (by decide)).trans ((Keep.keep7 m ρ c main_arg11 (by decide)).trans ((Keep.keep6 m ρ c main_arg11 (by decide)).trans ((Keep.keep5 m ρ c main_arg11 (by decide)).trans ((Keep.keep4 m ρ c main_arg11 (by decide)).trans ((Keep.keep3 m ρ c main_arg11 (by decide)).trans ((Keep.keep2 m ρ c main_arg11 (by decide)).trans (Keep.keep1 m ρ c main_arg11 (by decide)))))))))))))))))))))))).trans rfl) (((W23_of_ne m ρ c main_arg13 (by decide)).trans ((W22_of_ne m ρ c main_arg13 (by decide)).trans ((W21_of_ne m ρ c main_arg13 (by decide)).trans ((Keep.keep20 m ρ c main_arg13 (by decide)).trans ((W19_of_ne m ρ c main_arg13 (by decide)).trans ((W18_of_ne m ρ c main_arg13 (by decide)).trans ((Keep.keep17 m ρ c main_arg13 (by decide)).trans ((W16_of_ne m ρ c main_arg13 (by decide)).trans ((W15_of_ne m ρ c main_arg13 (by decide)).trans ((W14_of_ne m ρ c main_arg13 (by decide)).trans ((Keep.keep13 m ρ c main_arg13 (by decide)).trans ((Keep.keep12 m ρ c main_arg13 (by decide)).trans ((Keep.keep11 m ρ c main_arg13 (by decide)).trans ((Keep.keep10 m ρ c main_arg13 (by decide)).trans ((Keep.keep9 m ρ c main_arg13 (by decide)).trans ((Keep.keep8 m ρ c main_arg13 (by decide)).trans ((Keep.keep7 m ρ c main_arg13 (by decide)).trans ((Keep.keep6 m ρ c main_arg13 (by decide)).trans ((Keep.keep5 m ρ c main_arg13 (by decide)).trans ((Keep.keep4 m ρ c main_arg13 (by decide)).trans ((Keep.keep3 m ρ c main_arg13 (by decide)).trans ((Keep.keep2 m ρ c main_arg13 (by decide)).trans (Keep.keep1 m ρ c main_arg13 (by decide)))))))))))))))))))))))).trans rfl)

/-- The layer's output for node type B. -/
theorem outB
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W25 m ρ c (Proc.devRef .tc main_v146) = Cert.ReferenceIdeal.ReadP.val_main_v203 (F := Ideal) (a0 m c) (a1 m c) (a4 m c) (a5 m c) (a6 m c) (a7 m c) (a8 m c) (a9 m c) (a20 m c) (a21 m c) (a22 m c) (a23 m c) (a24 m c) (a25 m c) := by
  refine (W25_arr m ρ c 2).trans ?_
  rw [Region8.arr_eq]
  show c1rSpec (W24 m ρ c (Proc.devRef .tc main_v138)) (W24 m ρ c (Proc.devRef .tc main_v143)) = _
  rw [ms1 m ρ c hx1 hx2 hx3 hi0 hi1 hi2 hi3 hi4 hi5, bias1 m ρ c]
  exact (Cert.RefLaws.c1r_glue _ _).trans rfl

/-- The layer's output for node type A. -/
theorem outA
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W26 m ρ c (Proc.devRef .tc main_v147) = Cert.ReferenceIdeal.ReadP.val_main_v202 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c) := by
  refine (W26_arr m ρ c 3).trans ?_
  rw [Region9.arr_eq]
  show c2rSpec (W25 m ρ c (Proc.devRef .tc main_v140)) (W25 m ρ c (Proc.devRef .tc main_v142)) (W25 m ρ c (Proc.devRef .tc main_v145)) = _
  rw [show W25 m ρ c (Proc.devRef .tc main_v140) = _ from ((W25_of_ne m ρ c main_v140 (by decide)).trans (ms2 m ρ c hx1 hx2 hx3 hi0 hi1 hi2 hi3 hi4 hi5)),
    show W25 m ρ c (Proc.devRef .tc main_v142) = _ from ((W25_of_ne m ρ c main_v142 (by decide)).trans (ms3 m ρ c hx1 hx2 hx3 hi0 hi1 hi2 hi3 hi4 hi5)),
    show W25 m ρ c (Proc.devRef .tc main_v145) = _ from ((W25_of_ne m ρ c main_v145 (by decide)).trans (bias23 m ρ c))]
  exact (Cert.RefLaws.c2r_glue _ _ _ _).trans rfl

/-- The next layer's left operand 1. -/
theorem nx1
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c) :=
  StretchL2.nx1 (W26 m ρ c) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c)
    (rfl.trans (outA m ρ c hx1 hx2 hx3 hi0 hi1 hi2 hi3 hi4 hi5))
    ((((W26_of_ne m ρ c main_v7 (by decide)).trans ((W25_of_ne m ρ c main_v7 (by decide)).trans ((Keep.keep24 m ρ c main_v7 (by decide)).trans ((W23_of_ne m ρ c main_v7 (by decide)).trans ((W22_of_ne m ρ c main_v7 (by decide)).trans ((W21_of_ne m ρ c main_v7 (by decide)).trans ((Keep.keep20 m ρ c main_v7 (by decide)).trans ((W19_of_ne m ρ c main_v7 (by decide)).trans ((W18_of_ne m ρ c main_v7 (by decide)).trans ((Keep.keep17 m ρ c main_v7 (by decide)).trans ((W16_of_ne m ρ c main_v7 (by decide)).trans ((W15_of_ne m ρ c main_v7 (by decide)).trans ((W14_of_ne m ρ c main_v7 (by decide)).trans ((Keep.keep13 m ρ c main_v7 (by decide)).trans ((Keep.keep12 m ρ c main_v7 (by decide)).trans ((Keep.keep11 m ρ c main_v7 (by decide)).trans ((Keep.keep10 m ρ c main_v7 (by decide)).trans ((Keep.keep9 m ρ c main_v7 (by decide)).trans ((Keep.keep8 m ρ c main_v7 (by decide)).trans ((Keep.keep7 m ρ c main_v7 (by decide)).trans ((Keep.keep6 m ρ c main_v7 (by decide)).trans ((Keep.keep5 m ρ c main_v7 (by decide)).trans (Keep.keep4 m ρ c main_v7 (by decide)))))))))))))))))))))))).trans hi0).trans (same_val_main_v215 _))

/-- The next layer's left operand 2. -/
theorem nx2
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c) :=
  StretchL2.nx2 (W26 m ρ c) (a0 m c) (a1 m c) (a4 m c) (a5 m c) (a6 m c) (a7 m c) (a8 m c) (a9 m c) (a20 m c) (a21 m c) (a22 m c) (a23 m c) (a24 m c) (a25 m c)
    ((W26_of_ne m ρ c main_v146 (by decide)).trans (outB m ρ c hx1 hx2 hx3 hi0 hi1 hi2 hi3 hi4 hi5))
    ((((W26_of_ne m ρ c main_v23 (by decide)).trans ((W25_of_ne m ρ c main_v23 (by decide)).trans ((Keep.keep24 m ρ c main_v23 (by decide)).trans ((W23_of_ne m ρ c main_v23 (by decide)).trans ((W22_of_ne m ρ c main_v23 (by decide)).trans ((W21_of_ne m ρ c main_v23 (by decide)).trans ((Keep.keep20 m ρ c main_v23 (by decide)).trans ((W19_of_ne m ρ c main_v23 (by decide)).trans ((W18_of_ne m ρ c main_v23 (by decide)).trans ((Keep.keep17 m ρ c main_v23 (by decide)).trans ((W16_of_ne m ρ c main_v23 (by decide)).trans ((W15_of_ne m ρ c main_v23 (by decide)).trans ((W14_of_ne m ρ c main_v23 (by decide)).trans ((Keep.keep13 m ρ c main_v23 (by decide)).trans ((Keep.keep12 m ρ c main_v23 (by decide)).trans ((Keep.keep11 m ρ c main_v23 (by decide)).trans ((Keep.keep10 m ρ c main_v23 (by decide)).trans ((Keep.keep9 m ρ c main_v23 (by decide)).trans (Keep.keep8 m ρ c main_v23 (by decide)))))))))))))))))))).trans hi2).trans (same_val_main_v248 _))

/-- The next layer's left operand 3. -/
theorem nx3
    (hx1 : W20 m ρ c (Proc.devRef .tc main_v99) = Cert.ReferenceIdeal.ReadP.val_main_v115 (F := Ideal) (a0 m c) (a1 m c) (a4 m c) (a5 m c) (a6 m c) (a7 m c) (a20 m c) (a22 m c) (a23 m c) (a24 m c) (a25 m c))
    (hx2 : W20 m ρ c (Proc.devRef .tc main_v101) = Cert.ReferenceIdeal.ReadP.val_main_v148 (F := Ideal) (a0 m c) (a2 m c) (a3 m c) (a20 m c) (a21 m c) (a22 m c))
    (hx3 : W20 m ρ c (Proc.devRef .tc main_v103) = Cert.ReferenceIdeal.ReadP.val_main_v181 (F := Ideal) (a0 m c) (a1 m c) (a4 m c) (a5 m c) (a6 m c) (a7 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c) :=
  StretchL2.nx3 (W26 m ρ c) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c)
    (rfl.trans (outA m ρ c hx1 hx2 hx3 hi0 hi1 hi2 hi3 hi4 hi5))
    ((((W26_of_ne m ρ c main_v39 (by decide)).trans ((W25_of_ne m ρ c main_v39 (by decide)).trans ((Keep.keep24 m ρ c main_v39 (by decide)).trans ((W23_of_ne m ρ c main_v39 (by decide)).trans ((W22_of_ne m ρ c main_v39 (by decide)).trans ((W21_of_ne m ρ c main_v39 (by decide)).trans ((Keep.keep20 m ρ c main_v39 (by decide)).trans ((W19_of_ne m ρ c main_v39 (by decide)).trans ((W18_of_ne m ρ c main_v39 (by decide)).trans ((Keep.keep17 m ρ c main_v39 (by decide)).trans ((W16_of_ne m ρ c main_v39 (by decide)).trans ((W15_of_ne m ρ c main_v39 (by decide)).trans ((W14_of_ne m ρ c main_v39 (by decide)).trans ((Keep.keep13 m ρ c main_v39 (by decide)).trans (Keep.keep12 m ρ c main_v39 (by decide)))))))))))))))).trans hi4).trans (same_val_main_v281 _))

end Cert.KernelIdeal.Chain2

end
-- ==== Proof.StretchL3.lean ====
/-
  Layer 3's host operations, for an arbitrary state of the buffers. After the three products: each product's
  rows gathered at the edges' sources (a negative index wrapped once) and scatter-added into the destinations,
  then scaled by the in-degree normaliser — the three messages; the bias rows ([128] cast to [1, 128], the type-A
  one after adding the two biases); after the combine regions: the two outputs stacked, type A first.
-/
import proofs.«156020_j6296422056695_1_alg».proof.Proof.Gen.KernelIdeal.Launch
import proofs.«156020_j6296422056695_1_alg».proof.Proof.RefLaws
import proofs.«156020_j6296422056695_1_alg».proof.Proof.ReadP
import Idealize.ShloMosaic.Lib.StableHlo.Run

noncomputable section

open scoped BigOperators

namespace Cert.KernelIdeal.StretchL3

open Idealize.ShloMosaic Idealize.ShloMosaic.TcCoe Idealize.ShloMosaic.StableHlo Idealize.SL.Sem
open Cert.KernelIdeal Cert.KernelIdeal.Gen

/-- The two programs spell the same scatter and gather dimension records. -/
theorem sc1_eq : Cert.KernelIdeal.scatter_S100000_S1600000x1_S1600000_n_0_0_1 = Cert.ReferenceIdeal.scatter_S100000_S1600000x1_S1600000_n_0_0_1 := rfl
theorem sc2_eq : Cert.KernelIdeal.scatter_S100000x128_S1600000x1_S1600000x128_1_0_0_1 = Cert.ReferenceIdeal.scatter_S100000x128_S1600000x1_S1600000x128_1_0_0_1 := rfl
theorem ga_eq : Cert.KernelIdeal.gather_S100000x128_S1600000x1_S1600000x128_1_0_n_n_0_1_1128 = Cert.ReferenceIdeal.gather_S100000x128_S1600000x1_S1600000x128_1_0_n_n_0_1_1128 := rfl

set_option maxHeartbeats 8000000 in
/-- Message 1: gathered at the sources, summed into the destinations, scaled by the in-degree normaliser. -/
theorem ms1 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v154) = Cert.ReferenceIdeal.ReadP.val_main_v218 (F := Ideal) x0 x1 x2 x3 x4 x5 x6 x7 x10 x11 x12 x13 x14 x20 x21 x22 x23 x24 x25)
    (h1 : Vv (Proc.devRef .tc main_arg20) = x20)
    (h2 : Vv (Proc.devRef .tc main_arg21) = x21)
    (h3 : Vv (Proc.devRef .tc main_v15) = Cert.ReferenceIdeal.ReadP.val_main_v231 (F := Ideal) x21) :
    StableHlo.after (hostOps13 (F := Ideal)) Vv (Proc.devRef .tc main_v188) = Cert.ReferenceIdeal.ReadP.val_main_v233 (F := Ideal) x0 x1 x2 x3 x4 x5 x6 x7 x10 x11 x12 x13 x14 x20 x21 x22 x23 x24 x25 := by
  simp only [hostOps13]
  after_results_simp
  rw [h0, h1, h2, h3, sc2_eq, ga_eq]
  rfl

set_option maxHeartbeats 8000000 in
/-- Message 2: gathered at the sources, summed into the destinations, scaled by the in-degree normaliser. -/
theorem ms2 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x16 : (⟨Cert.ReferenceIdeal.S128x128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v155) = Cert.ReferenceIdeal.ReadP.val_main_v251 (F := Ideal) x0 x1 x4 x5 x6 x7 x8 x9 x16 x20 x21 x22 x23 x24 x25)
    (h1 : Vv (Proc.devRef .tc main_arg22) = x22)
    (h2 : Vv (Proc.devRef .tc main_arg23) = x23)
    (h3 : Vv (Proc.devRef .tc main_v31) = Cert.ReferenceIdeal.ReadP.val_main_v264 (F := Ideal) x23) :
    StableHlo.after (hostOps13 (F := Ideal)) Vv (Proc.devRef .tc main_v190) = Cert.ReferenceIdeal.ReadP.val_main_v266 (F := Ideal) x0 x1 x4 x5 x6 x7 x8 x9 x16 x20 x21 x22 x23 x24 x25 := by
  simp only [hostOps13]
  after_results_simp
  rw [h0, h1, h2, h3, sc2_eq, ga_eq]
  rfl

set_option maxHeartbeats 8000000 in
/-- Message 3: gathered at the sources, summed into the destinations, scaled by the in-degree normaliser. -/
theorem ms3 (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x18 : (⟨Cert.ReferenceIdeal.S128x128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v156) = Cert.ReferenceIdeal.ReadP.val_main_v284 (F := Ideal) x0 x1 x2 x3 x4 x5 x6 x7 x10 x11 x12 x13 x18 x20 x21 x22 x23 x24 x25)
    (h1 : Vv (Proc.devRef .tc main_arg24) = x24)
    (h2 : Vv (Proc.devRef .tc main_arg25) = x25)
    (h3 : Vv (Proc.devRef .tc main_v47) = Cert.ReferenceIdeal.ReadP.val_main_v297 (F := Ideal) x25) :
    StableHlo.after (hostOps13 (F := Ideal)) Vv (Proc.devRef .tc main_v192) = Cert.ReferenceIdeal.ReadP.val_main_v299 (F := Ideal) x0 x1 x2 x3 x4 x5 x6 x7 x10 x11 x12 x13 x18 x20 x21 x22 x23 x24 x25 := by
  simp only [hostOps13]
  after_results_simp
  rw [h0, h1, h2, h3, sc2_eq, ga_eq]
  rfl

set_option maxHeartbeats 8000000 in
/-- The bias row of the type-B output. -/
theorem bias1 (Vv : Valuation τ sig (Elt Ideal)) (x15 : (⟨Cert.ReferenceIdeal.S128, .f32⟩ : BufTy).Contents (Elt Ideal))
    (h0 : Vv (Proc.devRef .tc main_arg15) = x15) :
    StableHlo.after (hostOps13 (F := Ideal)) Vv (Proc.devRef .tc main_v193) = Cert.RefLaws.biasK x15 := by
  simp only [hostOps13]
  after_results_simp
  rw [h0]
  rfl

set_option maxHeartbeats 8000000 in
/-- The bias row of the type-A output: the two relations' biases added. -/
theorem bias23 (Vv : Valuation τ sig (Elt Ideal)) (x17 : (⟨Cert.ReferenceIdeal.S128, .f32⟩ : BufTy).Contents (Elt Ideal)) (x19 : (⟨Cert.ReferenceIdeal.S128, .f32⟩ : BufTy).Contents (Elt Ideal))
    (h0 : Vv (Proc.devRef .tc main_arg17) = x17)
    (h1 : Vv (Proc.devRef .tc main_arg19) = x19) :
    StableHlo.after (hostOps13 (F := Ideal)) Vv (Proc.devRef .tc main_v195) = Cert.RefLaws.biasK (addf (F := Ideal) x17 x19) := by
  simp only [hostOps13]
  after_results_simp
  rw [h0, h1]
  rfl

/-- The result: the two outputs stacked, type A first. -/
theorem result (Vv : Valuation τ sig (Elt Ideal)) (x0 : (⟨Cert.ReferenceIdeal.S100000x128, .f32⟩ : BufTy).Contents (Elt Ideal)) (x1 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x15 : (⟨Cert.ReferenceIdeal.S128, .f32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal)) (x18 : (⟨Cert.ReferenceIdeal.S128x128, .f32⟩ : BufTy).Contents (Elt Ideal)) (x19 : (⟨Cert.ReferenceIdeal.S128, .f32⟩ : BufTy).Contents (Elt Ideal)) (x20 : (⟨Cert.ReferenceIdeal.S1600000, .i32⟩ : BufTy).Contents (Elt Ideal)) (x21 : (⟨Cert.ReferenceIdeal.S1600000, .i32⟩ : BufTy).Contents (Elt Ideal)) (x22 : (⟨Cert.ReferenceIdeal.S1600000, .i32⟩ : BufTy).Contents (Elt Ideal)) (x23 : (⟨Cert.ReferenceIdeal.S1600000, .i32⟩ : BufTy).Contents (Elt Ideal)) (x24 : (⟨Cert.ReferenceIdeal.S1600000, .i32⟩ : BufTy).Contents (Elt Ideal)) (x25 : (⟨Cert.ReferenceIdeal.S1600000, .i32⟩ : BufTy).Contents (Elt Ideal))
    (h0 : Vv (Proc.devRef .tc main_v197) = Cert.ReferenceIdeal.ReadP.val_main_v303 (F := Ideal) x0 x1 x2 x3 x4 x5 x6 x7 x8 x9 x10 x11 x12 x13 x16 x17 x18 x19 x20 x21 x22 x23 x24 x25)
    (h1 : Vv (Proc.devRef .tc main_v196) = Cert.ReferenceIdeal.ReadP.val_main_v236 (F := Ideal) x0 x1 x2 x3 x4 x5 x6 x7 x10 x11 x12 x13 x14 x15 x20 x21 x22 x23 x24 x25) :
    StableHlo.after (hostOps15 (F := Ideal)) Vv (Proc.devRef .tc main_v200) = Cert.ReferenceIdeal.ReadP.val_main_v306 (F := Ideal) x0 x1 x2 x3 x4 x5 x6 x7 x8 x9 x10 x11 x12 x13 x14 x15 x16 x17 x18 x19 x20 x21 x22 x23 x24 x25 := by
  simp only [hostOps15]
  after_results
  rw [h0, h1]
  rfl

end Cert.KernelIdeal.StretchL3

end
-- ==== Proof.Region10.lean ====
/-
  Region 10: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region10

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point t writes back is block t of the whole product. -/
theorem flushed_eq (c : Dev nD) (t : Fin cfg10.N) :
    (dat10 V c).flushed 2 t = ((cfg10.win 2).blk t).view.read (Elt Ideal) (mmSpec (V c main_v149) (V c main_arg14)) := by
  show (cfg10.win 2).cut (grid10.coords t) ((dat10 V c).after 2 t) = _
  rw [after10_2]
  unfold out10_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg10.win 2).blk t).view.emb (ix2 p q) = ix2 (n0 := 100000) (n1 := 128) ⟨t.val * 10000 + p.val, hR⟩ q := by
    funext a; apply Fin.ext
    match a with
    | ⟨0, _⟩ => show win10_2.index t (0 : Fin 2) * 10000 + 1 * p.val = t.val * 10000 + p.val; omega
    | ⟨1, _⟩ => show win10_2.index t (1 : Fin 2) * 128 + 1 * q.val = q.val; omega
  show _ = mmSpec (V c main_v149) (V c main_arg14) (((cfg10.win 2).blk t).view.emb (ix2 p q))
  rw [hi]
  unfold mmSpec
  show _ = ∑ k : Fin 128, _
  refine Finset.sum_congr rfl fun k _ => ?_
  have h0 : ((cfg10.win 0).blk t).view.emb (ix2 p k) = ix2 (n0 := 100000) (n1 := 128) ⟨t.val * 10000 + p.val, hR⟩ k := by
    funext a; apply Fin.ext
    match a with
    | ⟨0, _⟩ => show win10_0.index t (0 : Fin 2) * 10000 + 1 * p.val = t.val * 10000 + p.val; omega
    | ⟨1, _⟩ => show win10_0.index t (1 : Fin 2) * 128 + 1 * k.val = k.val; omega
  have h1 : ((cfg10.win 1).blk t).view.emb (ix2 k q) = ix2 (n0 := 128) (n1 := 128) k q := by
    funext a; apply Fin.ext
    match a with
    | ⟨0, _⟩ => show win10_1.index t (0 : Fin 2) * 128 + 1 * k.val = k.val; omega
    | ⟨1, _⟩ => show win10_1.index t (1 : Fin 2) * 128 + 1 * q.val = q.val; omega
  have x0 : iblk10 V c 0 t (ix2 p k) = V c main_v149 (ix2 (n0 := 100000) (n1 := 128) ⟨t.val * 10000 + p.val, hR⟩ k) := congrArg (V c main_v149) h0
  have x1 : iblk10 V c 1 t (ix2 k q) = V c main_arg14 (ix2 (n0 := 128) (n1 := 128) k q) := congrArg (V c main_arg14) h1
  rw [x0, x1] <;> rfl

/-- An index of the result lies in point t's block iff each coordinate is in the block's range. -/
theorem mem_blk (t : Fin cfg10.N) (i : S100000x128.Idx) :
    i ∈ ((cfg10.win 2).blk t).view.set ↔ ∀ a : Fin 2, win10_2.index t a * S10000x128.size a ≤ (i a).val ∧ (i a).val < win10_2.index t a * S10000x128.size a + S10000x128.size a := by
  show i ∈ ((View.whole main_v154).slice (win10_2.rect t)).set ↔ _
  rw [View.set_slice_whole, Rect.mem_set_unit]
  exact Iff.rfl

/-- Row r of the result is written by point r / 10000. -/
theorem cover (i : S100000x128.Idx) : ∃ t : Fin cfg10.N, (cfg10.win 2).flush t = true ∧ i ∈ ((cfg10.win 2).blk t).view.set := by
  have h0 : (i 0).val < 100000 := (i 0).isLt
  have h1 : (i 1).val < 128 := (i 1).isLt
  have hN : cfg10.N = 10 := rfl
  refine ⟨⟨(i 0).val / 10000, by omega⟩, flush10_2 _, ?_⟩
  rw [mem_blk]
  have eo := (idx_facts ⟨(i 0).val / 10000, by omega⟩).2.2.2.2
  intro a
  match a with
  | ⟨0, _⟩ => show win10_2.index _ (0 : Fin 2) * 10000 ≤ (i 0).val ∧ (i 0).val < win10_2.index _ (0 : Fin 2) * 10000 + 10000; rw [eo.1]; show (i 0).val / 10000 * 10000 ≤ _ ∧ _ < (i 0).val / 10000 * 10000 + 10000; omega
  | ⟨1, _⟩ => show win10_2.index _ (1 : Fin 2) * 128 ≤ (i 1).val ∧ (i 1).val < win10_2.index _ (1 : Fin 2) * 128 + 128; rw [eo.2]; omega

/-- The result array after the region: the whole product of the arrays the region found. -/
theorem arr_eq (c : Dev nD) : (dat10 V c).arrAt 2 cfg10.N = mmSpec (V c main_v149) (V c main_arg14) :=
  (dat10 V c).arrAt_eq_of_cover 2 _ (fun t _ => flushed_eq V c t) cover

end Cert.KernelIdeal.Region10

end
-- ==== Proof.Region11.lean ====
/-
  Region 11: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region11

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point t writes back is block t of the whole product. -/
theorem flushed_eq (c : Dev nD) (t : Fin cfg11.N) :
    (dat11 V c).flushed 2 t = ((cfg11.win 2).blk t).view.read (Elt Ideal) (mmSpec (V c main_v151) (V c main_arg16)) := by
  show (cfg11.win 2).cut (grid11.coords t) ((dat11 V c).after 2 t) = _
  rw [after11_2]
  unfold out11_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg11.win 2).blk t).view.emb (ix2 p q) = ix2 (n0 := 100000) (n1 := 128) ⟨t.val * 10000 + p.val, hR⟩ q := by
    funext a; apply Fin.ext
    match a with
    | ⟨0, _⟩ => show win11_2.index t (0 : Fin 2) * 10000 + 1 * p.val = t.val * 10000 + p.val; omega
    | ⟨1, _⟩ => show win11_2.index t (1 : Fin 2) * 128 + 1 * q.val = q.val; omega
  show _ = mmSpec (V c main_v151) (V c main_arg16) (((cfg11.win 2).blk t).view.emb (ix2 p q))
  rw [hi]
  unfold mmSpec
  show _ = ∑ k : Fin 128, _
  refine Finset.sum_congr rfl fun k _ => ?_
  have h0 : ((cfg11.win 0).blk t).view.emb (ix2 p k) = ix2 (n0 := 100000) (n1 := 128) ⟨t.val * 10000 + p.val, hR⟩ k := by
    funext a; apply Fin.ext
    match a with
    | ⟨0, _⟩ => show win11_0.index t (0 : Fin 2) * 10000 + 1 * p.val = t.val * 10000 + p.val; omega
    | ⟨1, _⟩ => show win11_0.index t (1 : Fin 2) * 128 + 1 * k.val = k.val; omega
  have h1 : ((cfg11.win 1).blk t).view.emb (ix2 k q) = ix2 (n0 := 128) (n1 := 128) k q := by
    funext a; apply Fin.ext
    match a with
    | ⟨0, _⟩ => show win11_1.index t (0 : Fin 2) * 128 + 1 * k.val = k.val; omega
    | ⟨1, _⟩ => show win11_1.index t (1 : Fin 2) * 128 + 1 * q.val = q.val; omega
  have x0 : iblk11 V c 0 t (ix2 p k) = V c main_v151 (ix2 (n0 := 100000) (n1 := 128) ⟨t.val * 10000 + p.val, hR⟩ k) := congrArg (V c main_v151) h0
  have x1 : iblk11 V c 1 t (ix2 k q) = V c main_arg16 (ix2 (n0 := 128) (n1 := 128) k q) := congrArg (V c main_arg16) h1
  rw [x0, x1] <;> rfl

/-- An index of the result lies in point t's block iff each coordinate is in the block's range. -/
theorem mem_blk (t : Fin cfg11.N) (i : S100000x128.Idx) :
    i ∈ ((cfg11.win 2).blk t).view.set ↔ ∀ a : Fin 2, win11_2.index t a * S10000x128.size a ≤ (i a).val ∧ (i a).val < win11_2.index t a * S10000x128.size a + S10000x128.size a := by
  show i ∈ ((View.whole main_v155).slice (win11_2.rect t)).set ↔ _
  rw [View.set_slice_whole, Rect.mem_set_unit]
  exact Iff.rfl

/-- Row r of the result is written by point r / 10000. -/
theorem cover (i : S100000x128.Idx) : ∃ t : Fin cfg11.N, (cfg11.win 2).flush t = true ∧ i ∈ ((cfg11.win 2).blk t).view.set := by
  have h0 : (i 0).val < 100000 := (i 0).isLt
  have h1 : (i 1).val < 128 := (i 1).isLt
  have hN : cfg11.N = 10 := rfl
  refine ⟨⟨(i 0).val / 10000, by omega⟩, flush11_2 _, ?_⟩
  rw [mem_blk]
  have eo := (idx_facts ⟨(i 0).val / 10000, by omega⟩).2.2.2.2
  intro a
  match a with
  | ⟨0, _⟩ => show win11_2.index _ (0 : Fin 2) * 10000 ≤ (i 0).val ∧ (i 0).val < win11_2.index _ (0 : Fin 2) * 10000 + 10000; rw [eo.1]; show (i 0).val / 10000 * 10000 ≤ _ ∧ _ < (i 0).val / 10000 * 10000 + 10000; omega
  | ⟨1, _⟩ => show win11_2.index _ (1 : Fin 2) * 128 ≤ (i 1).val ∧ (i 1).val < win11_2.index _ (1 : Fin 2) * 128 + 128; rw [eo.2]; omega

/-- The result array after the region: the whole product of the arrays the region found. -/
theorem arr_eq (c : Dev nD) : (dat11 V c).arrAt 2 cfg11.N = mmSpec (V c main_v151) (V c main_arg16) :=
  (dat11 V c).arrAt_eq_of_cover 2 _ (fun t _ => flushed_eq V c t) cover

end Cert.KernelIdeal.Region11

end
-- ==== Proof.Region12.lean ====
/-
  Region 12: the row-blocked product. Grid point t multiplies rows 10000·t … 10000·t + 9999 of the left
  array by the whole weight array and writes those rows of the result; the ten row blocks tile the result, so
  the result array is the whole product, entry (r, q) = Σ_k left(r, k) · weight(k, q).
-/
import proofs.«156020_j6296422056695_1_alg».proof.Proof.Gen.KernelIdeal.Frame
import proofs.«156020_j6296422056695_1_alg».proof.Proof.BlockLaws

noncomputable section

open scoped BigOperators

namespace Cert.KernelIdeal.Region12

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the left and result windows move down one row block per point, the weight
    window stays. -/
theorem idx_facts : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- What point t writes back is block t of the whole product. -/
theorem flushed_eq (c : Dev nD) (t : Fin cfg12.N) :
    (dat12 V c).flushed 2 t = ((cfg12.win 2).blk t).view.read (Elt Ideal) (mmSpec (V c main_v153) (V c main_arg18)) := by
  show (cfg12.win 2).cut (grid12.coords t) ((dat12 V c).after 2 t) = _
  rw [after12_2]
  unfold out12_2
  rw [View.canon_unit_zero zero_off]
  simp only [View.ld_unit_zero (S := S10000x128) zero_off, View.ld_unit_zero (S := S128x128) zero_off]
  obtain ⟨e0, e1, e2, e3, e4, e5⟩ := idx_facts t
  funext j
  obtain ⟨p, q, rfl⟩ : ∃ (p : Fin 10000) (q : Fin 128), j = ix2 p q := ⟨j 0, j 1, eq_ix2 j⟩
  have ht : t.val < 10 := t.isLt
  have hp : p.val < 10000 := p.isLt
  have hq : q.val < 128 := q.isLt
  have hR : t.val * 10000 + p.val < 100000 := by omega
  refine (mm_pay _ _ p q).trans ?_
  have hi : ((cfg12.win 2).blk t).view.emb (ix2 p q) = ix2 (n0 := 100000) (n1 := 128) ⟨t.val * 10000 + p.val, hR⟩ q := by
    funext a; apply Fin.ext
    match a with
    | ⟨0, _⟩ => show win12_2.index t (0 : Fin 2) * 10000 + 1 * p.val = t.val * 10000 + p.val; omega
    | ⟨1, _⟩ => show win12_2.index t (1 : Fin 2) * 128 + 1 * q.val = q.val; omega
  show _ = mmSpec (V c main_v153) (V c main_arg18) (((cfg12.win 2).blk t).view.emb (ix2 p q))
  rw [hi]
  unfold mmSpec
  show _ = ∑ k : Fin 128, _
  refine Finset.sum_congr rfl fun k _ => ?_
  have h0 : ((cfg12.win 0).blk t).view.emb (ix2 p k) = ix2 (n0 := 100000) (n1 := 128) ⟨t.val * 10000 + p.val, hR⟩ k := by
    funext a; apply Fin.ext
    match a with
    | ⟨0, _⟩ => show win12_0.index t (0 : Fin 2) * 10000 + 1 * p.val = t.val * 10000 + p.val; omega
    | ⟨1, _⟩ => show win12_0.index t (1 : Fin 2) * 128 + 1 * k.val = k.val; omega
  have h1 : ((cfg12.win 1).blk t).view.emb (ix2 k q) = ix2 (n0 := 128) (n1 := 128) k q := by
    funext a; apply Fin.ext
    match a with
    | ⟨0, _⟩ => show win12_1.index t (0 : Fin 2) * 128 + 1 * k.val = k.val; omega
    | ⟨1, _⟩ => show win12_1.index t (1 : Fin 2) * 128 + 1 * q.val = q.val; omega
  have x0 : iblk12 V c 0 t (ix2 p k) = V c main_v153 (ix2 (n0 := 100000) (n1 := 128) ⟨t.val * 10000 + p.val, hR⟩ k) := congrArg (V c main_v153) h0
  have x1 : iblk12 V c 1 t (ix2 k q) = V c main_arg18 (ix2 (n0 := 128) (n1 := 128) k q) := congrArg (V c main_arg18) h1
  rw [x0, x1] <;> rfl

/-- An index of the result lies in point t's block iff each coordinate is in the block's range. -/
theorem mem_blk (t : Fin cfg12.N) (i : S100000x128.Idx) :
    i ∈ ((cfg12.win 2).blk t).view.set ↔ ∀ a : Fin 2, win12_2.index t a * S10000x128.size a ≤ (i a).val ∧ (i a).val < win12_2.index t a * S10000x128.size a + S10000x128.size a := by
  show i ∈ ((View.whole main_v156).slice (win12_2.rect t)).set ↔ _
  rw [View.set_slice_whole, Rect.mem_set_unit]
  exact Iff.rfl

/-- Row r of the result is written by point r / 10000. -/
theorem cover (i : S100000x128.Idx) : ∃ t : Fin cfg12.N, (cfg12.win 2).flush t = true ∧ i ∈ ((cfg12.win 2).blk t).view.set := by
  have h0 : (i 0).val < 100000 := (i 0).isLt
  have h1 : (i 1).val < 128 := (i 1).isLt
  have hN : cfg12.N = 10 := rfl
  refine ⟨⟨(i 0).val / 10000, by omega⟩, flush12_2 _, ?_⟩
  rw [mem_blk]
  have eo := (idx_facts ⟨(i 0).val / 10000, by omega⟩).2.2.2.2
  intro a
  match a with
  | ⟨0, _⟩ => show win12_2.index _ (0 : Fin 2) * 10000 ≤ (i 0).val ∧ (i 0).val < win12_2.index _ (0 : Fin 2) * 10000 + 10000; rw [eo.1]; show (i 0).val / 10000 * 10000 ≤ _ ∧ _ < (i 0).val / 10000 * 10000 + 10000; omega
  | ⟨1, _⟩ => show win12_2.index _ (1 : Fin 2) * 128 ≤ (i 1).val ∧ (i 1).val < win12_2.index _ (1 : Fin 2) * 128 + 128; rw [eo.2]; omega

/-- The result array after the region: the whole product of the arrays the region found. -/
theorem arr_eq (c : Dev nD) : (dat12 V c).arrAt 2 cfg12.N = mmSpec (V c main_v153) (V c main_arg18) :=
  (dat12 V c).arrAt_eq_of_cover 2 _ (fun t _ => flushed_eq V c t) cover

end Cert.KernelIdeal.Region12

end
-- ==== Proof.Region13.lean ====
/-
  Region 13: one message array plus the bias row. Grid point t handles rows
  5000·t … 5000·t + 4999; the twenty row blocks tile the result, so the result array is the whole-array
  function, entry (r, q) = message(r, q) + bias(q).
-/
import proofs.«156020_j6296422056695_1_alg».proof.Proof.Gen.KernelIdeal.Frame
import proofs.«156020_j6296422056695_1_alg».proof.Proof.BlockLaws

noncomputable section

open scoped BigOperators

namespace Cert.KernelIdeal.Region13

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the message and result windows move down one row block per point, the bias
    window stays. -/
theorem idx_facts : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- What point t writes back is block t of the whole-array function. -/
theorem flushed_eq (c : Dev nD) (t : Fin cfg13.N) :
    (dat13 V c).flushed 2 t = ((cfg13.win 2).blk t).view.read (Elt Ideal) (c1nSpec (V c main_v188) (V c main_v193)) := by
  show (cfg13.win 2).cut (grid13.coords t) ((dat13 V c).after 2 t) = _
  rw [after13_2]
  unfold out13_2
  rw [View.canon_unit_zero zero_off]
  simp only [View.ld_unit_zero (S := S5000x128) zero_off, View.ld_unit_zero (S := S1x128) zero_off]
  obtain ⟨e0, e1, e2, e3, e4, e5⟩ := idx_facts t
  funext j
  obtain ⟨p, q, rfl⟩ : ∃ (p : Fin 5000) (q : Fin 128), j = ix2 p q := ⟨j 0, j 1, eq_ix2 j⟩
  have ht : t.val < 20 := t.isLt
  have hp : p.val < 5000 := p.isLt
  have hq : q.val < 128 := q.isLt
  have hR : t.val * 5000 + p.val < 100000 := by omega
  refine (c1n_pay _ _ p q).trans ?_
  have hi : ((cfg13.win 2).blk t).view.emb (ix2 p q) = ix2 (n0 := 100000) (n1 := 128) ⟨t.val * 5000 + p.val, hR⟩ q := by
    funext a; apply Fin.ext
    match a with
    | ⟨0, _⟩ => show win13_2.index t (0 : Fin 2) * 5000 + 1 * p.val = t.val * 5000 + p.val; omega
    | ⟨1, _⟩ => show win13_2.index t (1 : Fin 2) * 128 + 1 * q.val = q.val; omega
  have h0 : ((cfg13.win 0).blk t).view.emb (ix2 p q) = ix2 (n0 := 100000) (n1 := 128) ⟨t.val * 5000 + p.val, hR⟩ q := by
    funext a; apply Fin.ext
    match a with
    | ⟨0, _⟩ => show win13_0.index t (0 : Fin 2) * 5000 + 1 * p.val = t.val * 5000 + p.val; omega
    | ⟨1, _⟩ => show win13_0.index t (1 : Fin 2) * 128 + 1 * q.val = q.val; omega
  have h1 : ((cfg13.win 1).blk t).view.emb (ix2 (0 : Fin 1) q) = ix2 (n0 := 1) (n1 := 128) (0 : Fin 1) q := by
    funext a; apply Fin.ext
    match a with
    | ⟨0, _⟩ => show win13_1.index t (0 : Fin 2) * 1 + 1 * (0 : Fin 1).val = (0 : Fin 1).val; omega
    | ⟨1, _⟩ => show win13_1.index t (1 : Fin 2) * 128 + 1 * q.val = q.val; omega
  have x0 : iblk13 V c 0 t (ix2 p q) = V c main_v188 (ix2 (n0 := 100000) (n1 := 128) ⟨t.val * 5000 + p.val, hR⟩ q) := congrArg (V c main_v188) h0
  have x1 : iblk13 V c 1 t (ix2 (0 : Fin 1) q) = V c main_v193 (ix2 (n0 := 1) (n1 := 128) (0 : Fin 1) q) := congrArg (V c main_v193) h1
  rw [x0, x1]
  show _ = c1nSpec (V c main_v188) (V c main_v193) (((cfg13.win 2).blk t).view.emb (ix2 p q))
  rw [hi] <;> rfl

/-- An index of the result lies in point t's block iff each coordinate is in the block's range. -/
theorem mem_blk (t : Fin cfg13.N) (i : S100000x128.Idx) :
    i ∈ ((cfg13.win 2).blk t).view.set ↔ ∀ a : Fin 2, win13_2.index t a * S5000x128.size a ≤ (i a).val ∧ (i a).val < win13_2.index t a * S5000x128.size a + S5000x128.size a := by
  show i ∈ ((View.whole main_v196).slice (win13_2.rect t)).set ↔ _
  rw [View.set_slice_whole, Rect.mem_set_unit]
  exact Iff.rfl

/-- Row r of the result is written by point r / 5000. -/
theorem cover (i : S100000x128.Idx) : ∃ t : Fin cfg13.N, (cfg13.win 2).flush t = true ∧ i ∈ ((cfg13.win 2).blk t).view.set := by
  have h0 : (i 0).val < 100000 := (i 0).isLt
  have h1 : (i 1).val < 128 := (i 1).isLt
  have hN : cfg13.N = 20 := rfl
  refine ⟨⟨(i 0).val / 5000, by omega⟩, flush13_2 _, ?_⟩
  rw [mem_blk]
  have eo := (idx_facts ⟨(i 0).val / 5000, by omega⟩).2.2.2.2
  intro a
  match a with
  | ⟨0, _⟩ => show win13_2.index _ (0 : Fin 2) * 5000 ≤ (i 0).val ∧ (i 0).val < win13_2.index _ (0 : Fin 2) * 5000 + 5000; rw [eo.1]; show (i 0).val / 5000 * 5000 ≤ _ ∧ _ < (i 0).val / 5000 * 5000 + 5000; omega
  | ⟨1, _⟩ => show win13_2.index _ (1 : Fin 2) * 128 ≤ (i 1).val ∧ (i 1).val < win13_2.index _ (1 : Fin 2) * 128 + 128; rw [eo.2]; omega

/-- The result array after the region. -/
theorem arr_eq (c : Dev nD) : (dat13 V c).arrAt 2 cfg13.N = c1nSpec (V c main_v188) (V c main_v193) :=
  (dat13 V c).arrAt_eq_of_cover 2 _ (fun t _ => flushed_eq V c t) cover

end Cert.KernelIdeal.Region13

end
-- ==== Proof.Region14.lean ====
/-
  Region 14: two message arrays added, plus the bias row. Grid point t handles
  rows 5000·t … 5000·t + 4999; the twenty row blocks tile the result, so the result array is the whole-array
  function, entry (r, q) = (m(r, q) + n(r, q)) + bias(q).
-/
import proofs.«156020_j6296422056695_1_alg».proof.Proof.Gen.KernelIdeal.Frame
import proofs.«156020_j6296422056695_1_alg».proof.Proof.BlockLaws

noncomputable section

open scoped BigOperators

namespace Cert.KernelIdeal.Region14

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks

variable (V : (c : Dev nD) → (b : Ref sig .tc) → Buf (Elt Ideal) ((c : Thread nD τ).loc b))

theorem zero_off : (![0, 0] : Fin 2 → Nat) = fun _ => 0 := funext fun a => by fin_cases a <;> rfl

/-- The index maps over the grid: the two message windows and the result window move down one row block per
    point, the bias window stays. -/
theorem idx_facts : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- What point t writes back is block t of the whole-array function. -/
theorem flushed_eq (c : Dev nD) (t : Fin cfg14.N) :
    (dat14 V c).flushed 3 t = ((cfg14.win 3).blk t).view.read (Elt Ideal) (c2nSpec (V c main_v190) (V c main_v192) (V c main_v195)) := by
  show (cfg14.win 3).cut (grid14.coords t) ((dat14 V c).after 3 t) = _
  rw [after14_3]
  unfold out14_3
  rw [View.canon_unit_zero zero_off]
  simp only [View.ld_unit_zero (S := S5000x128) zero_off, View.ld_unit_zero (S := S1x128) zero_off]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have ht : t.val < 20 := t.isLt
  have hp : p.val < 5000 := p.isLt
  have hq : q.val < 128 := q.isLt
  have hR : t.val * 5000 + p.val < 100000 := by omega
  refine (c2n_pay _ _ _ p q).trans ?_
  have hi : ((cfg14.win 3).blk t).view.emb (ix2 p q) = ix2 (n0 := 100000) (n1 := 128) ⟨t.val * 5000 + p.val, hR⟩ q := by
    funext a; apply Fin.ext
    match a with
    | ⟨0, _⟩ => show win14_3.index t (0 : Fin 2) * 5000 + 1 * p.val = t.val * 5000 + p.val; omega
    | ⟨1, _⟩ => show win14_3.index t (1 : Fin 2) * 128 + 1 * q.val = q.val; omega
  have h0 : ((cfg14.win 0).blk t).view.emb (ix2 p q) = ix2 (n0 := 100000) (n1 := 128) ⟨t.val * 5000 + p.val, hR⟩ q := by
    funext a; apply Fin.ext
    match a with
    | ⟨0, _⟩ => show win14_0.index t (0 : Fin 2) * 5000 + 1 * p.val = t.val * 5000 + p.val; omega
    | ⟨1, _⟩ => show win14_0.index t (1 : Fin 2) * 128 + 1 * q.val = q.val; omega
  have h1 : ((cfg14.win 1).blk t).view.emb (ix2 p q) = ix2 (n0 := 100000) (n1 := 128) ⟨t.val * 5000 + p.val, hR⟩ q := by
    funext a; apply Fin.ext
    match a with
    | ⟨0, _⟩ => show win14_1.index t (0 : Fin 2) * 5000 + 1 * p.val = t.val * 5000 + p.val; omega
    | ⟨1, _⟩ => show win14_1.index t (1 : Fin 2) * 128 + 1 * q.val = q.val; omega
  have h2 : ((cfg14.win 2).blk t).view.emb (ix2 (0 : Fin 1) q) = ix2 (n0 := 1) (n1 := 128) (0 : Fin 1) q := by
    funext a; apply Fin.ext
    match a with
    | ⟨0, _⟩ => show win14_2.index t (0 : Fin 2) * 1 + 1 * (0 : Fin 1).val = (0 : Fin 1).val; omega
    | ⟨1, _⟩ => show win14_2.index t (1 : Fin 2) * 128 + 1 * q.val = q.val; omega
  have x0 : iblk14 V c 0 t (ix2 p q) = V c main_v190 (ix2 (n0 := 100000) (n1 := 128) ⟨t.val * 5000 + p.val, hR⟩ q) := congrArg (V c main_v190) h0
  have x1 : iblk14 V c 1 t (ix2 p q) = V c main_v192 (ix2 (n0 := 100000) (n1 := 128) ⟨t.val * 5000 + p.val, hR⟩ q) := congrArg (V c main_v192) h1
  have x2 : iblk14 V c 2 t (ix2 (0 : Fin 1) q) = V c main_v195 (ix2 (n0 := 1) (n1 := 128) (0 : Fin 1) q) := congrArg (V c main_v195) h2
  rw [x0, x1, x2]
  show _ = c2nSpec (V c main_v190) (V c main_v192) (V c main_v195) (((cfg14.win 3).blk t).view.emb (ix2 p q))
  rw [hi] <;> rfl

/-- An index of the result lies in point t's block iff each coordinate is in the block's range. -/
theorem mem_blk (t : Fin cfg14.N) (i : S100000x128.Idx) :
    i ∈ ((cfg14.win 3).blk t).view.set ↔ ∀ a : Fin 2, win14_3.index t a * S5000x128.size a ≤ (i a).val ∧ (i a).val < win14_3.index t a * S5000x128.size a + S5000x128.size a := by
  show i ∈ ((View.whole main_v197).slice (win14_3.rect t)).set ↔ _
  rw [View.set_slice_whole, Rect.mem_set_unit]
  exact Iff.rfl

/-- Row r of the result is written by point r / 5000. -/
theorem cover (i : S100000x128.Idx) : ∃ t : Fin cfg14.N, (cfg14.win 3).flush t = true ∧ i ∈ ((cfg14.win 3).blk t).view.set := by
  have h0 : (i 0).val < 100000 := (i 0).isLt
  have h1 : (i 1).val < 128 := (i 1).isLt
  have hN : cfg14.N = 20 := rfl
  refine ⟨⟨(i 0).val / 5000, by omega⟩, flush14_3 _, ?_⟩
  rw [mem_blk]
  have eo := (idx_facts ⟨(i 0).val / 5000, by omega⟩).2.2.2.2.2.2
  intro a
  match a with
  | ⟨0, _⟩ => show win14_3.index _ (0 : Fin 2) * 5000 ≤ (i 0).val ∧ (i 0).val < win14_3.index _ (0 : Fin 2) * 5000 + 5000; rw [eo.1]; show (i 0).val / 5000 * 5000 ≤ _ ∧ _ < (i 0).val / 5000 * 5000 + 5000; omega
  | ⟨1, _⟩ => show win14_3.index _ (1 : Fin 2) * 128 ≤ (i 1).val ∧ (i 1).val < win14_3.index _ (1 : Fin 2) * 128 + 128; rw [eo.2]; omega

/-- The result array after the region. -/
theorem arr_eq (c : Dev nD) : (dat14 V c).arrAt 3 cfg14.N = c2nSpec (V c main_v190) (V c main_v192) (V c main_v195) :=
  (dat14 V c).arrAt_eq_of_cover 3 _ (fun t _ => flushed_eq V c t) cover

end Cert.KernelIdeal.Region14

end
-- ==== Proof.Chain3.lean ====
/-
  Layer 3 of the kernel program, buffer by buffer, matched with the reference's stages, from the layer's three
  left operands (hypotheses: the previous layer's facts) and the six normalisers.
-/
import proofs.«156020_j6296422056695_1_alg».proof.Proof.Args
import proofs.«156020_j6296422056695_1_alg».proof.Proof.StretchL3
import proofs.«156020_j6296422056695_1_alg».proof.Proof.Region10
import proofs.«156020_j6296422056695_1_alg».proof.Proof.Region11
import proofs.«156020_j6296422056695_1_alg».proof.Proof.Region12
import proofs.«156020_j6296422056695_1_alg».proof.Proof.Region13
import proofs.«156020_j6296422056695_1_alg».proof.Proof.Region14

noncomputable section

open scoped BigOperators

namespace Cert.KernelIdeal.Chain3

open Idealize.ShloMosaic Idealize.ShloMosaic.TcCoe Idealize.ShloMosaic.StableHlo Idealize.SL.Sem
open Cert.KernelIdeal Cert.KernelIdeal.Gen Cert.KernelIdeal.Blocks Cert.KernelIdeal.Track

variable (m : (ℓ : Loc nD τ sig) → Buf (Elt Ideal) ℓ) (ρ : Dev nD → PrngReg) (c : Dev nD)

/-- The reference recomputes this normaliser in each layer: the same stage under another name. -/
theorem same_val_main_v231 (x : (⟨Cert.ReferenceIdeal.S1600000, .i32⟩ : BufTy).Contents (Elt Ideal)) : Cert.ReferenceIdeal.ReadP.val_main_v27 (F := Ideal) x = Cert.ReferenceIdeal.ReadP.val_main_v231 (F := Ideal) x := rfl

/-- The reference recomputes this normaliser in each layer: the same stage under another name. -/
theorem same_val_main_v264 (x : (⟨Cert.ReferenceIdeal.S1600000, .i32⟩ : BufTy).Contents (Elt Ideal)) : Cert.ReferenceIdeal.ReadP.val_main_v60 (F := Ideal) x = Cert.ReferenceIdeal.ReadP.val_main_v264 (F := Ideal) x := rfl

/-- The reference recomputes this normaliser in each layer: the same stage under another name. -/
theorem same_val_main_v297 (x : (⟨Cert.ReferenceIdeal.S1600000, .i32⟩ : BufTy).Contents (Elt Ideal)) : Cert.ReferenceIdeal.ReadP.val_main_v93 (F := Ideal) x = Cert.ReferenceIdeal.ReadP.val_main_v297 (F := Ideal) x := rfl

/-- Product 1: the region's result array is the reference's product stage. -/
theorem h1
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W28 m ρ c (Proc.devRef .tc main_v154) = Cert.ReferenceIdeal.ReadP.val_main_v218 (F := Ideal) (a0 m c) (a1 m c) (a2 m c) (a3 m c) (a4 m c) (a5 m c) (a6 m c) (a7 m c) (a10 m c) (a11 m c) (a12 m c) (a13 m c) (a14 m c) (a20 m c) (a21 m c) (a22 m c) (a23 m c) (a24 m c) (a25 m c) := by
  refine (W28_arr m ρ c 2).trans ?_
  rw [Region10.arr_eq]
  show mmSpec (W27 m ρ c (Proc.devRef .tc main_v149)) (W27 m ρ c (Proc.devRef .tc main_arg14)) = _
  rw [show W27 m ρ c (Proc.devRef .tc main_v149) = _ from (rfl.trans hx1),
    show W27 m ρ c (Proc.devRef .tc main_arg14) = a14 m c from (((Keep.keep27 m ρ c main_arg14 (by decide)).trans ((W26_of_ne m ρ c main_arg14 (by decide)).trans ((W25_of_ne m ρ c main_arg14 (by decide)).trans ((Keep.keep24 m ρ c main_arg14 (by decide)).trans ((W23_of_ne m ρ c main_arg14 (by decide)).trans ((W22_of_ne m ρ c main_arg14 (by decide)).trans ((W21_of_ne m ρ c main_arg14 (by decide)).trans ((Keep.keep20 m ρ c main_arg14 (by decide)).trans ((W19_of_ne m ρ c main_arg14 (by decide)).trans ((W18_of_ne m ρ c main_arg14 (by decide)).trans ((Keep.keep17 m ρ c main_arg14 (by decide)).trans ((W16_of_ne m ρ c main_arg14 (by decide)).trans ((W15_of_ne m ρ c main_arg14 (by decide)).trans ((W14_of_ne m ρ c main_arg14 (by decide)).trans ((Keep.keep13 m ρ c main_arg14 (by decide)).trans ((Keep.keep12 m ρ c main_arg14 (by decide)).trans ((Keep.keep11 m ρ c main_arg14 (by decide)).trans ((Keep.keep10 m ρ c main_arg14 (by decide)).trans ((Keep.keep9 m ρ c main_arg14 (by decide)).trans ((Keep.keep8 m ρ c main_arg14 (by decide)).trans ((Keep.keep7 m ρ c main_arg14 (by decide)).trans ((Keep.keep6 m ρ c main_arg14 (by decide)).trans ((Keep.keep5 m ρ c main_arg14 (by decide)).trans ((Keep.keep4 m ρ c main_arg14 (by decide)).trans ((Keep.keep3 m ρ c main_arg14 (by decide)).trans ((Keep.keep2 m ρ c main_arg14 (by decide)).trans (Keep.keep1 m ρ c main_arg14 (by decide)))))))))))))))))))))))))))).trans rfl)]
  exact (Cert.RefLaws.dot_eq _ _).symm

/-- Product 2: the region's result array is the reference's product stage. -/
theorem h2
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W29 m ρ c (Proc.devRef .tc main_v155) = Cert.ReferenceIdeal.ReadP.val_main_v251 (F := Ideal) (a0 m c) (a1 m c) (a4 m c) (a5 m c) (a6 m c) (a7 m c) (a8 m c) (a9 m c) (a16 m c) (a20 m c) (a21 m c) (a22 m c) (a23 m c) (a24 m c) (a25 m c) := by
  refine (W29_arr m ρ c 2).trans ?_
  rw [Region11.arr_eq]
  show mmSpec (W28 m ρ c (Proc.devRef .tc main_v151)) (W28 m ρ c (Proc.devRef .tc main_arg16)) = _
  rw [show W28 m ρ c (Proc.devRef .tc main_v151) = _ from ((W28_of_ne m ρ c main_v151 (by decide)).trans hx2),
    show W28 m ρ c (Proc.devRef .tc main_arg16) = a16 m c from (((W28_of_ne m ρ c main_arg16 (by decide)).trans ((Keep.keep27 m ρ c main_arg16 (by decide)).trans ((W26_of_ne m ρ c main_arg16 (by decide)).trans ((W25_of_ne m ρ c main_arg16 (by decide)).trans ((Keep.keep24 m ρ c main_arg16 (by decide)).trans ((W23_of_ne m ρ c main_arg16 (by decide)).trans ((W22_of_ne m ρ c main_arg16 (by decide)).trans ((W21_of_ne m ρ c main_arg16 (by decide)).trans ((Keep.keep20 m ρ c main_arg16 (by decide)).trans ((W19_of_ne m ρ c main_arg16 (by decide)).trans ((W18_of_ne m ρ c main_arg16 (by decide)).trans ((Keep.keep17 m ρ c main_arg16 (by decide)).trans ((W16_of_ne m ρ c main_arg16 (by decide)).trans ((W15_of_ne m ρ c main_arg16 (by decide)).trans ((W14_of_ne m ρ c main_arg16 (by decide)).trans ((Keep.keep13 m ρ c main_arg16 (by decide)).trans ((Keep.keep12 m ρ c main_arg16 (by decide)).trans ((Keep.keep11 m ρ c main_arg16 (by decide)).trans ((Keep.keep10 m ρ c main_arg16 (by decide)).trans ((Keep.keep9 m ρ c main_arg16 (by decide)).trans ((Keep.keep8 m ρ c main_arg16 (by decide)).trans ((Keep.keep7 m ρ c main_arg16 (by decide)).trans ((Keep.keep6 m ρ c main_arg16 (by decide)).trans ((Keep.keep5 m ρ c main_arg16 (by decide)).trans ((Keep.keep4 m ρ c main_arg16 (by decide)).trans ((Keep.keep3 m ρ c main_arg16 (by decide)).trans ((Keep.keep2 m ρ c main_arg16 (by decide)).trans (Keep.keep1 m ρ c main_arg16 (by decide))))))))))))))))))))))))))))).trans rfl)]
  exact (Cert.RefLaws.dot_eq _ _).symm

/-- Product 3: the region's result array is the reference's product stage. -/
theorem h3
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W30 m ρ c (Proc.devRef .tc main_v156) = Cert.ReferenceIdeal.ReadP.val_main_v284 (F := Ideal) (a0 m c) (a1 m c) (a2 m c) (a3 m c) (a4 m c) (a5 m c) (a6 m c) (a7 m c) (a10 m c) (a11 m c) (a12 m c) (a13 m c) (a18 m c) (a20 m c) (a21 m c) (a22 m c) (a23 m c) (a24 m c) (a25 m c) := by
  refine (W30_arr m ρ c 2).trans ?_
  rw [Region12.arr_eq]
  show mmSpec (W29 m ρ c (Proc.devRef .tc main_v153)) (W29 m ρ c (Proc.devRef .tc main_arg18)) = _
  rw [show W29 m ρ c (Proc.devRef .tc main_v153) = _ from (((W29_of_ne m ρ c main_v153 (by decide)).trans (W28_of_ne m ρ c main_v153 (by decide))).trans hx3),
    show W29 m ρ c (Proc.devRef .tc main_arg18) = a18 m c from (((W29_of_ne m ρ c main_arg18 (by decide)).trans ((W28_of_ne m ρ c main_arg18 (by decide)).trans ((Keep.keep27 m ρ c main_arg18 (by decide)).trans ((W26_of_ne m ρ c main_arg18 (by decide)).trans ((W25_of_ne m ρ c main_arg18 (by decide)).trans ((Keep.keep24 m ρ c main_arg18 (by decide)).trans ((W23_of_ne m ρ c main_arg18 (by decide)).trans ((W22_of_ne m ρ c main_arg18 (by decide)).trans ((W21_of_ne m ρ c main_arg18 (by decide)).trans ((Keep.keep20 m ρ c main_arg18 (by decide)).trans ((W19_of_ne m ρ c main_arg18 (by decide)).trans ((W18_of_ne m ρ c main_arg18 (by decide)).trans ((Keep.keep17 m ρ c main_arg18 (by decide)).trans ((W16_of_ne m ρ c main_arg18 (by decide)).trans ((W15_of_ne m ρ c main_arg18 (by decide)).trans ((W14_of_ne m ρ c main_arg18 (by decide)).trans ((Keep.keep13 m ρ c main_arg18 (by decide)).trans ((Keep.keep12 m ρ c main_arg18 (by decide)).trans ((Keep.keep11 m ρ c main_arg18 (by decide)).trans ((Keep.keep10 m ρ c main_arg18 (by decide)).trans ((Keep.keep9 m ρ c main_arg18 (by decide)).trans ((Keep.keep8 m ρ c main_arg18 (by decide)).trans ((Keep.keep7 m ρ c main_arg18 (by decide)).trans ((Keep.keep6 m ρ c main_arg18 (by decide)).trans ((Keep.keep5 m ρ c main_arg18 (by decide)).trans ((Keep.keep4 m ρ c main_arg18 (by decide)).trans ((Keep.keep3 m ρ c main_arg18 (by decide)).trans ((Keep.keep2 m ρ c main_arg18 (by decide)).trans (Keep.keep1 m ρ c main_arg18 (by decide)))))))))))))))))))))))))))))).trans rfl)]
  exact (Cert.RefLaws.dot_eq _ _).symm

/-- Message 1. -/
theorem ms1
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W31 m ρ c (Proc.devRef .tc main_v188) = Cert.ReferenceIdeal.ReadP.val_main_v233 (F := Ideal) (a0 m c) (a1 m c) (a2 m c) (a3 m c) (a4 m c) (a5 m c) (a6 m c) (a7 m c) (a10 m c) (a11 m c) (a12 m c) (a13 m c) (a14 m c) (a20 m c) (a21 m c) (a22 m c) (a23 m c) (a24 m c) (a25 m c) :=
  StretchL3.ms1 (W30 m ρ c) (a0 m c) (a1 m c) (a2 m c) (a3 m c) (a4 m c) (a5 m c) (a6 m c) (a7 m c) (a10 m c) (a11 m c) (a12 m c) (a13 m c) (a14 m c) (a20 m c) (a21 m c) (a22 m c) (a23 m c) (a24 m c) (a25 m c)
    (((W30_of_ne m ρ c main_v154 (by decide)).trans (W29_of_ne m ρ c main_v154 (by decide))).trans (h1 m ρ c hx1 hx2 hx3 hi0 hi1 hi2 hi3 hi4 hi5))
    (((W30_of_ne m ρ c main_arg20 (by decide)).trans ((W29_of_ne m ρ c main_arg20 (by decide)).trans ((W28_of_ne m ρ c main_arg20 (by decide)).trans ((Keep.keep27 m ρ c main_arg20 (by decide)).trans ((W26_of_ne m ρ c main_arg20 (by decide)).trans ((W25_of_ne m ρ c main_arg20 (by decide)).trans ((Keep.keep24 m ρ c main_arg20 (by decide)).trans ((W23_of_ne m ρ c main_arg20 (by decide)).trans ((W22_of_ne m ρ c main_arg20 (by decide)).trans ((W21_of_ne m ρ c main_arg20 (by decide)).trans ((Keep.keep20 m ρ c main_arg20 (by decide)).trans ((W19_of_ne m ρ c main_arg20 (by decide)).trans ((W18_of_ne m ρ c main_arg20 (by decide)).trans ((Keep.keep17 m ρ c main_arg20 (by decide)).trans ((W16_of_ne m ρ c main_arg20 (by decide)).trans ((W15_of_ne m ρ c main_arg20 (by decide)).trans ((W14_of_ne m ρ c main_arg20 (by decide)).trans ((Keep.keep13 m ρ c main_arg20 (by decide)).trans ((Keep.keep12 m ρ c main_arg20 (by decide)).trans ((Keep.keep11 m ρ c main_arg20 (by decide)).trans ((Keep.keep10 m ρ c main_arg20 (by decide)).trans ((Keep.keep9 m ρ c main_arg20 (by decide)).trans ((Keep.keep8 m ρ c main_arg20 (by decide)).trans ((Keep.keep7 m ρ c main_arg20 (by decide)).trans ((Keep.keep6 m ρ c main_arg20 (by decide)).trans ((Keep.keep5 m ρ c main_arg20 (by decide)).trans ((Keep.keep4 m ρ c main_arg20 (by decide)).trans ((Keep.keep3 m ρ c main_arg20 (by decide)).trans ((Keep.keep2 m ρ c main_arg20 (by decide)).trans (Keep.keep1 m ρ c main_arg20 (by decide))))))))))))))))))))))))))))))).trans rfl)
    (((W30_of_ne m ρ c main_arg21 (by decide)).trans ((W29_of_ne m ρ c main_arg21 (by decide)).trans ((W28_of_ne m ρ c main_arg21 (by decide)).trans ((Keep.keep27 m ρ c main_arg21 (by decide)).trans ((W26_of_ne m ρ c main_arg21 (by decide)).trans ((W25_of_ne m ρ c main_arg21 (by decide)).trans ((Keep.keep24 m ρ c main_arg21 (by decide)).trans ((W23_of_ne m ρ c main_arg21 (by decide)).trans ((W22_of_ne m ρ c main_arg21 (by decide)).trans ((W21_of_ne m ρ c main_arg21 (by decide)).trans ((Keep.keep20 m ρ c main_arg21 (by decide)).trans ((W19_of_ne m ρ c main_arg21 (by decide)).trans ((W18_of_ne m ρ c main_arg21 (by decide)).trans ((Keep.keep17 m ρ c main_arg21 (by decide)).trans ((W16_of_ne m ρ c main_arg21 (by decide)).trans ((W15_of_ne m ρ c main_arg21 (by decide)).trans ((W14_of_ne m ρ c main_arg21 (by decide)).trans ((Keep.keep13 m ρ c main_arg21 (by decide)).trans ((Keep.keep12 m ρ c main_arg21 (by decide)).trans ((Keep.keep11 m ρ c main_arg21 (by decide)).trans ((Keep.keep10 m ρ c main_arg21 (by decide)).trans ((Keep.keep9 m ρ c main_arg21 (by decide)).trans ((Keep.keep8 m ρ c main_arg21 (by decide)).trans ((Keep.keep7 m ρ c main_arg21 (by decide)).trans ((Keep.keep6 m ρ c main_arg21 (by decide)).trans ((Keep.keep5 m ρ c main_arg21 (by decide)).trans ((Keep.keep4 m ρ c main_arg21 (by decide)).trans ((Keep.keep3 m ρ c main_arg21 (by decide)).trans ((Keep.keep2 m ρ c main_arg21 (by decide)).trans (Keep.keep1 m ρ c main_arg21 (by decide))))))))))))))))))))))))))))))).trans rfl)
    ((((W30_of_ne m ρ c main_v15 (by decide)).trans ((W29_of_ne m ρ c main_v15 (by decide)).trans ((W28_of_ne m ρ c main_v15 (by decide)).trans ((Keep.keep27 m ρ c main_v15 (by decide)).trans ((W26_of_ne m ρ c main_v15 (by decide)).trans ((W25_of_ne m ρ c main_v15 (by decide)).trans ((Keep.keep24 m ρ c main_v15 (by decide)).trans ((W23_of_ne m ρ c main_v15 (by decide)).trans ((W22_of_ne m ρ c main_v15 (by decide)).trans ((W21_of_ne m ρ c main_v15 (by decide)).trans ((Keep.keep20 m ρ c main_v15 (by decide)).trans ((W19_of_ne m ρ c main_v15 (by decide)).trans ((W18_of_ne m ρ c main_v15 (by decide)).trans ((Keep.keep17 m ρ c main_v15 (by decide)).trans ((W16_of_ne m ρ c main_v15 (by decide)).trans ((W15_of_ne m ρ c main_v15 (by decide)).trans ((W14_of_ne m ρ c main_v15 (by decide)).trans ((Keep.keep13 m ρ c main_v15 (by decide)).trans ((Keep.keep12 m ρ c main_v15 (by decide)).trans ((Keep.keep11 m ρ c main_v15 (by decide)).trans ((Keep.keep10 m ρ c main_v15 (by decide)).trans ((Keep.keep9 m ρ c main_v15 (by decide)).trans ((Keep.keep8 m ρ c main_v15 (by decide)).trans ((Keep.keep7 m ρ c main_v15 (by decide)).trans (Keep.keep6 m ρ c main_v15 (by decide)))))))))))))))))))))))))).trans hi1).trans (same_val_main_v231 _))

/-- Message 2. -/
theorem ms2
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W31 m ρ c (Proc.devRef .tc main_v190) = Cert.ReferenceIdeal.ReadP.val_main_v266 (F := Ideal) (a0 m c) (a1 m c) (a4 m c) (a5 m c) (a6 m c) (a7 m c) (a8 m c) (a9 m c) (a16 m c) (a20 m c) (a21 m c) (a22 m c) (a23 m c) (a24 m c) (a25 m c) :=
  StretchL3.ms2 (W30 m ρ c) (a0 m c) (a1 m c) (a4 m c) (a5 m c) (a6 m c) (a7 m c) (a8 m c) (a9 m c) (a16 m c) (a20 m c) (a21 m c) (a22 m c) (a23 m c) (a24 m c) (a25 m c)
    ((W30_of_ne m ρ c main_v155 (by decide)).trans (h2 m ρ c hx1 hx2 hx3 hi0 hi1 hi2 hi3 hi4 hi5))
    (((W30_of_ne m ρ c main_arg22 (by decide)).trans ((W29_of_ne m ρ c main_arg22 (by decide)).trans ((W28_of_ne m ρ c main_arg22 (by decide)).trans ((Keep.keep27 m ρ c main_arg22 (by decide)).trans ((W26_of_ne m ρ c main_arg22 (by decide)).trans ((W25_of_ne m ρ c main_arg22 (by decide)).trans ((Keep.keep24 m ρ c main_arg22 (by decide)).trans ((W23_of_ne m ρ c main_arg22 (by decide)).trans ((W22_of_ne m ρ c main_arg22 (by decide)).trans ((W21_of_ne m ρ c main_arg22 (by decide)).trans ((Keep.keep20 m ρ c main_arg22 (by decide)).trans ((W19_of_ne m ρ c main_arg22 (by decide)).trans ((W18_of_ne m ρ c main_arg22 (by decide)).trans ((Keep.keep17 m ρ c main_arg22 (by decide)).trans ((W16_of_ne m ρ c main_arg22 (by decide)).trans ((W15_of_ne m ρ c main_arg22 (by decide)).trans ((W14_of_ne m ρ c main_arg22 (by decide)).trans ((Keep.keep13 m ρ c main_arg22 (by decide)).trans ((Keep.keep12 m ρ c main_arg22 (by decide)).trans ((Keep.keep11 m ρ c main_arg22 (by decide)).trans ((Keep.keep10 m ρ c main_arg22 (by decide)).trans ((Keep.keep9 m ρ c main_arg22 (by decide)).trans ((Keep.keep8 m ρ c main_arg22 (by decide)).trans ((Keep.keep7 m ρ c main_arg22 (by decide)).trans ((Keep.keep6 m ρ c main_arg22 (by decide)).trans ((Keep.keep5 m ρ c main_arg22 (by decide)).trans ((Keep.keep4 m ρ c main_arg22 (by decide)).trans ((Keep.keep3 m ρ c main_arg22 (by decide)).trans ((Keep.keep2 m ρ c main_arg22 (by decide)).trans (Keep.keep1 m ρ c main_arg22 (by decide))))))))))))))))))))))))))))))).trans rfl)
    (((W30_of_ne m ρ c main_arg23 (by decide)).trans ((W29_of_ne m ρ c main_arg23 (by decide)).trans ((W28_of_ne m ρ c main_arg23 (by decide)).trans ((Keep.keep27 m ρ c main_arg23 (by decide)).trans ((W26_of_ne m ρ c main_arg23 (by decide)).trans ((W25_of_ne m ρ c main_arg23 (by decide)).trans ((Keep.keep24 m ρ c main_arg23 (by decide)).trans ((W23_of_ne m ρ c main_arg23 (by decide)).trans ((W22_of_ne m ρ c main_arg23 (by decide)).trans ((W21_of_ne m ρ c main_arg23 (by decide)).trans ((Keep.keep20 m ρ c main_arg23 (by decide)).trans ((W19_of_ne m ρ c main_arg23 (by decide)).trans ((W18_of_ne m ρ c main_arg23 (by decide)).trans ((Keep.keep17 m ρ c main_arg23 (by decide)).trans ((W16_of_ne m ρ c main_arg23 (by decide)).trans ((W15_of_ne m ρ c main_arg23 (by decide)).trans ((W14_of_ne m ρ c main_arg23 (by decide)).trans ((Keep.keep13 m ρ c main_arg23 (by decide)).trans ((Keep.keep12 m ρ c main_arg23 (by decide)).trans ((Keep.keep11 m ρ c main_arg23 (by decide)).trans ((Keep.keep10 m ρ c main_arg23 (by decide)).trans ((Keep.keep9 m ρ c main_arg23 (by decide)).trans ((Keep.keep8 m ρ c main_arg23 (by decide)).trans ((Keep.keep7 m ρ c main_arg23 (by decide)).trans ((Keep.keep6 m ρ c main_arg23 (by decide)).trans ((Keep.keep5 m ρ c main_arg23 (by decide)).trans ((Keep.keep4 m ρ c main_arg23 (by decide)).trans ((Keep.keep3 m ρ c main_arg23 (by decide)).trans ((Keep.keep2 m ρ c main_arg23 (by decide)).trans (Keep.keep1 m ρ c main_arg23 (by decide))))))))))))))))))))))))))))))).trans rfl)
    ((((W30_of_ne m ρ c main_v31 (by decide)).trans ((W29_of_ne m ρ c main_v31 (by decide)).trans ((W28_of_ne m ρ c main_v31 (by decide)).trans ((Keep.keep27 m ρ c main_v31 (by decide)).trans ((W26_of_ne m ρ c main_v31 (by decide)).trans ((W25_of_ne m ρ c main_v31 (by decide)).trans ((Keep.keep24 m ρ c main_v31 (by decide)).trans ((W23_of_ne m ρ c main_v31 (by decide)).trans ((W22_of_ne m ρ c main_v31 (by decide)).trans ((W21_of_ne m ρ c main_v31 (by decide)).trans ((Keep.keep20 m ρ c main_v31 (by decide)).trans ((W19_of_ne m ρ c main_v31 (by decide)).trans ((W18_of_ne m ρ c main_v31 (by decide)).trans ((Keep.keep17 m ρ c main_v31 (by decide)).trans ((W16_of_ne m ρ c main_v31 (by decide)).trans ((W15_of_ne m ρ c main_v31 (by decide)).trans ((W14_of_ne m ρ c main_v31 (by decide)).trans ((Keep.keep13 m ρ c main_v31 (by decide)).trans ((Keep.keep12 m ρ c main_v31 (by decide)).trans ((Keep.keep11 m ρ c main_v31 (by decide)).trans (Keep.keep10 m ρ c main_v31 (by decide)))))))))))))))))))))).trans hi3).trans (same_val_main_v264 _))

/-- Message 3. -/
theorem ms3
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W31 m ρ c (Proc.devRef .tc main_v192) = Cert.ReferenceIdeal.ReadP.val_main_v299 (F := Ideal) (a0 m c) (a1 m c) (a2 m c) (a3 m c) (a4 m c) (a5 m c) (a6 m c) (a7 m c) (a10 m c) (a11 m c) (a12 m c) (a13 m c) (a18 m c) (a20 m c) (a21 m c) (a22 m c) (a23 m c) (a24 m c) (a25 m c) :=
  StretchL3.ms3 (W30 m ρ c) (a0 m c) (a1 m c) (a2 m c) (a3 m c) (a4 m c) (a5 m c) (a6 m c) (a7 m c) (a10 m c) (a11 m c) (a12 m c) (a13 m c) (a18 m c) (a20 m c) (a21 m c) (a22 m c) (a23 m c) (a24 m c) (a25 m c)
    (rfl.trans (h3 m ρ c hx1 hx2 hx3 hi0 hi1 hi2 hi3 hi4 hi5))
    (((W30_of_ne m ρ c main_arg24 (by decide)).trans ((W29_of_ne m ρ c main_arg24 (by decide)).trans ((W28_of_ne m ρ c main_arg24 (by decide)).trans ((Keep.keep27 m ρ c main_arg24 (by decide)).trans ((W26_of_ne m ρ c main_arg24 (by decide)).trans ((W25_of_ne m ρ c main_arg24 (by decide)).trans ((Keep.keep24 m ρ c main_arg24 (by decide)).trans ((W23_of_ne m ρ c main_arg24 (by decide)).trans ((W22_of_ne m ρ c main_arg24 (by decide)).trans ((W21_of_ne m ρ c main_arg24 (by decide)).trans ((Keep.keep20 m ρ c main_arg24 (by decide)).trans ((W19_of_ne m ρ c main_arg24 (by decide)).trans ((W18_of_ne m ρ c main_arg24 (by decide)).trans ((Keep.keep17 m ρ c main_arg24 (by decide)).trans ((W16_of_ne m ρ c main_arg24 (by decide)).trans ((W15_of_ne m ρ c main_arg24 (by decide)).trans ((W14_of_ne m ρ c main_arg24 (by decide)).trans ((Keep.keep13 m ρ c main_arg24 (by decide)).trans ((Keep.keep12 m ρ c main_arg24 (by decide)).trans ((Keep.keep11 m ρ c main_arg24 (by decide)).trans ((Keep.keep10 m ρ c main_arg24 (by decide)).trans ((Keep.keep9 m ρ c main_arg24 (by decide)).trans ((Keep.keep8 m ρ c main_arg24 (by decide)).trans ((Keep.keep7 m ρ c main_arg24 (by decide)).trans ((Keep.keep6 m ρ c main_arg24 (by decide)).trans ((Keep.keep5 m ρ c main_arg24 (by decide)).trans ((Keep.keep4 m ρ c main_arg24 (by decide)).trans ((Keep.keep3 m ρ c main_arg24 (by decide)).trans ((Keep.keep2 m ρ c main_arg24 (by decide)).trans (Keep.keep1 m ρ c main_arg24 (by decide))))))))))))))))))))))))))))))).trans rfl)
    (((W30_of_ne m ρ c main_arg25 (by decide)).trans ((W29_of_ne m ρ c main_arg25 (by decide)).trans ((W28_of_ne m ρ c main_arg25 (by decide)).trans ((Keep.keep27 m ρ c main_arg25 (by decide)).trans ((W26_of_ne m ρ c main_arg25 (by decide)).trans ((W25_of_ne m ρ c main_arg25 (by decide)).trans ((Keep.keep24 m ρ c main_arg25 (by decide)).trans ((W23_of_ne m ρ c main_arg25 (by decide)).trans ((W22_of_ne m ρ c main_arg25 (by decide)).trans ((W21_of_ne m ρ c main_arg25 (by decide)).trans ((Keep.keep20 m ρ c main_arg25 (by decide)).trans ((W19_of_ne m ρ c main_arg25 (by decide)).trans ((W18_of_ne m ρ c main_arg25 (by decide)).trans ((Keep.keep17 m ρ c main_arg25 (by decide)).trans ((W16_of_ne m ρ c main_arg25 (by decide)).trans ((W15_of_ne m ρ c main_arg25 (by decide)).trans ((W14_of_ne m ρ c main_arg25 (by decide)).trans ((Keep.keep13 m ρ c main_arg25 (by decide)).trans ((Keep.keep12 m ρ c main_arg25 (by decide)).trans ((Keep.keep11 m ρ c main_arg25 (by decide)).trans ((Keep.keep10 m ρ c main_arg25 (by decide)).trans ((Keep.keep9 m ρ c main_arg25 (by decide)).trans ((Keep.keep8 m ρ c main_arg25 (by decide)).trans ((Keep.keep7 m ρ c main_arg25 (by decide)).trans ((Keep.keep6 m ρ c main_arg25 (by decide)).trans ((Keep.keep5 m ρ c main_arg25 (by decide)).trans ((Keep.keep4 m ρ c main_arg25 (by decide)).trans ((Keep.keep3 m ρ c main_arg25 (by decide)).trans ((Keep.keep2 m ρ c main_arg25 (by decide)).trans (Keep.keep1 m ρ c main_arg25 (by decide))))))))))))))))))))))))))))))).trans rfl)
    ((((W30_of_ne m ρ c main_v47 (by decide)).trans ((W29_of_ne m ρ c main_v47 (by decide)).trans ((W28_of_ne m ρ c main_v47 (by decide)).trans ((Keep.keep27 m ρ c main_v47 (by decide)).trans ((W26_of_ne m ρ c main_v47 (by decide)).trans ((W25_of_ne m ρ c main_v47 (by decide)).trans ((Keep.keep24 m ρ c main_v47 (by decide)).trans ((W23_of_ne m ρ c main_v47 (by decide)).trans ((W22_of_ne m ρ c main_v47 (by decide)).trans ((W21_of_ne m ρ c main_v47 (by decide)).trans ((Keep.keep20 m ρ c main_v47 (by decide)).trans ((W19_of_ne m ρ c main_v47 (by decide)).trans ((W18_of_ne m ρ c main_v47 (by decide)).trans ((Keep.keep17 m ρ c main_v47 (by decide)).trans ((W16_of_ne m ρ c main_v47 (by decide)).trans ((W15_of_ne m ρ c main_v47 (by decide)).trans (W14_of_ne m ρ c main_v47 (by decide)))))))))))))))))).trans hi5).trans (same_val_main_v297 _))

/-- The bias row of the type-B output. -/
theorem bias1 : W31 m ρ c (Proc.devRef .tc main_v193) = Cert.RefLaws.biasK (a15 m c) :=
  StretchL3.bias1 (W30 m ρ c) (a15 m c) (((W30_of_ne m ρ c main_arg15 (by decide)).trans ((W29_of_ne m ρ c main_arg15 (by decide)).trans ((W28_of_ne m ρ c main_arg15 (by decide)).trans ((Keep.keep27 m ρ c main_arg15 (by decide)).trans ((W26_of_ne m ρ c main_arg15 (by decide)).trans ((W25_of_ne m ρ c main_arg15 (by decide)).trans ((Keep.keep24 m ρ c main_arg15 (by decide)).trans ((W23_of_ne m ρ c main_arg15 (by decide)).trans ((W22_of_ne m ρ c main_arg15 (by decide)).trans ((W21_of_ne m ρ c main_arg15 (by decide)).trans ((Keep.keep20 m ρ c main_arg15 (by decide)).trans ((W19_of_ne m ρ c main_arg15 (by decide)).trans ((W18_of_ne m ρ c main_arg15 (by decide)).trans ((Keep.keep17 m ρ c main_arg15 (by decide)).trans ((W16_of_ne m ρ c main_arg15 (by decide)).trans ((W15_of_ne m ρ c main_arg15 (by decide)).trans ((W14_of_ne m ρ c main_arg15 (by decide)).trans ((Keep.keep13 m ρ c main_arg15 (by decide)).trans ((Keep.keep12 m ρ c main_arg15 (by decide)).trans ((Keep.keep11 m ρ c main_arg15 (by decide)).trans ((Keep.keep10 m ρ c main_arg15 (by decide)).trans ((Keep.keep9 m ρ c main_arg15 (by decide)).trans ((Keep.keep8 m ρ c main_arg15 (by decide)).trans ((Keep.keep7 m ρ c main_arg15 (by decide)).trans ((Keep.keep6 m ρ c main_arg15 (by decide)).trans ((Keep.keep5 m ρ c main_arg15 (by decide)).trans ((Keep.keep4 m ρ c main_arg15 (by decide)).trans ((Keep.keep3 m ρ c main_arg15 (by decide)).trans ((Keep.keep2 m ρ c main_arg15 (by decide)).trans (Keep.keep1 m ρ c main_arg15 (by decide))))))))))))))))))))))))))))))).trans rfl)

/-- The bias row of the type-A output. -/
theorem bias23 : W31 m ρ c (Proc.devRef .tc main_v195) = Cert.RefLaws.biasK (addf (F := Ideal) (a17 m c) (a19 m c)) :=
  StretchL3.bias23 (W30 m ρ c) (a17 m c) (a19 m c) (((W30_of_ne m ρ c main_arg17 (by decide)).trans ((W29_of_ne m ρ c main_arg17 (by decide)).trans ((W28_of_ne m ρ c main_arg17 (by decide)).trans ((Keep.keep27 m ρ c main_arg17 (by decide)).trans ((W26_of_ne m ρ c main_arg17 (by decide)).trans ((W25_of_ne m ρ c main_arg17 (by decide)).trans ((Keep.keep24 m ρ c main_arg17 (by decide)).trans ((W23_of_ne m ρ c main_arg17 (by decide)).trans ((W22_of_ne m ρ c main_arg17 (by decide)).trans ((W21_of_ne m ρ c main_arg17 (by decide)).trans ((Keep.keep20 m ρ c main_arg17 (by decide)).trans ((W19_of_ne m ρ c main_arg17 (by decide)).trans ((W18_of_ne m ρ c main_arg17 (by decide)).trans ((Keep.keep17 m ρ c main_arg17 (by decide)).trans ((W16_of_ne m ρ c main_arg17 (by decide)).trans ((W15_of_ne m ρ c main_arg17 (by decide)).trans ((W14_of_ne m ρ c main_arg17 (by decide)).trans ((Keep.keep13 m ρ c main_arg17 (by decide)).trans ((Keep.keep12 m ρ c main_arg17 (by decide)).trans ((Keep.keep11 m ρ c main_arg17 (by decide)).trans ((Keep.keep10 m ρ c main_arg17 (by decide)).trans ((Keep.keep9 m ρ c main_arg17 (by decide)).trans ((Keep.keep8 m ρ c main_arg17 (by decide)).trans ((Keep.keep7 m ρ c main_arg17 (by decide)).trans ((Keep.keep6 m ρ c main_arg17 (by decide)).trans ((Keep.keep5 m ρ c main_arg17 (by decide)).trans ((Keep.keep4 m ρ c main_arg17 (by decide)).trans ((Keep.keep3 m ρ c main_arg17 (by decide)).trans ((Keep.keep2 m ρ c main_arg17 (by decide)).trans (Keep.keep1 m ρ c main_arg17 (by decide))))))))))))))))))))))))))))))).trans rfl) (((W30_of_ne m ρ c main_arg19 (by decide)).trans ((W29_of_ne m ρ c main_arg19 (by decide)).trans ((W28_of_ne m ρ c main_arg19 (by decide)).trans ((Keep.keep27 m ρ c main_arg19 (by decide)).trans ((W26_of_ne m ρ c main_arg19 (by decide)).trans ((W25_of_ne m ρ c main_arg19 (by decide)).trans ((Keep.keep24 m ρ c main_arg19 (by decide)).trans ((W23_of_ne m ρ c main_arg19 (by decide)).trans ((W22_of_ne m ρ c main_arg19 (by decide)).trans ((W21_of_ne m ρ c main_arg19 (by decide)).trans ((Keep.keep20 m ρ c main_arg19 (by decide)).trans ((W19_of_ne m ρ c main_arg19 (by decide)).trans ((W18_of_ne m ρ c main_arg19 (by decide)).trans ((Keep.keep17 m ρ c main_arg19 (by decide)).trans ((W16_of_ne m ρ c main_arg19 (by decide)).trans ((W15_of_ne m ρ c main_arg19 (by decide)).trans ((W14_of_ne m ρ c main_arg19 (by decide)).trans ((Keep.keep13 m ρ c main_arg19 (by decide)).trans ((Keep.keep12 m ρ c main_arg19 (by decide)).trans ((Keep.keep11 m ρ c main_arg19 (by decide)).trans ((Keep.keep10 m ρ c main_arg19 (by decide)).trans ((Keep.keep9 m ρ c main_arg19 (by decide)).trans ((Keep.keep8 m ρ c main_arg19 (by decide)).trans ((Keep.keep7 m ρ c main_arg19 (by decide)).trans ((Keep.keep6 m ρ c main_arg19 (by decide)).trans ((Keep.keep5 m ρ c main_arg19 (by decide)).trans ((Keep.keep4 m ρ c main_arg19 (by decide)).trans ((Keep.keep3 m ρ c main_arg19 (by decide)).trans ((Keep.keep2 m ρ c main_arg19 (by decide)).trans (Keep.keep1 m ρ c main_arg19 (by decide))))))))))))))))))))))))))))))).trans rfl)

/-- The layer's output for node type B. -/
theorem outB
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W32 m ρ c (Proc.devRef .tc main_v196) = Cert.ReferenceIdeal.ReadP.val_main_v236 (F := Ideal) (a0 m c) (a1 m c) (a2 m c) (a3 m c) (a4 m c) (a5 m c) (a6 m c) (a7 m c) (a10 m c) (a11 m c) (a12 m c) (a13 m c) (a14 m c) (a15 m c) (a20 m c) (a21 m c) (a22 m c) (a23 m c) (a24 m c) (a25 m c) := by
  refine (W32_arr m ρ c 2).trans ?_
  rw [Region13.arr_eq]
  show c1nSpec (W31 m ρ c (Proc.devRef .tc main_v188)) (W31 m ρ c (Proc.devRef .tc main_v193)) = _
  rw [ms1 m ρ c hx1 hx2 hx3 hi0 hi1 hi2 hi3 hi4 hi5, bias1 m ρ c]
  exact (Cert.RefLaws.c1n_glue _ _).trans rfl

/-- The layer's output for node type A. -/
theorem outA
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W33 m ρ c (Proc.devRef .tc main_v197) = Cert.ReferenceIdeal.ReadP.val_main_v303 (F := Ideal) (a0 m c) (a1 m c) (a2 m c) (a3 m c) (a4 m c) (a5 m c) (a6 m c) (a7 m c) (a8 m c) (a9 m c) (a10 m c) (a11 m c) (a12 m c) (a13 m c) (a16 m c) (a17 m c) (a18 m c) (a19 m c) (a20 m c) (a21 m c) (a22 m c) (a23 m c) (a24 m c) (a25 m c) := by
  refine (W33_arr m ρ c 3).trans ?_
  rw [Region14.arr_eq]
  show c2nSpec (W32 m ρ c (Proc.devRef .tc main_v190)) (W32 m ρ c (Proc.devRef .tc main_v192)) (W32 m ρ c (Proc.devRef .tc main_v195)) = _
  rw [show W32 m ρ c (Proc.devRef .tc main_v190) = _ from ((W32_of_ne m ρ c main_v190 (by decide)).trans (ms2 m ρ c hx1 hx2 hx3 hi0 hi1 hi2 hi3 hi4 hi5)),
    show W32 m ρ c (Proc.devRef .tc main_v192) = _ from ((W32_of_ne m ρ c main_v192 (by decide)).trans (ms3 m ρ c hx1 hx2 hx3 hi0 hi1 hi2 hi3 hi4 hi5)),
    show W32 m ρ c (Proc.devRef .tc main_v195) = _ from ((W32_of_ne m ρ c main_v195 (by decide)).trans (bias23 m ρ c))]
  exact (Cert.RefLaws.c2n_glue _ _ _ _).trans rfl

/-- The result buffer after the last stretch: the two outputs stacked, type A first. -/
theorem result
    (hx1 : W27 m ρ c (Proc.devRef .tc main_v149) = Cert.ReferenceIdeal.ReadP.val_main_v217 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hx2 : W27 m ρ c (Proc.devRef .tc main_v151) = Cert.ReferenceIdeal.ReadP.val_main_v250 (F := Ideal) (a0 m c) (a1 m c) (a4 m c) (a5 m c) (a6 m c) (a7 m c) (a8 m c) (a9 m c) (a20 m c) (a21 m c) (a22 m c) (a23 m c) (a24 m c) (a25 m c))
    (hx3 : W27 m ρ c (Proc.devRef .tc main_v153) = Cert.ReferenceIdeal.ReadP.val_main_v283 (F := Ideal) (a0 m c) (a1 m c) (a2 m c) (a3 m c) (a4 m c) (a5 m c) (a6 m c) (a7 m c) (a10 m c) (a11 m c) (a12 m c) (a13 m c) (a20 m c) (a21 m c) (a22 m c) (a23 m c) (a24 m c) (a25 m c))
    (hi0 : W3 m ρ c (Proc.devRef .tc main_v7) = Cert.ReferenceIdeal.ReadP.val_main_v11 (F := Ideal) (a20 m c))
    (hi1 : W5 m ρ c (Proc.devRef .tc main_v15) = Cert.ReferenceIdeal.ReadP.val_main_v27 (F := Ideal) (a21 m c))
    (hi2 : W7 m ρ c (Proc.devRef .tc main_v23) = Cert.ReferenceIdeal.ReadP.val_main_v44 (F := Ideal) (a22 m c))
    (hi3 : W9 m ρ c (Proc.devRef .tc main_v31) = Cert.ReferenceIdeal.ReadP.val_main_v60 (F := Ideal) (a23 m c))
    (hi4 : W11 m ρ c (Proc.devRef .tc main_v39) = Cert.ReferenceIdeal.ReadP.val_main_v77 (F := Ideal) (a24 m c))
    (hi5 : W13 m ρ c (Proc.devRef .tc main_v47) = Cert.ReferenceIdeal.ReadP.val_main_v93 (F := Ideal) (a25 m c)) :
    W34 m ρ c (Proc.devRef .tc main_v200) = Cert.ReferenceIdeal.ReadP.val_main_v306 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) :=
  StretchL3.result (W33 m ρ c) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c)
    (outA m ρ c hx1 hx2 hx3 hi0 hi1 hi2 hi3 hi4 hi5)
    ((W33_of_ne m ρ c main_v196 (by decide)).trans (outB m ρ c hx1 hx2 hx3 hi0 hi1 hi2 hi3 hi4 hi5))

end Cert.KernelIdeal.Chain3

end
-- ==== Proof.Whole.lean ====
/-
  The kernel's whole run, read. Its program is thirty-four segments — stretches of host operations and the
  fifteen regions — and the contents of every buffer at each boundary between segments are a function of the
  launch memory: after a stretch, the stretch's operations applied; after a region, the region's arrays at what
  its write-backs leave. Every weakly fair execution terminates with every buffer at the last boundary's
  contents; the result buffer there is the reference's last stage of the argument arrays (theorem result).
-/
import proofs.«156020_j6296422056695_1_alg».proof.Proof.ChainPre
import proofs.«156020_j6296422056695_1_alg».proof.Proof.Chain1
import proofs.«156020_j6296422056695_1_alg».proof.Proof.Chain2
import proofs.«156020_j6296422056695_1_alg».proof.Proof.Chain3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

open scoped BigOperators

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Track

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, without a fault, with every unscoped buffer of every core at the
    contents the last boundary names. The segments chain (each leaves the thread state the next one takes), the
    launch deals the first thread state, and the last one is read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W34 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h => h)

end Cert.KernelIdeal.Whole

namespace Cert.KernelIdeal.Whole

open Idealize.ShloMosaic Idealize.ShloMosaic.TcCoe Idealize.SL.Sem
open Cert.KernelIdeal Cert.KernelIdeal.Gen Cert.KernelIdeal.Track

/-- The result buffer at the last boundary is the reference's last stage of the argument arrays: the facts of the
    preliminary host code feed layer 1, each layer's outputs (scaled) feed the next, and the last stretch stacks
    the third layer's two outputs. -/
theorem result (m : (ℓ : Loc nD τ sig) → Buf (Elt Ideal) ℓ) (ρ : Dev nD → PrngReg) (c : Dev nD) :
    W34 m ρ c (Proc.devRef .tc main_v200) = Cert.ReferenceIdeal.ReadP.val_main_v306 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) := by
  have i0 := ChainPre.inv0 m ρ c
  have i1 := ChainPre.inv1 m ρ c
  have i2 := ChainPre.inv2 m ρ c
  have i3 := ChainPre.inv3 m ρ c
  have i4 := ChainPre.inv4 m ρ c
  have i5 := ChainPre.inv5 m ρ c
  have x11 := ChainPre.x1 m ρ c
  have x12 := ChainPre.x2 m ρ c
  have x13 := ChainPre.x3 m ρ c
  have x21 := Chain1.nx1 m ρ c x11 x12 x13 i0 i1 i2 i3 i4 i5
  have x22 := Chain1.nx2 m ρ c x11 x12 x13 i0 i1 i2 i3 i4 i5
  have x23 := Chain1.nx3 m ρ c x11 x12 x13 i0 i1 i2 i3 i4 i5
  have x31 := Chain2.nx1 m ρ c x21 x22 x23 i0 i1 i2 i3 i4 i5
  have x32 := Chain2.nx2 m ρ c x21 x22 x23 i0 i1 i2 i3 i4 i5
  have x33 := Chain2.nx3 m ρ c x21 x22 x23 i0 i1 i2 i3 i4 i5
  exact Chain3.result m ρ c x31 x32 x33 i0 i1 i2 i3 i4 i5

/-- On the extended reals: the result buffer ends at the reference's last stage of the argument arrays, and the
    argument arrays end as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v200) = Cert.ReferenceIdeal.ReadP.val_main_v306 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_uc main_v200 (by decide))).trans (result m ρ c),
      (h c _ (mem_uc main_arg0 (by decide))).trans (W34_main_arg0 m ρ c),
      (h c _ (mem_uc main_arg1 (by decide))).trans (W34_main_arg1 m ρ c),
      (h c _ (mem_uc main_arg2 (by decide))).trans (W34_main_arg2 m ρ c),
      (h c _ (mem_uc main_arg3 (by decide))).trans (W34_main_arg3 m ρ c),
      (h c _ (mem_uc main_arg4 (by decide))).trans (W34_main_arg4 m ρ c),
      (h c _ (mem_uc main_arg5 (by decide))).trans (W34_main_arg5 m ρ c),
      (h c _ (mem_uc main_arg6 (by decide))).trans (W34_main_arg6 m ρ c),
      (h c _ (mem_uc main_arg7 (by decide))).trans (W34_main_arg7 m ρ c),
      (h c _ (mem_uc main_arg8 (by decide))).trans (W34_main_arg8 m ρ c),
      (h c _ (mem_uc main_arg9 (by decide))).trans (W34_main_arg9 m ρ c),
      (h c _ (mem_uc main_arg10 (by decide))).trans (W34_main_arg10 m ρ c),
      (h c _ (mem_uc main_arg11 (by decide))).trans (W34_main_arg11 m ρ c),
      (h c _ (mem_uc main_arg12 (by decide))).trans (W34_main_arg12 m ρ c),
      (h c _ (mem_uc main_arg13 (by decide))).trans (W34_main_arg13 m ρ c),
      (h c _ (mem_uc main_arg14 (by decide))).trans (W34_main_arg14 m ρ c),
      (h c _ (mem_uc main_arg15 (by decide))).trans (W34_main_arg15 m ρ c),
      (h c _ (mem_uc main_arg16 (by decide))).trans (W34_main_arg16 m ρ c),
      (h c _ (mem_uc main_arg17 (by decide))).trans (W34_main_arg17 m ρ c),
      (h c _ (mem_uc main_arg18 (by decide))).trans (W34_main_arg18 m ρ c),
      (h c _ (mem_uc main_arg19 (by decide))).trans (W34_main_arg19 m ρ c),
      (h c _ (mem_uc main_arg20 (by decide))).trans (W34_main_arg20 m ρ c),
      (h c _ (mem_uc main_arg21 (by decide))).trans (W34_main_arg21 m ρ c),
      (h c _ (mem_uc main_arg22 (by decide))).trans (W34_main_arg22 m ρ c),
      (h c _ (mem_uc main_arg23 (by decide))).trans (W34_main_arg23 m ρ c),
      (h c _ (mem_uc main_arg24 (by decide))).trans (W34_main_arg24 m ρ c),
      (h c _ (mem_uc main_arg25 (by decide))).trans (W34_main_arg25 m ρ c)⟩)
    (run_all m ρ)

end Cert.KernelIdeal.Whole

end
-- ==== Proof.lean ====
/-
  The certificate of a three-layer relational graph convolution on two node types.

  Each layer computes, for each of three relations, (features · d_out^(−1/2)) times the relation's weight matrix,
  sums the product's rows over the relation's edges into the destination nodes, scales by d_in^(−1/2) and adds
  the relation's bias; a node type's output is the sum over the relations that end in it, followed (in the first
  two layers) by the maximum with zero. The kernel program does the nine products in row blocks of 10000 rows on
  the matrix unit after a change to a narrow float format, and the bias additions and maxima in row blocks of 5000
  rows; the reference does each on the whole array.

  On the extended reals the change of format is the identity, a blocked product is the product, and the only
  algebraic difference is the grouping (m2 + m3) + (b2 + b3) against (m2 + b2) + (m3 + b3) in the type-A output,
  which needs only commutativity and associativity of addition: no finiteness of the inputs is used.

  The three frames are the generated ones (the reference's is its generated run with the result dropped); the
  idealization changed nothing that needs a statement; the value claim pairs the kernel's whole run (Whole.run_value)
  with the reference's generated run, both results being the reference's last stage of the argument arrays.
-/
import proofs.«156020_j6296422056695_1_alg».proof.Defs
import proofs.«156020_j6296422056695_1_alg».proof.Proof.Gen.Kernel
import proofs.«156020_j6296422056695_1_alg».proof.Proof.Gen.Kernel.Skeleton
import proofs.«156020_j6296422056695_1_alg».proof.Proof.Gen.Kernel.Launch
import proofs.«156020_j6296422056695_1_alg».proof.Proof.Gen.Kernel.Points
import proofs.«156020_j6296422056695_1_alg».proof.Proof.Gen.Kernel.Frame
import proofs.«156020_j6296422056695_1_alg».proof.Proof.Gen.KernelIdeal
import proofs.«156020_j6296422056695_1_alg».proof.Proof.Gen.KernelIdeal.Skeleton
import proofs.«156020_j6296422056695_1_alg».proof.Proof.Gen.KernelIdeal.Launch
import proofs.«156020_j6296422056695_1_alg».proof.Proof.Gen.KernelIdeal.Points
import proofs.«156020_j6296422056695_1_alg».proof.Proof.Gen.KernelIdeal.Frame
import proofs.«156020_j6296422056695_1_alg».proof.Proof.Gen.ReferenceIdeal
import proofs.«156020_j6296422056695_1_alg».proof.Proof.RunP
import proofs.«156020_j6296422056695_1_alg».proof.Proof.ReadP
import proofs.«156020_j6296422056695_1_alg».proof.Proof.Gen.Pre_finite_inputs
import proofs.«156020_j6296422056695_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization recorded no rewrite: nothing to state. -/
theorem preserves : Cert.preserves_Kernel_KernelIdeal := trivial

/-- From memories that agree on the arguments both programs end with the result at the reference's last stage
    of those arguments. -/
theorem algebraic : Cert.algebraic_KernelIdeal_ReferenceIdeal := by
  intro m ρ m' ρ' _ hagree
  refine ⟨fun c => Cert.ReferenceIdeal.ReadP.val_main_v306 (F := Ideal) (Cert.KernelIdeal.Track.a0 m c) (Cert.KernelIdeal.Track.a1 m c) (Cert.KernelIdeal.Track.a2 m c) (Cert.KernelIdeal.Track.a3 m c) (Cert.KernelIdeal.Track.a4 m c) (Cert.KernelIdeal.Track.a5 m c) (Cert.KernelIdeal.Track.a6 m c) (Cert.KernelIdeal.Track.a7 m c) (Cert.KernelIdeal.Track.a8 m c) (Cert.KernelIdeal.Track.a9 m c) (Cert.KernelIdeal.Track.a10 m c) (Cert.KernelIdeal.Track.a11 m c) (Cert.KernelIdeal.Track.a12 m c) (Cert.KernelIdeal.Track.a13 m c) (Cert.KernelIdeal.Track.a14 m c) (Cert.KernelIdeal.Track.a15 m c) (Cert.KernelIdeal.Track.a16 m c) (Cert.KernelIdeal.Track.a17 m c) (Cert.KernelIdeal.Track.a18 m c) (Cert.KernelIdeal.Track.a19 m c) (Cert.KernelIdeal.Track.a20 m c) (Cert.KernelIdeal.Track.a21 m c) (Cert.KernelIdeal.Track.a22 m c) (Cert.KernelIdeal.Track.a23 m c) (Cert.KernelIdeal.Track.a24 m c) (Cert.KernelIdeal.Track.a25 m c), Cert.KernelIdeal.Whole.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v306_eq]
  show _ = Cert.ReferenceIdeal.ReadP.val_main_v306 (F := Ideal) (Cert.KernelIdeal.Track.a0 m c) (Cert.KernelIdeal.Track.a1 m c) (Cert.KernelIdeal.Track.a2 m c) (Cert.KernelIdeal.Track.a3 m c) (Cert.KernelIdeal.Track.a4 m c) (Cert.KernelIdeal.Track.a5 m c) (Cert.KernelIdeal.Track.a6 m c) (Cert.KernelIdeal.Track.a7 m c) (Cert.KernelIdeal.Track.a8 m c) (Cert.KernelIdeal.Track.a9 m c) (Cert.KernelIdeal.Track.a10 m c) (Cert.KernelIdeal.Track.a11 m c) (Cert.KernelIdeal.Track.a12 m c) (Cert.KernelIdeal.Track.a13 m c) (Cert.KernelIdeal.Track.a14 m c) (Cert.KernelIdeal.Track.a15 m c) (Cert.KernelIdeal.Track.a16 m c) (Cert.KernelIdeal.Track.a17 m c) (Cert.KernelIdeal.Track.a18 m c) (Cert.KernelIdeal.Track.a19 m c) (Cert.KernelIdeal.Track.a20 m c) (Cert.KernelIdeal.Track.a21 m c) (Cert.KernelIdeal.Track.a22 m c) (Cert.KernelIdeal.Track.a23 m c) (Cert.KernelIdeal.Track.a24 m c) (Cert.KernelIdeal.Track.a25 m c)
  obtain ⟨e0, e1, e2, e3, e4, e5, e6, e7, e8, e9, e10, e11, e12, e13, e14, e15, e16, e17, e18, e19, e20, e21, e22, e23, e24, e25⟩ := hagree c
  rw [e0, e1, e2, e3, e4, e5, e6, e7, e8, e9, e10, e11, e12, e13, e14, e15, e16, e17, e18, e19, e20, e21, e22, e23, e24, e25]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
